-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64x64 : Shape := ⟨4, ![8, 512, 64, 64]⟩
abbrev S256x512 : Shape := ⟨2, ![256, 512]⟩
abbrev S512x512 : Shape := ⟨2, ![512, 512]⟩
abbrev S8x512x4096 : Shape := ⟨3, ![8, 512, 4096]⟩
abbrev S8x4096x512 : Shape := ⟨3, ![8, 4096, 512]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩

class Facts : Prop where
  shapeCasts_S8x512x64x64_S8x512x4096 : S8x512x64x64.ShapeCasts S8x512x4096
  transposes_S8x512x4096_S8x4096x512_0_2_1 : S8x512x4096.Transposes [0, 2, 1] S8x4096x512
  bcast_S_S8x512x64x64 : S_.BroadcastsInDim S8x512x64x64 (![] : Fin 0 → Fin S8x512x64x64.rank)
  reducesTo_S8x512x64x64_S_d0_1_2_3 : S8x512x64x64.ReducesTo [0, 1, 2, 3] S_
  h_S_ : 0 < S_.numel
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  reducesTo_S8x4096x256_S8x4096_d2 : S8x4096x256.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  reducesTo_S8x4096x1_S_d0_1_2 : S8x4096x1.ReducesTo [0, 1, 2] S_
  dot_S8x4096x512_S256x512_S8x4096x256_2_1_01_0_n_n_wf : DotDims.WF S8x4096x512 S256x512 S8x4096x256 [2] [1] [0, 1] [0] [] []

variable [Facts]

def dot_S8x4096x512_S256x512_S8x4096x256_2_1_01_0_n_n : DotDims S8x4096x512 S256x512 S8x4096x256 where
  lhsContracting := [2]
  rhsContracting := [1]
  lhsNonContracting := [0, 1]
  rhsNonContracting := [0]
  lhsBatch := []
  rhsBatch := []
  wf := dot_S8x4096x512_S256x512_S8x4096x256_2_1_01_0_n_n_wf
def fn_part2 {F : FTy → Type} [FloatOps F] (main_v30 : IVec S_ 1) (main_v34 : FVec F S8x4096x1 .f32) (main_cst_10 : FVec F S_ .f32) : IVec S_ 1 :=
  let main_v35 : FVec F S8x4096x1 .f32 := broadcastInDim S8x4096x1 ![] bcast_S_S8x4096x1 main_cst_10
  let main_v36 : IVec S8x4096x1 1 := cmpf .ogt main_v34 main_v35
  let main_c_11 : IVec S_ 1 := constantI S_ 1 1#1
  let main_v37 : IVec S_ 1 := (fun x v => Host.reduce IntOp.andi x v reducesTo_S8x4096x1_S_d0_1_2 h_S_) main_v36 main_c_11
  let main_v38 : IVec S_ 1 := andi main_v30 main_v37
  main_v38

def fn_part1 {F : FTy → Type} [FloatOps F] (main_arg3 : FVec F S512x512 .f32) (main_v2 : FVec F S8x4096x256 .f32) (main_v3 : FVec F S8x4096x256 .f32) (main_v17 : IVec S_ 1) : IVec S_ 1 :=
  let main_v18 : FVec F S512x512 .f32 := Host.absf main_arg3
  let main_cst_4 : FVec F S_ .f32 := constant S_ .f32 0x7F800000#32
  let main_v19 : FVec F S512x512 .f32 := broadcastInDim S512x512 ![] bcast_S_S512x512 main_cst_4
  let main_v20 : IVec S512x512 1 := cmpf .olt main_v18 main_v19
  let main_c_5 : IVec S_ 1 := constantI S_ 1 1#1
  let main_v21 : IVec S_ 1 := (fun x v => Host.reduce IntOp.andi x v reducesTo_S512x512_S_d0_1 h_S_) main_v20 main_c_5
  let main_v22 : IVec S_ 1 := andi main_v17 main_v21
  let main_v23 : FVec F S8x4096x256 .f32 := mulf main_v2 main_v2
  let main_cst_6 : FVec F S_ .f32 := constant S_ .f32 0x00000000#32
  let main_v24 : FVec F S8x4096 .f32 := (fun x v => Host.reduceAdd x v reducesTo_S8x4096x256_S8x4096_d2 h_S_) main_v23 main_cst_6
  let main_v25 : FVec F S8x4096x1 .f32 := broadcastInDim S8x4096x1 ![0, 1] bcast_S8x4096_S8x4096x1_0_1 main_v24
  let main_v26 : FVec F S8x4096x1 .f32 := Host.sqrt main_v25
  let main_cst_7 : FVec F S_ .f32 := constant S_ .f32 0x00000000#32
  let main_v27 : FVec F S8x4096x1 .f32 := broadcastInDim S8x4096x1 ![] bcast_S_S8x4096x1 main_cst_7
  let main_v28 : IVec S8x4096x1 1 := cmpf .ogt main_v26 main_v27
  let main_c_8 : IVec S_ 1 := constantI S_ 1 1#1
  let main_v29 : IVec S_ 1 := (fun x v => Host.reduce IntOp.andi x v reducesTo_S8x4096x1_S_d0_1_2 h_S_) main_v28 main_c_8
  let main_v30 : IVec S_ 1 := andi main_v22 main_v29
  let main_v31 : FVec F S8x4096x256 .f32 := mulf main_v3 main_v3
  let main_cst_9 : FVec F S_ .f32 := constant S_ .f32 0x00000000#32
  let main_v32 : FVec F S8x4096 .f32 := (fun x v => Host.reduceAdd x v reducesTo_S8x4096x256_S8x4096_d2 h_S_) main_v31 main_cst_9
  let main_v33 : FVec F S8x4096x1 .f32 := broadcastInDim S8x4096x1 ![0, 1] bcast_S8x4096_S8x4096x1_0_1 main_v32
  let main_v34 : FVec F S8x4096x1 .f32 := Host.sqrt main_v33
  let main_cst_10 : FVec F S_ .f32 := constant S_ .f32 0x00000000#32
  fn_part2 (F := F) main_v30 main_v34 main_cst_10

def fn {F : FTy → Type} [FloatOps F] (main_arg0 : FVec F S8x512x64x64 .f32) (main_arg1 : FVec F S256x512 .f32) (main_arg2 : FVec F S256x512 .f32) (main_arg3 : FVec F S512x512 .f32) : IVec S_ 1 :=
  let main_v0 : FVec F S8x512x4096 .f32 := shapeCast S8x512x4096 main_arg0 shapeCasts_S8x512x64x64_S8x512x4096
  let main_v1 : FVec F S8x4096x512 .f32 := (transpose S8x4096x512 [0, 2, 1] · transposes_S8x512x4096_S8x4096x512_0_2_1) main_v0
  let main_v2 : FVec F S8x4096x256 .f32 := (fun l r => Host.dotGeneral dot_S8x4096x512_S256x512_S8x4096x256_2_1_01_0_n_n none l r) main_v1 main_arg1
  let main_v3 : FVec F S8x4096x256 .f32 := (fun l r => Host.dotGeneral dot_S8x4096x512_S256x512_S8x4096x256_2_1_01_0_n_n none l r) main_v1 main_arg2
  let main_v4 : FVec F S8x512x64x64 .f32 := Host.absf main_arg0
  let main_cst : FVec F S_ .f32 := constant S_ .f32 0x7F800000#32
  let main_v5 : FVec F S8x512x64x64 .f32 := broadcastInDim S8x512x64x64 ![] bcast_S_S8x512x64x64 main_cst
  let main_v6 : IVec S8x512x64x64 1 := cmpf .olt main_v4 main_v5
  let main_c : IVec S_ 1 := constantI S_ 1 1#1
  let main_v7 : IVec S_ 1 := (fun x v => Host.reduce IntOp.andi x v reducesTo_S8x512x64x64_S_d0_1_2_3 h_S_) main_v6 main_c
  let main_v8 : FVec F S256x512 .f32 := Host.absf main_arg1
  let main_cst_0 : FVec F S_ .f32 := constant S_ .f32 0x7F800000#32
  let main_v9 : FVec F S256x512 .f32 := broadcastInDim S256x512 ![] bcast_S_S256x512 main_cst_0
  let main_v10 : IVec S256x512 1 := cmpf .olt main_v8 main_v9
  let main_c_1 : IVec S_ 1 := constantI S_ 1 1#1
  let main_v11 : IVec S_ 1 := (fun x v => Host.reduce IntOp.andi x v reducesTo_S256x512_S_d0_1 h_S_) main_v10 main_c_1
  let main_v12 : IVec S_ 1 := andi main_v7 main_v11
  let main_v13 : FVec F S256x512 .f32 := Host.absf main_arg2
  let main_cst_2 : FVec F S_ .f32 := constant S_ .f32 0x7F800000#32
  let main_v14 : FVec F S256x512 .f32 := broadcastInDim S256x512 ![] bcast_S_S256x512 main_cst_2
  let main_v15 : IVec S256x512 1 := cmpf .olt main_v13 main_v14
  let main_c_3 : IVec S_ 1 := constantI S_ 1 1#1
  let main_v16 : IVec S_ 1 := (fun x v => Host.reduce IntOp.andi x v reducesTo_S256x512_S_d0_1 h_S_) main_v15 main_c_3
  let main_v17 : IVec S_ 1 := andi main_v12 main_v16
  fn_part1 (F := F) main_arg3 main_v2 main_v3 main_v17
-- ==== Kernel.lean ====
abbrev S8x512x64x64 : Shape := ⟨4, ![8, 512, 64, 64]⟩
abbrev S256x512 : Shape := ⟨2, ![256, 512]⟩
abbrev S512x512 : Shape := ⟨2, ![512, 512]⟩
abbrev S8x512x4096 : Shape := ⟨3, ![8, 512, 4096]⟩
abbrev S8x256x4096 : Shape := ⟨3, ![8, 256, 4096]⟩
abbrev S1x512x2048 : Shape := ⟨3, ![1, 512, 2048]⟩
abbrev S1x256x2048 : Shape := ⟨3, ![1, 256, 2048]⟩
abbrev S512x2048 : Shape := ⟨2, ![512, 2048]⟩
abbrev S256x2048 : Shape := ⟨2, ![256, 2048]⟩
abbrev S2048 : Shape := ⟨1, ![2048]⟩
abbrev S1x2048 : Shape := ⟨2, ![1, 2048]⟩
abbrev S1x256x512 : Shape := ⟨3, ![1, 256, 512]⟩
abbrev S1x512x512 : Shape := ⟨3, ![1, 512, 512]⟩
abbrev S2048x1 : Shape := ⟨2, ![2048, 1]⟩
abbrev S2048x512 : Shape := ⟨2, ![2048, 512]⟩

abbrev nBuf : Space → Nat
  | .hbm => 10
  | .vmem => 22
  | .smem => 0
  | _ => 0

abbrev bufTy : (tb : Table) → Fin (tcTables nBuf tb) → BufTy
  | .hbm, ⟨0, _⟩ => ⟨S8x512x64x64, .f32⟩
  | .hbm, ⟨1, _⟩ => ⟨S256x512, .f32⟩
  | .hbm, ⟨2, _⟩ => ⟨S256x512, .f32⟩
  | .hbm, ⟨3, _⟩ => ⟨S512x512, .f32⟩
  | .hbm, ⟨4, _⟩ => ⟨S8x512x4096, .f32⟩
  | .hbm, ⟨5, _⟩ => ⟨S8x256x4096, .bf16⟩
  | .hbm, ⟨6, _⟩ => ⟨S8x256x4096, .bf16⟩
  | .hbm, ⟨7, _⟩ => ⟨S8x512x4096, .bf16⟩
  | .hbm, ⟨8, _⟩ => ⟨S8x512x4096, .f32⟩
  | .hbm, ⟨9, _⟩ => ⟨S8x512x64x64, .f32⟩
  | .local _ .vmem, ⟨0, _⟩ => ⟨S1x512x2048, .f32⟩
  | .local _ .vmem, ⟨1, _⟩ => ⟨S1x512x2048, .f32⟩
  | .local _ .vmem, ⟨2, _⟩ => ⟨S256x512, .f32⟩
  | .local _ .vmem, ⟨3, _⟩ => ⟨S256x512, .f32⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x512, .bf16⟩
  | .local _ .vmem, ⟨13, _⟩ => ⟨S1x256x512, .bf16⟩
  | .local _ .vmem, ⟨14, _⟩ => ⟨S1x512x512, .bf16⟩
  | .local _ .vmem, ⟨15, _⟩ => ⟨S1x512x512, .bf16⟩
  | .local _ .vmem, ⟨16, _⟩ => ⟨S512x512, .f32⟩
  | .local _ .vmem, ⟨17, _⟩ => ⟨S1x512x2048, .f32⟩
  | .local _ .vmem, ⟨18, _⟩ => ⟨S1x512x2048, .f32⟩
  | .local _ .vmem, ⟨19, _⟩ => ⟨S2048x1, .f32⟩
  | .local _ .vmem, ⟨20, _⟩ => ⟨S2048x1, .f32⟩
  | .local _ .vmem, ⟨21, _⟩ => ⟨S2048x512, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S8x512x64x64_S8x512x4096 : S8x512x64x64.ShapeCasts S8x512x4096
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  reduces_S256x2048_S2048 : S256x2048.Reduces [0] S2048
  shapeCasts_S2048_S1x2048 : S2048.ShapeCasts S1x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  shapeCasts_S512x2048_S1x512x2048 : S512x2048.ShapeCasts S1x512x2048
  packedbf16_S1x512x2048_S1x512x2048_0_0_0 : (Rect.unit (s := S1x512x2048) ![0, 0, 0] S1x512x2048.size inb_S1x512x2048_S1x512x2048_0_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S2048x512_S2048 : S2048x512.Reduces [1] S2048
  shapeCasts_S2048_S2048x1 : S2048.ShapeCasts S2048x1
  broadcasts_S2048x1_S2048x512 : S2048x1.Broadcasts S2048x512
  inb_S512x512_S512x512_0_0 : ∀ a, (![0, 0] : Fin 2 → Nat) a + S512x512.size a ≤ S512x512.size a
  h_S512x512 : 0 < S512x512.numel
  shapeCasts_S8x512x4096_S8x512x64x64 : S8x512x4096.ShapeCasts S8x512x64x64
  dot_S256x512_S512x2048_S256x2048_1_0_0_1_n_n_wf : DotDims.WF S256x512 S512x2048 S256x2048 [1] [0] [0] [1] [] []
  dot_S256x2048_S256x512_S2048x512_0_0_1_1_n_n_wf : DotDims.WF S256x2048 S256x512 S2048x512 [0] [0] [1] [1] [] []
  dot_S2048x512_S512x512_S2048x512_1_1_0_0_n_n_wf : DotDims.WF S2048x512 S512x512 S2048x512 [1] [1] [0] [0] [] []
  dot_S512x512_S2048x512_S512x2048_0_1_1_0_n_n_wf : DotDims.WF S512x512 S2048x512 S512x2048 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x512x4096.size a
  hwx0_0 : ∀ i : grid0.Coords, EltTy.bits .f32 = 32 ∨ (Rect.block (s := S8x512x4096) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x256x4096.size a
  hwx0_3 : ∀ i : grid0.Coords, EltTy.bits .bf16 = 32 ∨ (Rect.block (s := S8x256x4096) S1x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x256x4096.size a
  hwx0_4 : ∀ i : grid0.Coords, EltTy.bits .bf16 = 32 ∨ (Rect.block (s := S8x256x4096) S1x256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x512x4096.size a
  hwx0_5 : ∀ i : grid0.Coords, EltTy.bits .bf16 = 32 ∨ (Rect.block (s := S8x512x4096) S1x512x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S8x256x4096.size a
  hwx1_0 : ∀ i : grid1.Coords, EltTy.bits .bf16 = 32 ∨ (Rect.block (s := S8x256x4096) S1x256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x512.size a ≤ S8x256x4096.size a
  hwx1_1 : ∀ i : grid1.Coords, EltTy.bits .bf16 = 32 ∨ (Rect.block (s := S8x256x4096) S1x256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S8x512x4096.size a
  hwx1_2 : ∀ i : grid1.Coords, EltTy.bits .bf16 = 32 ∨ (Rect.block (s := S8x512x4096) S1x512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S8x512x4096.size a
  hwx1_4 : ∀ i : grid1.Coords, EltTy.bits .f32 = 32 ∨ (Rect.block (s := S8x512x4096) S1x512x2048.size (cc1_transform_4 i) (hinb1_4 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S256x512_S2048x512_0_0_1_1_n_n : DotDims S256x2048 S256x512 S2048x512 where
  lhsContracting := [0]
  rhsContracting := [0]
  lhsNonContracting := [1]
  rhsNonContracting := [1]
  lhsBatch := []
  rhsBatch := []
  wf := dot_S256x2048_S256x512_S2048x512_0_0_1_1_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S512x512_S2048x512_S512x2048_0_1_1_0_n_n : DotDims S512x512 S2048x512 S512x2048 where
  lhsContracting := [0]
  rhsContracting := [1]
  lhsNonContracting := [1]
  rhsNonContracting := [0]
  lhsBatch := []
  rhsBatch := []
  wf := dot_S512x512_S2048x512_S512x2048_0_1_1_0_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x512x64x64 : Shape := ⟨4, ![8, 512, 64, 64]⟩
abbrev S256x512 : Shape := ⟨2, ![256, 512]⟩
abbrev S512x512 : Shape := ⟨2, ![512, 512]⟩
abbrev S8x512x4096 : Shape := ⟨3, ![8, 512, 4096]⟩
abbrev S8x4096x512 : Shape := ⟨3, ![8, 4096, 512]⟩
abbrev S8x4096x256 : Shape := ⟨3, ![8, 4096, 256]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x512x64x64, .f32⟩
  | .hbm, ⟨1, _⟩ => ⟨S256x512, .f32⟩
  | .hbm, ⟨2, _⟩ => ⟨S256x512, .f32⟩
  | .hbm, ⟨3, _⟩ => ⟨S512x512, .f32⟩
  | .hbm, ⟨4, _⟩ => ⟨S8x512x4096, .f32⟩
  | .hbm, ⟨5, _⟩ => ⟨S8x4096x512, .f32⟩
  | .hbm, ⟨6, _⟩ => ⟨S8x4096x256, .f32⟩
  | .hbm, ⟨7, _⟩ => ⟨S8x4096x256, .f32⟩
  | .hbm, ⟨8, _⟩ => ⟨S8x4096x4096, .f32⟩
  | .hbm, ⟨9, _⟩ => ⟨S8x4096x256, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S8x4096x1, .f32⟩
  | .hbm, ⟨14, _⟩ => ⟨S8x4096x256, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S8x4096x1, .f32⟩
  | .hbm, ⟨19, _⟩ => ⟨S8x1x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x512, .f32⟩
  | .hbm, ⟨39, _⟩ => ⟨S8x4096x512, .f32⟩
  | .hbm, ⟨40, _⟩ => ⟨S8x512x4096, .f32⟩
  | .hbm, ⟨41, _⟩ => ⟨S8x512x64x64, .f32⟩
  | .hbm, ⟨42, _⟩ => ⟨S_, .f32⟩
  | .hbm, ⟨43, _⟩ => ⟨S8x512x64x64, .f32⟩
  | .hbm, ⟨44, _⟩ => ⟨S8x512x64x64, .f32⟩
  | _, _ => ⟨S8x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_cst : Ref sig .tc := ⟨.hbm, 42, rfl⟩
abbrev main_call2_v0 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  shapeCasts_S8x512x64x64_S8x512x4096 : S8x512x64x64.ShapeCasts S8x512x4096
  transposes_S8x512x4096_S8x4096x512_0_2_1 : S8x512x4096.Transposes [0, 2, 1] S8x4096x512
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  transposes_S8x4096x1_S8x1x4096_0_2_1 : S8x4096x1.Transposes [0, 2, 1] S8x1x4096
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  transposes_S8x4096x512_S8x512x4096_0_2_1 : S8x4096x512.Transposes [0, 2, 1] S8x512x4096
  shapeCasts_S8x512x4096_S8x512x64x64 : S8x512x4096.ShapeCasts S8x512x64x64
  bcast_S_S8x512x64x64 : S_.BroadcastsInDim S8x512x64x64 (![] : Fin 0 → Fin S8x512x64x64.rank)
  dot_S8x4096x512_S256x512_S8x4096x256_2_1_01_0_n_n_wf : DotDims.WF S8x4096x512 S256x512 S8x4096x256 [2] [1] [0, 1] [0] [] []
  dot_S8x4096x256_S8x4096x256_S8x4096x4096_2_2_1_1_0_0_wf : DotDims.WF S8x4096x256 S8x4096x256 S8x4096x4096 [2] [2] [1] [1] [0] [0]
  dot_S8x4096x4096_S8x4096x512_S8x4096x512_2_1_1_2_0_0_wf : DotDims.WF S8x4096x4096 S8x4096x512 S8x4096x512 [2] [1] [1] [2] [0] [0]
  dot_S8x4096x512_S512x512_S8x4096x512_2_0_01_1_n_n_wf : DotDims.WF S8x4096x512 S512x512 S8x4096x512 [2] [0] [0, 1] [1] [] []

variable [Facts₀]

def dot_S8x4096x512_S256x512_S8x4096x256_2_1_01_0_n_n : DotDims S8x4096x512 S256x512 S8x4096x256 where
  lhsContracting := [2]
  rhsContracting := [1]
  lhsNonContracting := [0, 1]
  rhsNonContracting := [0]
  lhsBatch := []
  rhsBatch := []
  wf := dot_S8x4096x512_S256x512_S8x4096x256_2_1_01_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x512_S8x4096x512_2_1_1_2_0_0 : DotDims S8x4096x4096 S8x4096x512 S8x4096x512 where
  lhsContracting := [2]
  rhsContracting := [1]
  lhsNonContracting := [1]
  rhsNonContracting := [2]
  lhsBatch := [0]
  rhsBatch := [0]
  wf := dot_S8x4096x4096_S8x4096x512_S8x4096x512_2_1_1_2_0_0_wf
def dot_S8x4096x512_S512x512_S8x4096x512_2_0_01_1_n_n : DotDims S8x4096x512 S512x512 S8x4096x512 where
  lhsContracting := [2]
  rhsContracting := [0]
  lhsNonContracting := [0, 1]
  rhsNonContracting := [1]
  lhsBatch := []
  rhsBatch := []
  wf := dot_S8x4096x512_S512x512_S8x4096x512_2_0_01_1_n_n_wf

class Facts : Prop extends Facts₀ where

variable [Facts]
-- ==== Proof.RefFrame.lean ====
/-
  The reference's frame, and the (empty) idealization ledger.

  The reference is a host program with no kernel launch: its run is a composition of pure array operations, so every
  weakly fair execution terminates without a fault and writes only its own intermediate buffers. Dropping the result
  from that run leaves exactly the frame statement: each of the four argument arrays ends as it started.

  The idealization pass rewrote nothing in the kernel (its ledger is empty), so the statement that the idealized
  kernel is the kernel's sanctioned idealization has no conjunct to discharge.
-/
import proofs.«137960_j66374424592665_2_alg».proof.Defs
import proofs.«137960_j66374424592665_2_alg».proof.Proof.Gen.ReferenceIdeal
import proofs.«137960_j66374424592665_2_alg».proof.Proof.Gen.ReferenceIdeal.Run
import proofs.«137960_j66374424592665_2_alg».proof.Proof.Gen.ReferenceIdeal.Read
import proofs.«137960_j66374424592665_2_alg».proof.Proof.Gen.Pre_finite_inputs

noncomputable section

namespace Cert.Proof.Reference

open Idealize.ShloMosaic Idealize.SL.Sem

attribute [local instance] Cert.ReferenceIdeal.Gen.facts Cert.Pre_finite_inputs.Gen.facts

/-- Every weakly fair execution of the reference terminates, faults nowhere, and leaves its four arguments unchanged:
    the run of its host operations with the statement about the result forgotten. -/
theorem frame : Cert.frame_ReferenceIdeal := fun m ρ _ =>
  (θ_run Cert.ReferenceIdeal.defs _ _).mono (fun _ h c => (h c).2) (Cert.ReferenceIdeal.Value.run (F := Ideal) m ρ)

/-- The ledger of rewrites between the kernel and its idealization is empty. -/
theorem preserves : Cert.preserves_Kernel_KernelIdeal := trivial

end Cert.Proof.Reference

end
-- ==== Proof.LibOnlineSoftmax.lean ====
/-
  Online softmax on the extended reals.

  A weighted softmax average  (∑ exp(xᵢ)·fᵢ) / (∑ exp(xᵢ))  can be accumulated block by block while keeping only a
  running shift `m`, a running denominator `l` and a running numerator `a`: on a new block with shift `r`,

      m' = max m r,   α = exp (m − m'),   l' = α·l + ∑ⱼ exp (xⱼ − m'),   a' = α·a + ∑ⱼ exp (xⱼ − m')·fⱼ ,

  starting from  m = −∞, l = 0, a = 0  (so that the first α is exp(−∞) = 0).

  The point of this file: after at least one block the state is  (μ, ∑ exp(x−μ), ∑ exp(x−μ)·f)  for SOME real μ, the
  sums ranging over every key seen so far — because exp(μ−μ')·exp(x−μ) = exp(x−μ') — and a softmax does not depend on
  its shift, so a / l is the weighted softmax average whatever the shifts `r` were. In particular nothing is needed
  of `r` being the block's maximum: that choice matters for rounding, not for the value.

  Logits and values are real (finite); the arithmetic is the extended reals' with `Ideal.exp` and `Ideal.div`, whose
  corners (exp(−∞) = 0, division by zero) are met only at the start, where they give 0·0 = 0.
-/
import Idealize.ShloMosaic.PureOps.Ideal

noncomputable section

namespace Cert.Lib.OnlineSoftmax

open Idealize.ShloMosaic
open scoped BigOperators

/-! ## Coercions -/

/-- The coercion of reals into the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The exponential of a difference of reals, on the extended reals. -/
theorem exp_coe_sub (x μ : ℝ) : Ideal.exp ((x : EReal) - (μ : EReal)) = ((Real.exp (x - μ) : ℝ) : EReal) := by
  rw [← EReal.coe_sub]; rfl

/-- A quotient of reals by a nonzero real, on the extended reals, is the real quotient. -/
theorem div_coe_coe (a : ℝ) {q : ℝ} (hq : q ≠ 0) : Ideal.div (a : EReal) (q : EReal) = ((a / q : ℝ) : EReal) := by
  rw [Ideal.div_coe hq, ← EReal.coe_mul, mul_one_div]

/-- The reciprocal of a nonzero real, on the extended reals. -/
theorem one_div_coe {q : ℝ} (hq : q ≠ 0) : Ideal.div 1 (q : EReal) = ((q⁻¹ : ℝ) : EReal) := by
  have h := div_coe_coe 1 hq
  rw [one_div] at h
  exact_mod_cast h

/-! ## Normalising the factors, or dividing the product -/

/-- A dot product of two vectors each scaled by the reciprocal of a nonzero real (its norm, say) is the dot product
    divided by the product of the two reals: a kernel that normalises its operands first and a reference that
    divides the product by the norms' product compute one number — PROVIDED neither norm is zero (at zero the first
    is 0·(+∞) = 0 and the second 0/0). -/
theorem normalized_dot {ι : Type*} (s : Finset ι) (a b : ι → ℝ) {p t : ℝ} (hp : p ≠ 0) (ht : t ≠ 0) :
    ∑ i ∈ s, ((a i : EReal) * Ideal.div 1 (p : EReal)) * ((b i : EReal) * Ideal.div 1 (t : EReal))
      = Ideal.div ((∑ i ∈ s, a i * b i : ℝ) : EReal) ((p : EReal) * (t : EReal)) := by
  rw [one_div_coe hp, one_div_coe ht, ← EReal.coe_mul p t, div_coe_coe _ (mul_ne_zero hp ht)]
  simp only [← EReal.coe_mul, ← coe_sum]
  congr 1
  rw [Finset.sum_div]
  refine Finset.sum_congr rfl fun i _ => ?_
  field_simp

/-! ## A softmax does not depend on its shift -/

/-- Shifting every logit by the same real changes neither the numerator-to-denominator ratio. Stated over a double
    sum (blocks, then keys inside a block), which is how the accumulation meets it. -/
theorem shift_invariant {ι J : Type*} [Fintype J] (s : Finset ι) (x f : ι → J → ℝ) (μ : ℝ) :
    (∑ i ∈ s, ∑ j, Real.exp (x i j - μ) * f i j) / (∑ i ∈ s, ∑ j, Real.exp (x i j - μ))
      = (∑ i ∈ s, ∑ j, Real.exp (x i j) * f i j) / (∑ i ∈ s, ∑ j, Real.exp (x i j)) := by
  have h : ∀ i j, Real.exp (x i j - μ) = Real.exp (x i j) * Real.exp (-μ) := fun i j => by
    rw [← Real.exp_add, sub_eq_add_neg]
  have hn : (∑ i ∈ s, ∑ j, Real.exp (x i j - μ) * f i j) = (∑ i ∈ s, ∑ j, Real.exp (x i j) * f i j) * Real.exp (-μ) := by
    rw [Finset.sum_mul]; refine Finset.sum_congr rfl fun i _ => ?_
    rw [Finset.sum_mul]; refine Finset.sum_congr rfl fun j _ => ?_
    rw [h]; ring
  have hd : (∑ i ∈ s, ∑ j, Real.exp (x i j - μ)) = (∑ i ∈ s, ∑ j, Real.exp (x i j)) * Real.exp (-μ) := by
    rw [Finset.sum_mul]; refine Finset.sum_congr rfl fun i _ => ?_
    rw [Finset.sum_mul]; refine Finset.sum_congr rfl fun j _ => ?_
    rw [h]
  rw [hn, hd, mul_div_mul_right _ _ (Real.exp_ne_zero _)]

/-! ## The accumulation -/

variable {J : Type*} [Fintype J]

/-- One block: the new shift, the rescaled denominator plus the block's, the rescaled numerator plus the block's. -/
def step (r : ℝ) (x f : J → ℝ) (s : EReal × EReal × EReal) : EReal × EReal × EReal :=
  (max s.1 (r : EReal),
   Ideal.exp (s.1 - max s.1 (r : EReal)) * s.2.1 + ∑ j, Ideal.exp ((x j : EReal) - max s.1 (r : EReal)),
   Ideal.exp (s.1 - max s.1 (r : EReal)) * s.2.2 + ∑ j, Ideal.exp ((x j : EReal) - max s.1 (r : EReal)) * (f j : EReal))

/-- The state after the first `k` blocks, from (−∞, 0, 0). -/
def run (r : ℕ → ℝ) (x f : ℕ → J → ℝ) : ℕ → EReal × EReal × EReal
  | 0 => (⊥, 0, 0)
  | k + 1 => step (r k) (x k) (f k) (run r x f k)

/-- Rescaling the sums accumulated at shift `μ` to the shift `μ'`. -/
theorem rescale (k : ℕ) (x g : ℕ → J → ℝ) (μ μ' : ℝ) :
    Real.exp (μ - μ') * (∑ i ∈ Finset.range k, ∑ j, Real.exp (x i j - μ) * g i j)
      = ∑ i ∈ Finset.range k, ∑ j, Real.exp (x i j - μ') * g i j := by
  rw [Finset.mul_sum]; refine Finset.sum_congr rfl fun i _ => ?_
  rw [Finset.mul_sum]; refine Finset.sum_congr rfl fun j _ => ?_
  rw [← mul_assoc, ← Real.exp_add]; congr 2; ring

/-- After at least one block the state is real: some shift `μ`, and the two sums over every key seen, at that shift. -/
theorem run_succ (r : ℕ → ℝ) (x f : ℕ → J → ℝ) (k : ℕ) :
    ∃ μ : ℝ, run r x f (k + 1)
      = ((μ : EReal),
         ((∑ i ∈ Finset.range (k + 1), ∑ j, Real.exp (x i j - μ) : ℝ) : EReal),
         ((∑ i ∈ Finset.range (k + 1), ∑ j, Real.exp (x i j - μ) * f i j : ℝ) : EReal)) := by
  induction k with
  | zero =>
    refine ⟨r 0, ?_⟩
    have hm : max (⊥ : EReal) (r 0 : EReal) = (r 0 : EReal) := max_eq_right bot_le
    have hb : (⊥ : EReal) - (r 0 : EReal) = ⊥ := by rw [sub_eq_add_neg, EReal.bot_add]
    simp only [run, step, hm, hb, Ideal.exp_bot, zero_mul, zero_add, Finset.sum_range_one, exp_coe_sub,
      ← EReal.coe_mul, ← coe_sum]
  | succ k ih =>
    obtain ⟨μ, hμ⟩ := ih
    refine ⟨max μ (r (k + 1)), ?_⟩
    have hm : max (μ : EReal) (r (k + 1) : EReal) = ((max μ (r (k + 1)) : ℝ) : EReal) := (EReal.coe_strictMono.monotone.map_max).symm
    have h1 := rescale (k + 1) x (fun _ _ => (1 : ℝ)) μ (max μ (r (k + 1)))
    have h2 := rescale (k + 1) x f μ (max μ (r (k + 1)))
    simp only [mul_one] at h1
    rw [run, hμ]
    simp only [step, hm, exp_coe_sub, ← EReal.coe_mul, ← coe_sum, ← EReal.coe_add]
    rw [h1, h2, Finset.sum_range_succ _ (k + 1), Finset.sum_range_succ _ (k + 1)]

/-- The accumulated denominator is positive once a nonempty block has been seen. -/
theorem denom_pos [Nonempty J] (x : ℕ → J → ℝ) (μ : ℝ) (k : ℕ) :
    0 < ∑ i ∈ Finset.range (k + 1), ∑ j, Real.exp (x i j - μ) :=
  Finset.sum_pos (fun _ _ => Finset.sum_pos (fun _ _ => Real.exp_pos _) Finset.univ_nonempty)
    ⟨0, Finset.mem_range.mpr (Nat.succ_pos k)⟩

/-- THE RESULT. After `k+1` nonempty blocks, numerator times the reciprocal of the denominator is the weighted softmax
    average over every key of every block, whatever the shifts were. -/
theorem run_quotient [Nonempty J] (r : ℕ → ℝ) (x f : ℕ → J → ℝ) (k : ℕ) :
    (run r x f (k + 1)).2.2 * Ideal.div 1 (run r x f (k + 1)).2.1
      = (((∑ i ∈ Finset.range (k + 1), ∑ j, Real.exp (x i j) * f i j)
          / (∑ i ∈ Finset.range (k + 1), ∑ j, Real.exp (x i j)) : ℝ) : EReal) := by
  obtain ⟨μ, hμ⟩ := run_succ r x f k
  rw [hμ]
  dsimp only
  rw [one_div_coe (denom_pos x μ k).ne', ← EReal.coe_mul, ← div_eq_mul_inv, shift_invariant]

/-- The same average as a reference spells it: each weight exp(x−M) divided by the sum of all exp(x−M), at the
    reference's own shift `M`, then the weighted sum. -/
theorem softmax_sum [Nonempty J] (x f : ℕ → J → ℝ) (M : ℝ) (k : ℕ) :
    (∑ i ∈ Finset.range (k + 1), ∑ j,
        Real.exp (x i j - M) / (∑ i' ∈ Finset.range (k + 1), ∑ j', Real.exp (x i' j' - M)) * f i j)
      = (∑ i ∈ Finset.range (k + 1), ∑ j, Real.exp (x i j) * f i j)
          / (∑ i ∈ Finset.range (k + 1), ∑ j, Real.exp (x i j)) := by
  rw [← shift_invariant (Finset.range (k + 1)) x f M, Finset.sum_div]
  refine Finset.sum_congr rfl fun i _ => ?_
  rw [Finset.sum_div]; refine Finset.sum_congr rfl fun j _ => ?_
  ring

end Cert.Lib.OnlineSoftmax

end
-- ==== Proof.BitsProj.lean ====
/-
  The first kernel (the projections): per batch entry b and half t of the 4096 positions, from the block x of the
  feature map (512 channels × 2048 positions) and the two weight matrices it writes three blocks,
    φ̂ = (W_φ x) with each column divided by its Euclidean norm      (256 × 2048),
    θ̂ = (W_θ x) likewise                                            (256 × 2048),
    x itself in the narrower format                                   (512 × 2048).
  Every point of the 8 × 2 grid does the same thing to its own blocks: there is no branch and nothing is kept from one
  point to the next. The body also reads each output buffer once before overwriting it; what it reads there is never
  used, so the buffers may hold anything when a point starts.

  This file: what each output buffer holds after the body, as a function of the three input blocks; that the body
  run from those blocks reaches its end without a fault leaving exactly that; and the per-point bookkeeping the
  pipelined launch asks for (each input buffer holds its block at every point whether or not it was fetched there —
  the weight matrices are fetched once, at the first point).
-/
import proofs.«137960_j66374424592665_2_alg».proof.Proof.Gen.Kernel.Launch
import proofs.«137960_j66374424592665_2_alg».proof.Proof.Gen.Kernel.Skeleton
import proofs.«137960_j66374424592665_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the first kernel is entered
variable (V : (c : Dev nD) → (b : Ref sig .tc) → Buf (Elt F) ((c : Thread nD τ).loc b))

/-! ## The blocks -/

/-- The block of window `w`'s array that grid point `t` works on. -/
def block (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Held
variable {c : Dev nD} (dat : Dat τ (Elt F) Unit ℕ (UR sig nD τ) ℕ cfg0 c)

/-- The feature-map window's buffer holds its block when the body runs (it is fetched at every point). -/
theorem held_x (hA : dat.A 0 = V c (Pipeline.arrRef spec0 0)) (hafter : ∀ t, dat.after 0 t = block V c 0 t)
    (t : Fin cfg0.N) (d) : dat.before 0 t d = block V c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)

/-- The φ weights' buffer holds the whole matrix at every point, though it is fetched only at the first: its block
    index never moves. -/
theorem held_wφ (hA : dat.A 1 = V c (Pipeline.arrRef spec0 1)) (hafter : ∀ t, dat.after 1 t = block V c 1 t)
    (t : Fin cfg0.N) (d) : dat.before 1 t d = block V c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)

/-- The same for the θ weights. -/
theorem held_wθ (hA : dat.A 2 = V c (Pipeline.arrRef spec0 2)) (hafter : ∀ t, dat.after 2 t = block V c 2 t)
    (t : Fin cfg0.N) (d) : dat.before 2 t d = block V c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)

end Held

/-! ## What the body leaves -/

/-- The whole feature block, the whole weight matrix, the whole output blocks: every access of the body is the full
    buffer. -/
abbrev rX : Rect S1x512x2048 := Rect.unit (s := S1x512x2048) ![0, 0, 0] S1x512x2048.size inb_S1x512x2048_S1x512x2048_0_0_0
abbrev rW : Rect S256x512 := Rect.unit (s := S256x512) ![0, 0] S256x512.size inb_S256x512_S256x512_0_0
abbrev rP : Rect S1x256x2048 := Rect.unit (s := S1x256x2048) ![0, 0, 0] S1x256x2048.size inb_S1x256x2048_S1x256x2048_0_0_0

/-- The normalised φ block, from the feature block and the φ weights. -/
def outφ (x : Vec F S1x512x2048 .f32) (w : Vec F S256x512 .f32) : Vec F S1x256x2048 .bf16 :=
  View.canon [⟨rP, k0_pay3 (View.ld x rX) (View.ld w rW)⟩]
/-- The normalised θ block, from the feature block and the θ weights. -/
def outθ (x : Vec F S1x512x2048 .f32) (w : Vec F S256x512 .f32) : Vec F S1x256x2048 .bf16 :=
  View.canon [⟨rP, k0_pay4 (View.ld x rX) (View.ld w rW)⟩]
/-- The feature block in the narrower format. -/
def outX (x : Vec F S1x512x2048 .f32) : Vec F S1x512x2048 .bf16 :=
  View.canon [⟨rX, k0_pay1 (k0_pay2 (View.ld x rX))⟩]

/-- One store of the whole buffer covers it. -/
theorem coverP (p : Vec F S1x256x2048 .bf16) (y : S1x256x2048.Idx) :
    ∃ pc ∈ ([⟨rP, p⟩] : List (View.Piece (Elt F) S1x256x2048 .bf16)), y ∈ pc.1.set :=
  View.cover_of_tiled [⟨rP, p⟩] S1x256x2048.size (by rfl) y
theorem coverX (p : Vec F S1x512x2048 .bf16) (y : S1x512x2048.Idx) :
    ∃ pc ∈ ([⟨rX, p⟩] : List (View.Piece (Elt F) S1x512x2048 .bf16)), y ∈ pc.1.set :=
  View.cover_of_tiled [⟨rX, p⟩] S1x512x2048.size (by rfl) y

/-! ## The body runs -/

set_option maxHeartbeats 4000000 in
/-- From the three input buffers at their blocks and the three output buffers at anything, the body reaches its end
    without a fault, the inputs as they were and each output at the function above. -/
theorem body_runs (c : Dev nD) (E : Set ℕ) (i : grid0.Coords)
    (a2 : Memref sig .tc .vmem S1x512x2048 .f32) (h2 : a2.IsWhole) (a3 : Memref sig .tc .vmem S256x512 .f32) (h3 : a3.IsWhole)
    (a4 : Memref sig .tc .vmem S256x512 .f32) (h4 : a4.IsWhole) (a5 : Memref sig .tc .vmem S1x256x2048 .bf16) (h5 : a5.IsWhole)
    (a6 : Memref sig .tc .vmem S1x256x2048 .bf16) (h6 : a6.IsWhole) (a7 : Memref sig .tc .vmem S1x512x2048 .bf16) (h7 : a7.IsWhole)
    (x : Vec F S1x512x2048 .f32) (wφ wθ : Vec F S256x512 .f32) (K : PUnit → sProp 𝕄) :
    iprop(owns (c : Thread nD τ) a2 fullShare x ∗ owns (c : Thread nD τ) a3 fullShare wφ ∗ owns (c : Thread nD τ) a4 fullShare wθ
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x ∗ owns (c : Thread nD τ) a3 fullShare wφ ∗ owns (c : Thread nD τ) a4 fullShare wθ
            ∗ owns (c : Thread nD τ) a5 fullShare (outφ x wφ) ∗ owns (c : Thread nD τ) a6 fullShare (outθ x wθ)
            ∗ owns (c : Thread nD τ) a7 fullShare (outX x)) -∗ K ⟨⟩))
      ⊢ wp frame (wpE (defs₀ (F := F)) Variants.none c none) E (cc0__proj_kernel i a2 h2 a3 h3 a4 h4 a5 h5 a6 h6 a7 h7) K := by
  simp only [cc0__proj_kernel_eq_skeleton, k0_part1_eq_skeleton]; unfold cc0__proj_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP _)
  isplitl [H6]
  · iexists _; isplitr
    swap; · iexact H6
    ipureintro
    exact View.read_writes_eq_canon _ _ _ (coverP _)
  iexists _; isplitr
  swap; · iexact H7
  ipureintro
  exact View.read_writes_eq_canon _ _ _ (coverX _)

/-! ## The proof data of the launch -/

/-- At every point: each array as the kernel finds it; after the body the three input buffers still at their blocks
    and the three output buffers at φ̂, θ̂ and the narrowed x of those blocks; nothing else is touched, nothing owed. -/
def dat (c : Dev nD) : Dat τ (Elt F) Unit ℕ (UR sig nD τ) ℕ cfg0 c where
  A w := V c (Pipeline.arrRef spec0 w)
  after w t := match w with
    | ⟨0, _⟩ => block V c 0 t
    | ⟨1, _⟩ => block V c 1 t
    | ⟨2, _⟩ => block V c 2 t
    | ⟨3, _⟩ => outφ (block V c 0 t) (block V c 1 t)
    | ⟨4, _⟩ => outθ (block V c 0 t) (block V c 2 t)
    | ⟨5, _⟩ => outX (block V c 0 t)
  Φ _ := Pipeline.ΦA spec0 c
  q _ := fullShare
  owed _ := 0

theorem A_eq (c : Dev nD) (w : Fin cfg0.W) : (dat V c).A w = V c (Pipeline.arrRef spec0 w) := by dsimp only [dat]
theorem after_x (c : Dev nD) (t : Fin cfg0.N) : (dat V c).after 0 t = block V c 0 t := by dsimp only [dat]
theorem after_wφ (c : Dev nD) (t : Fin cfg0.N) : (dat V c).after 1 t = block V c 1 t := by dsimp only [dat]
theorem after_wθ (c : Dev nD) (t : Fin cfg0.N) : (dat V c).after 2 t = block V c 2 t := by dsimp only [dat]
theorem after_φ (c : Dev nD) (t : Fin cfg0.N) : (dat V c).after 3 t = outφ (block V c 0 t) (block V c 1 t) := by dsimp only [dat]
theorem after_θ (c : Dev nD) (t : Fin cfg0.N) : (dat V c).after 4 t = outθ (block V c 0 t) (block V c 2 t) := by dsimp only [dat]
theorem after_xn (c : Dev nD) (t : Fin cfg0.N) : (dat V c).after 5 t = outX (block V c 0 t) := by dsimp only [dat]

theorem before_x (c : Dev nD) (t : Fin cfg0.N) (d) : (dat V c).before 0 t d = block V c 0 t :=
  held_x V (dat V c) (A_eq V c 0) (after_x V c) t d
theorem before_wφ (c : Dev nD) (t : Fin cfg0.N) (d) : (dat V c).before 1 t d = block V c 1 t :=
  held_wφ V (dat V c) (A_eq V c 1) (after_wφ V c) t d
theorem before_wθ (c : Dev nD) (t : Fin cfg0.N) (d) : (dat V c).before 2 t d = block V c 2 t :=
  held_wθ V (dat V c) (A_eq V c 2) (after_wθ V c) t d

/-! ## The body at a grid point -/

/-- What the launch hands the body at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it takes back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- At any point the input buffers hold their blocks, so the body runs; the invariant and the core's dues pass by. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_wφ, before_wθ]
  rw [show (dat V c).Φ t.succ = (dat V c).Φ t.castSucc from rfl,
    show (dat V c).owesAt () t.succ = (dat V c).owesAt () t.castSucc from rfl,
    after_x, after_wφ, after_wθ, after_φ, after_θ, after_xn]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (block V c 0 t) (block V c 1 t) (block V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation about the body, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.BitsAttn.lean ====
/-
  The second kernel (the attention): per batch entry b, half qi of the 4096 query positions and block ki of 512 key
  positions — a grid of 8 × 2 × 8 points, the key axis innermost — it takes the normalised query block φ̂ (256 × 2048),
  the normalised key block θ̂ (256 × 512) and the value block x (512 × 512) and keeps three running quantities in scratch
  from one key block to the next: per query a shift m, a denominator l and, per channel, a numerator a. Each point
  forms the 2048 × 512 cosines s = φ̂ᵀ θ̂, the new shift m' = max(m, row maximum of s), and
      l ← exp(m − m')·l + ∑ₖ exp(s − m'),      a ← exp(m − m')·a + exp(s − m') xᵀ,      m ← m'.
  At the first key block (ki = 0) the three are first reset to −∞, 0, 0; at the last (ki = 7) the output block is
  written: max(0, Wᵀ (a / l)ᵀ). At the other points the output buffer is not touched.

  So a point's effect depends on ki alone, three cases, and what the scratch holds after a point is a function of the
  blocks of the points since the last reset — never of what it held at launch.
-/
import proofs.«137960_j66374424592665_2_alg».proof.Proof.Gen.Kernel.Launch
import proofs.«137960_j66374424592665_2_alg».proof.Proof.Gen.Kernel.Skeleton
import proofs.«137960_j66374424592665_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- "This is the first key block": the body's first branch, as it computes it from the grid coordinates. -/
abbrev first (i : grid1.Coords) : Prop :=
  (Scalar.cmpi .ne (Scalar.extui (Scalar.cmpi .eq (BitVec.ofNat 32 (i 2).val) 0#32)) 0#32) = 1#1
/-- "This is the last key block": the body's second branch. -/
abbrev last (i : grid1.Coords) : Prop := k1_cond2 i = 1#1

/-- The key axis is innermost with 8 blocks: point t is at key block t mod 8. -/
theorem first_iff : ∀ t : Fin cfg1.N, first (grid1.coords t) ↔ t.val % 8 = 0 :=
  (by decide +kernel : ∀ t : Fin grid1.N, first (grid1.coords t) ↔ t.val % 8 = 0)
theorem last_iff : ∀ t : Fin cfg1.N, last (grid1.coords t) ↔ t.val % 8 = 7 :=
  (by decide +kernel : ∀ t : Fin grid1.N, last (grid1.coords t) ↔ t.val % 8 = 7)

/-- The four input windows are never idle; the output window is idle exactly off the last key block, and there it is
    not written back either. -/
theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
theorem live_w : ∀ t : Fin cfg1.N, cfg1.idle 3 (grid1.coords t) = false := by decide +kernel
theorem idle_out : ∀ t : Fin cfg1.N, ¬last (grid1.coords t) → cfg1.idle 4 (grid1.coords t) = true := by decide +kernel
theorem noflush_out : ∀ t : Fin cfg1.N, ¬last (grid1.coords t) → (cfg1.win 4).flush t = false := by decide +kernel
theorem live_out : ∀ t : Fin cfg1.N, last (grid1.coords t) → cfg1.idle 4 (grid1.coords t) = false := by decide +kernel

/-! ## The scratch -/

abbrev scM : Memref sig .tc .vmem S2048x1 .f32 := Memref.whole cc1_scratch0
abbrev scL : Memref sig .tc .vmem S2048x1 .f32 := Memref.whole cc1_scratch1
abbrev scA : Memref sig .tc .vmem S2048x512 .f32 := Memref.whole cc1_scratch2

/-- The first kernel's staging buffers, each held at something (the second kernel never touches them), beside `P`. -/
def stagingThen (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ P)

/-- What the launch hands the second kernel besides its windows: those staging buffers, its three scratch buffers at
    anything, and the generator register. -/
theorem rest_eq (c : Dev nD) :
    (Pipeline.ΦA spec1 c : sProp 𝕄)
      = iprop(stagingThen c iprop((∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA stagingThen; rw [scopedRest1_eq]; simp only [scM, scL, scA, owns_whole]; try rfl

/-! ## The body, case by case -/

-- In each case the body is run from its eight buffers and what it leaves in the three scratch buffers (and, in the
-- last case, in the output buffer) is recorded as the list of pieces stored, last first: found by the run itself.

set_option maxHeartbeats 8000000 in
/-- A MIDDLE key block (neither first nor last): from the four input buffers at their blocks, the output buffer at
    anything (handed back untouched) and the scratch at the previous point's state, the body reaches its end without
    a fault; the scratch ends with the recorded pieces written. -/
noncomputable def runB (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32)
    (sM sL : Vec F S2048x1 .f32) (sA : Vec F S2048x512 .f32) :
    Σ' (LM : List (View.Piece (Elt F) S2048x1 .f32)) (LL : List (View.Piece (Elt F) S2048x1 .f32)), { LA : List (View.Piece (Elt F) S2048x512 .f32) //
      ∀ (xo : Vec F S1x512x2048 .f32) (E : Set ℕ) (K : PUnit → sProp 𝕄),
        iprop(owns (c : Thread nD τ) a3 fullShare q ∗ owns (c : Thread nD τ) a4 fullShare k ∗ owns (c : Thread nD τ) a5 fullShare v
            ∗ owns (c : Thread nD τ) a6 fullShare w ∗ owns (c : Thread nD τ) a7 fullShare xo
            ∗ owns (c : Thread nD τ) a8 fullShare sM ∗ owns (c : Thread nD τ) a9 fullShare sL ∗ owns (c : Thread nD τ) a10 fullShare sA
            ∗ (iprop(owns (c : Thread nD τ) a3 fullShare q ∗ owns (c : Thread nD τ) a4 fullShare k ∗ owns (c : Thread nD τ) a5 fullShare v
                ∗ owns (c : Thread nD τ) a6 fullShare w ∗ owns (c : Thread nD τ) a7 fullShare xo
                ∗ (∃ f, a8.view.loc (c : Thread nD τ) ↦[a8.view.set]{fullShare} a8.view.writes (Elt F) f LM)
                ∗ (∃ f, a9.view.loc (c : Thread nD τ) ↦[a9.view.set]{fullShare} a9.view.writes (Elt F) f LL)
                ∗ (∃ f, a10.view.loc (c : Thread nD τ) ↦[a10.view.set]{fullShare} a10.view.writes (Elt F) f LA)) -∗ K ⟨⟩))
          ⊢ wp frame (wpE (defs₀ (F := F)) Variants.none c none) E (cc1__attn_kernel i a3 h3 a4 h4 a5 h5 a6 h6 a7 h7 a8 h8 a9 h9 a10 h10) K } := by
  refine ⟨?_, ?_, ?_, fun xo E K => ?run⟩
  case run =>
    simp only [cc1__attn_kernel_eq_skeleton, k1_part1_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h3.eq_unread hf3; obtain rfl := h4.eq_unread hf4; obtain rfl := h5.eq_unread hf5; obtain rfl := h6.eq_unread hf6
    obtain rfl := h7.eq_unread hf7; obtain rfl := h8.eq_unread hf8; obtain rfl := h9.eq_unread hf9; obtain rfl := h10.eq_unread hf10
    sl_exec (disch := first | exact hf | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    iexists _; iexact H10

set_option maxHeartbeats 8000000 in
/-- The FIRST key block: the scratch may hold anything — the body resets it before reading it — and ends with the
    recorded pieces written (the reset and the update); the output buffer is handed back untouched. -/
noncomputable def runA (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32) :
    Σ' (LM : List (View.Piece (Elt F) S2048x1 .f32)) (LL : List (View.Piece (Elt F) S2048x1 .f32)), { LA : List (View.Piece (Elt F) S2048x512 .f32) //
      ∀ (xo : Vec F S1x512x2048 .f32) (E : Set ℕ) (K : PUnit → sProp 𝕄),
        iprop(owns (c : Thread nD τ) a3 fullShare q ∗ owns (c : Thread nD τ) a4 fullShare k ∗ owns (c : Thread nD τ) a5 fullShare v
            ∗ owns (c : Thread nD τ) a6 fullShare w ∗ owns (c : Thread nD τ) a7 fullShare xo
            ∗ (∃ d, owns (c : Thread nD τ) a8 fullShare d) ∗ (∃ d, owns (c : Thread nD τ) a9 fullShare d) ∗ (∃ d, owns (c : Thread nD τ) a10 fullShare d)
            ∗ (iprop(owns (c : Thread nD τ) a3 fullShare q ∗ owns (c : Thread nD τ) a4 fullShare k ∗ owns (c : Thread nD τ) a5 fullShare v
                ∗ owns (c : Thread nD τ) a6 fullShare w ∗ owns (c : Thread nD τ) a7 fullShare xo
                ∗ (∃ f, a8.view.loc (c : Thread nD τ) ↦[a8.view.set]{fullShare} a8.view.writes (Elt F) f LM)
                ∗ (∃ f, a9.view.loc (c : Thread nD τ) ↦[a9.view.set]{fullShare} a9.view.writes (Elt F) f LL)
                ∗ (∃ f, a10.view.loc (c : Thread nD τ) ↦[a10.view.set]{fullShare} a10.view.writes (Elt F) f LA)) -∗ K ⟨⟩))
          ⊢ wp frame (wpE (defs₀ (F := F)) Variants.none c none) E (cc1__attn_kernel i a3 h3 a4 h4 a5 h5 a6 h6 a7 h7 a8 h8 a9 h9 a10 h10) K } := by
  refine ⟨?_, ?_, ?_, fun xo E K => ?run⟩
  case run =>
    simp only [cc1__attn_kernel_eq_skeleton, k1_part1_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := h3.eq_unread hf3; obtain rfl := h4.eq_unread hf4; obtain rfl := h5.eq_unread hf5; obtain rfl := h6.eq_unread hf6
    obtain rfl := h7.eq_unread hf7
    sl_exec (disch := first | exact hf | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    iexists _; iexact H10

set_option maxHeartbeats 8000000 in
/-- The LAST key block: from the scratch at the previous point's state and the output buffer at anything, the body
    updates the scratch and then stores the output block; both end with their recorded pieces written. -/
noncomputable def runC (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32)
    (sM sL : Vec F S2048x1 .f32) (sA : Vec F S2048x512 .f32) :
    Σ' (LO : List (View.Piece (Elt F) S1x512x2048 .f32)) (LM : List (View.Piece (Elt F) S2048x1 .f32)) (LL : List (View.Piece (Elt F) S2048x1 .f32)), { LA : List (View.Piece (Elt F) S2048x512 .f32) //
      ∀ (E : Set ℕ) (K : PUnit → sProp 𝕄),
        iprop(owns (c : Thread nD τ) a3 fullShare q ∗ owns (c : Thread nD τ) a4 fullShare k ∗ owns (c : Thread nD τ) a5 fullShare v
            ∗ owns (c : Thread nD τ) a6 fullShare w ∗ (∃ d, owns (c : Thread nD τ) a7 fullShare d)
            ∗ owns (c : Thread nD τ) a8 fullShare sM ∗ owns (c : Thread nD τ) a9 fullShare sL ∗ owns (c : Thread nD τ) a10 fullShare sA
            ∗ (iprop(owns (c : Thread nD τ) a3 fullShare q ∗ owns (c : Thread nD τ) a4 fullShare k ∗ owns (c : Thread nD τ) a5 fullShare v
                ∗ owns (c : Thread nD τ) a6 fullShare w
                ∗ (∃ f, a7.view.loc (c : Thread nD τ) ↦[a7.view.set]{fullShare} a7.view.writes (Elt F) f LO)
                ∗ (∃ f, a8.view.loc (c : Thread nD τ) ↦[a8.view.set]{fullShare} a8.view.writes (Elt F) f LM)
                ∗ (∃ f, a9.view.loc (c : Thread nD τ) ↦[a9.view.set]{fullShare} a9.view.writes (Elt F) f LL)
                ∗ (∃ f, a10.view.loc (c : Thread nD τ) ↦[a10.view.set]{fullShare} a10.view.writes (Elt F) f LA)) -∗ K ⟨⟩))
          ⊢ wp frame (wpE (defs₀ (F := F)) Variants.none c none) E (cc1__attn_kernel i a3 h3 a4 h4 a5 h5 a6 h6 a7 h7 a8 h8 a9 h9 a10 h10) K } := by
  refine ⟨?_, ?_, ?_, ?_, fun E K => ?run⟩
  case run =>
    simp only [cc1__attn_kernel_eq_skeleton, k1_part1_eq_skeleton]; unfold cc1__attn_kernel_skel
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := h3.eq_unread hf3; obtain rfl := h4.eq_unread hf4; obtain rfl := h5.eq_unread hf5; obtain rfl := h6.eq_unread hf6
    obtain rfl := h8.eq_unread hf8; obtain rfl := h9.eq_unread hf9; obtain rfl := h10.eq_unread hf10
    sl_exec (disch := first | exact hf | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    isplitl [H9]; · iexists _; iexact H9
    iexists _; iexact H10

end Cert.Kernel.Attn

end
-- ==== Proof.BitsAttnData.lean ====
/-
  The attention kernel, point by point: what the three scratch buffers and the output buffer hold after each grid
  point, by recursion on the point — the first key block starts afresh, every other one continues from the point
  before —; the invariant the launch carries from point to point (the scratch at exactly those contents); and the
  per-point obligation, by the three cases.
-/
import proofs.«137960_j66374424592665_2_alg».proof.Proof.BitsAttn

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The recorded pieces cover their buffers -/

/-- First key block: the shift's pieces (the reset, then the update) cover the buffer. -/
theorem coverA_M (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32)  (y : S2048x1.Idx) :
    ∃ pc ∈ (runA c i a3 h3 a4 h4 a5 h5 a6 h6 a7 h7 a8 h8 a9 h9 a10 h10 hf hl q k v w).1, y ∈ pc.1.set :=
  View.cover_of_tiledL (runA c i a3 h3 a4 h4 a5 h5 a6 h6 a7 h7 a8 h8 a9 h9 a10 h10 hf hl q k v w).1 S2048x1.size (by sl_kernel_rfl) y
/-- First key block: the denominator's pieces cover the buffer. -/
theorem coverA_L (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32)  (y : S2048x1.Idx) :
    ∃ pc ∈ (runA c i a3 h3 a4 h4 a5 h5 a6 h6 a7 h7 a8 h8 a9 h9 a10 h10 hf hl q k v w).2.1, y ∈ pc.1.set :=
  View.cover_of_tiledL (runA c i a3 h3 a4 h4 a5 h5 a6 h6 a7 h7 a8 h8 a9 h9 a10 h10 hf hl q k v w).2.1 S2048x1.size (by sl_kernel_rfl) y
/-- First key block: the numerator's pieces cover the buffer. -/
theorem coverA_A (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32)  (y : S2048x512.Idx) :
    ∃ pc ∈ (runA c i a3 h3 a4 h4 a5 h5 a6 h6 a7 h7 a8 h8 a9 h9 a10 h10 hf hl q k v w).2.2.1, y ∈ pc.1.set :=
  View.cover_of_tiledL (runA c i a3 h3 a4 h4 a5 h5 a6 h6 a7 h7 a8 h8 a9 h9 a10 h10 hf hl q k v w).2.2.1 S2048x512.size (by sl_kernel_rfl) y
/-- Middle key block: the shift's one piece is the whole buffer. -/
theorem coverB_M (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32) (sM sL : Vec F S2048x1 .f32) (sA : Vec F S2048x512 .f32) (y : S2048x1.Idx) :
    ∃ pc ∈ (runB c i a3 h3 a4 h4 a5 h5 a6 h6 a7 h7 a8 h8 a9 h9 a10 h10 hf hl q k v w sM sL sA).1, y ∈ pc.1.set :=
  View.cover_of_tiledL (runB c i a3 h3 a4 h4 a5 h5 a6 h6 a7 h7 a8 h8 a9 h9 a10 h10 hf hl q k v w sM sL sA).1 S2048x1.size (by sl_kernel_rfl) y
/-- Middle key block: the denominator's piece. -/
theorem coverB_L (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32) (sM sL : Vec F S2048x1 .f32) (sA : Vec F S2048x512 .f32) (y : S2048x1.Idx) :
    ∃ pc ∈ (runB c i a3 h3 a4 h4 a5 h5 a6 h6 a7 h7 a8 h8 a9 h9 a10 h10 hf hl q k v w sM sL sA).2.1, y ∈ pc.1.set :=
  View.cover_of_tiledL (runB c i a3 h3 a4 h4 a5 h5 a6 h6 a7 h7 a8 h8 a9 h9 a10 h10 hf hl q k v w sM sL sA).2.1 S2048x1.size (by sl_kernel_rfl) y
/-- Middle key block: the numerator's piece. -/
theorem coverB_A (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32) (sM sL : Vec F S2048x1 .f32) (sA : Vec F S2048x512 .f32) (y : S2048x512.Idx) :
    ∃ pc ∈ (runB c i a3 h3 a4 h4 a5 h5 a6 h6 a7 h7 a8 h8 a9 h9 a10 h10 hf hl q k v w sM sL sA).2.2.1, y ∈ pc.1.set :=
  View.cover_of_tiledL (runB c i a3 h3 a4 h4 a5 h5 a6 h6 a7 h7 a8 h8 a9 h9 a10 h10 hf hl q k v w sM sL sA).2.2.1 S2048x512.size (by sl_kernel_rfl) y
/-- Last key block: the output block is stored whole. -/
theorem coverC_O (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32) (y : S1x512x2048.Idx) :
    ∃ pc ∈ (runC c i a3 h3 a4 h4 a5 h5 a6 h6 a7 h7 a8 h8 a9 h9 a10 h10 hf hl q k v w sM sL sA).1, y ∈ pc.1.set :=
  View.cover_of_tiledL (runC c i a3 h3 a4 h4 a5 h5 a6 h6 a7 h7 a8 h8 a9 h9 a10 h10 hf hl q k v w sM sL sA).1 S1x512x2048.size (by sl_kernel_rfl) y
/-- Last key block: the shift's piece. -/
theorem coverC_M (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32) (y : S2048x1.Idx) :
    ∃ pc ∈ (runC c i a3 h3 a4 h4 a5 h5 a6 h6 a7 h7 a8 h8 a9 h9 a10 h10 hf hl q k v w sM sL sA).2.1, y ∈ pc.1.set :=
  View.cover_of_tiledL (runC c i a3 h3 a4 h4 a5 h5 a6 h6 a7 h7 a8 h8 a9 h9 a10 h10 hf hl q k v w sM sL sA).2.1 S2048x1.size (by sl_kernel_rfl) y
/-- Last key block: the denominator's piece. -/
theorem coverC_L (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32) (y : S2048x1.Idx) :
    ∃ pc ∈ (runC c i a3 h3 a4 h4 a5 h5 a6 h6 a7 h7 a8 h8 a9 h9 a10 h10 hf hl q k v w sM sL sA).2.2.1, y ∈ pc.1.set :=
  View.cover_of_tiledL (runC c i a3 h3 a4 h4 a5 h5 a6 h6 a7 h7 a8 h8 a9 h9 a10 h10 hf hl q k v w sM sL sA).2.2.1 S2048x1.size (by sl_kernel_rfl) y
/-- Last key block: the numerator's piece. -/
theorem coverC_A (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32) (y : S2048x512.Idx) :
    ∃ pc ∈ (runC c i a3 h3 a4 h4 a5 h5 a6 h6 a7 h7 a8 h8 a9 h9 a10 h10 hf hl q k v w sM sL sA).2.2.2.1, y ∈ pc.1.set :=
  View.cover_of_tiledL (runC c i a3 h3 a4 h4 a5 h5 a6 h6 a7 h7 a8 h8 a9 h9 a10 h10 hf hl q k v w sM sL sA).2.2.2.1 S2048x512.size (by sl_kernel_rfl) y

/-! ## The blocks, and the buffers a point is run on -/

-- the buffers' contents when the second kernel is entered
variable (V : (c : Dev nD) → (b : Ref sig .tc) → Buf (Elt F) ((c : Thread nD τ).loc b))

/-- The block of window `w`'s array that grid point `t` works on. -/
def block (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Held
variable {c : Dev nD} (dat : Dat τ (Elt F) Unit ℕ (UR sig nD τ) ℕ cfg1 c)
/-- The query window's buffer holds its block at every point (it is fetched when the query block changes, every eighth point). -/
theorem held_q (hA : dat.A 0 = V c (Pipeline.arrRef spec1 0)) (hafter : ∀ t, dat.after 0 t = block V c 0 t)
    (t : Fin cfg1.N) (d) : dat.before 0 t d = block V c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- The key window's buffer holds its block (fetched at every point). -/
theorem held_k (hA : dat.A 1 = V c (Pipeline.arrRef spec1 1)) (hafter : ∀ t, dat.after 1 t = block V c 1 t)
    (t : Fin cfg1.N) (d) : dat.before 1 t d = block V c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- The value window's buffer holds its block (fetched at every point). -/
theorem held_v (hA : dat.A 2 = V c (Pipeline.arrRef spec1 2)) (hafter : ∀ t, dat.after 2 t = block V c 2 t)
    (t : Fin cfg1.N) (d) : dat.before 2 t d = block V c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- The output weights' buffer holds the whole matrix (fetched once). -/
theorem held_w (hA : dat.A 3 = V c (Pipeline.arrRef spec1 3)) (hafter : ∀ t, dat.after 3 t = block V c 3 t)
    (t : Fin cfg1.N) (d) : dat.before 3 t d = block V c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
end Held

abbrev mq (t : Fin cfg1.N) : Memref sig .tc .vmem S1x256x2048 .bf16 := win1_0.stage (cfg1.slots t 0)
abbrev hq (t : Fin cfg1.N) : (mq t).IsWhole := hstage1_0 ((cfg1.slots t 0).cast nbuf1_0)
abbrev mk (t : Fin cfg1.N) : Memref sig .tc .vmem S1x256x512 .bf16 := win1_1.stage (cfg1.slots t 1)
abbrev hk (t : Fin cfg1.N) : (mk t).IsWhole := hstage1_1 ((cfg1.slots t 1).cast nbuf1_1)
abbrev mv (t : Fin cfg1.N) : Memref sig .tc .vmem S1x512x512 .bf16 := win1_2.stage (cfg1.slots t 2)
abbrev hv (t : Fin cfg1.N) : (mv t).IsWhole := hstage1_2 ((cfg1.slots t 2).cast nbuf1_2)
abbrev mw (t : Fin cfg1.N) : Memref sig .tc .vmem S512x512 .f32 := win1_3.stage (cfg1.slots t 3)
abbrev hw (t : Fin cfg1.N) : (mw t).IsWhole := hstage1_3 ((cfg1.slots t 3).cast nbuf1_3)
abbrev mo (t : Fin cfg1.N) : Memref sig .tc .vmem S1x512x2048 .f32 := win1_4.stage (cfg1.slots t 4)
abbrev ho (t : Fin cfg1.N) : (mo t).IsWhole := hstage1_4 ((cfg1.slots t 4).cast nbuf1_4)

/-- The views through which the scratch's and the output's contents are stated. -/
abbrev VM : View sig .tc .vmem S2048x1 .f32 := scM.view
abbrev VL : View sig .tc .vmem S2048x1 .f32 := scL.view
abbrev VA : View sig .tc .vmem S2048x512 .f32 := scA.view
abbrev VO : View sig .tc .vmem S1x512x2048 .f32 := (Memref.whole cc1_stg4_0 : Memref sig .tc .vmem S1x512x2048 .f32).view

/-! ## One point's effect -/

/-- After a FIRST key block: the recorded pieces read back. Nothing of the state before enters. -/
def afterA (c : Dev nD) (t : Fin cfg1.N) (h0 : t.val % 8 = 0) : (Vec F S2048x1 .f32 × Vec F S2048x1 .f32 × Vec F S2048x512 .f32) :=
  (VM.read (Elt F) (VM.writes (Elt F) VM.junk (runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).1),
   VL.read (Elt F) (VL.writes (Elt F) VL.junk (runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).2.1),
   VA.read (Elt F) (VA.writes (Elt F) VA.junk (runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).2.2.1))

/-- After a MIDDLE key block, from the state `p` the point before left. -/
def afterB (c : Dev nD) (t : Fin cfg1.N) (h0 : ¬t.val % 8 = 0) (h7 : ¬t.val % 8 = 7) (p : (Vec F S2048x1 .f32 × Vec F S2048x1 .f32 × Vec F S2048x512 .f32)) : (Vec F S2048x1 .f32 × Vec F S2048x1 .f32 × Vec F S2048x512 .f32) :=
  (VM.read (Elt F) (VM.writes (Elt F) VM.junk (runB c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) (fun h => h7 ((last_iff t).mp h)) (block V c 0 t) (block V c 1 t) (block V c 2 t) (block V c 3 t) p.1 p.2.1 p.2.2).1),
   VL.read (Elt F) (VL.writes (Elt F) VL.junk (runB c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) (fun h => h7 ((last_iff t).mp h)) (block V c 0 t) (block V c 1 t) (block V c 2 t) (block V c 3 t) p.1 p.2.1 p.2.2).2.1),
   VA.read (Elt F) (VA.writes (Elt F) VA.junk (runB c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) (fun h => h7 ((last_iff t).mp h)) (block V c 0 t) (block V c 1 t) (block V c 2 t) (block V c 3 t) p.1 p.2.1 p.2.2).2.2.1))

/-- After a LAST key block, from the state `p`. -/
def afterC (c : Dev nD) (t : Fin cfg1.N) (h0 : ¬t.val % 8 = 0) (h7 : t.val % 8 = 7) (p : (Vec F S2048x1 .f32 × Vec F S2048x1 .f32 × Vec F S2048x512 .f32)) : (Vec F S2048x1 .f32 × Vec F S2048x1 .f32 × Vec F S2048x512 .f32) :=
  (VM.read (Elt F) (VM.writes (Elt F) VM.junk (runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) p.1 p.2.1 p.2.2).2.1),
   VL.read (Elt F) (VL.writes (Elt F) VL.junk (runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) p.1 p.2.1 p.2.2).2.2.1),
   VA.read (Elt F) (VA.writes (Elt F) VA.junk (runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) p.1 p.2.1 p.2.2).2.2.2.1))

/-- The output block a LAST key block stores, from the state `p`. -/
def outC (c : Dev nD) (t : Fin cfg1.N) (h0 : ¬t.val % 8 = 0) (h7 : t.val % 8 = 7) (p : (Vec F S2048x1 .f32 × Vec F S2048x1 .f32 × Vec F S2048x512 .f32)) : Vec F S1x512x2048 .f32 :=
  VO.read (Elt F) (VO.writes (Elt F) VO.junk (runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) p.1 p.2.1 p.2.2).1)

/-! ## The state after each point -/

/-- What the scratch holds after point `n`: afresh at every first key block, else from the point before. -/
def stateAt (c : Dev nD) : (n : ℕ) → n < cfg1.N → (Vec F S2048x1 .f32 × Vec F S2048x1 .f32 × Vec F S2048x512 .f32)
  | 0, h => afterA V c ⟨0, h⟩ (Nat.zero_mod 8)
  | n + 1, h =>
    if h0 : (n + 1) % 8 = 0 then afterA V c ⟨n + 1, h⟩ h0
    else if h7 : (n + 1) % 8 = 7 then afterC V c ⟨n + 1, h⟩ h0 h7 (stateAt c n (Nat.lt_of_succ_lt h))
    else afterB V c ⟨n + 1, h⟩ h0 h7 (stateAt c n (Nat.lt_of_succ_lt h))

theorem stateAt_first (c : Dev nD) (t : Fin cfg1.N) (h0 : t.val % 8 = 0) : stateAt V c t.val t.isLt = afterA V c t h0 := by
  obtain ⟨n, hn⟩ := t
  cases n with
  | zero => rfl
  | succ n => simp only [stateAt, dif_pos h0]

theorem stateAt_mid (c : Dev nD) (t : Fin cfg1.N) (h0 : ¬t.val % 8 = 0) (h7 : ¬t.val % 8 = 7) :
    stateAt V c t.val t.isLt = afterB V c t h0 h7 (stateAt V c (t.val - 1) (Nat.lt_of_le_of_lt (Nat.sub_le _ _) t.isLt)) := by
  obtain ⟨n, hn⟩ := t
  cases n with
  | zero => exact absurd (Nat.zero_mod 8) h0
  | succ n => simp only [stateAt, dif_neg h0, dif_neg h7]; rfl

theorem stateAt_last (c : Dev nD) (t : Fin cfg1.N) (h0 : ¬t.val % 8 = 0) (h7 : t.val % 8 = 7) :
    stateAt V c t.val t.isLt = afterC V c t h0 h7 (stateAt V c (t.val - 1) (Nat.lt_of_le_of_lt (Nat.sub_le _ _) t.isLt)) := by
  obtain ⟨n, hn⟩ := t
  cases n with
  | zero => exact absurd (Nat.zero_mod 8) h0
  | succ n => simp only [stateAt, dif_neg h0, dif_pos h7]; rfl

/-- What the output buffer is left holding at point `t`: at a last key block, the stored block; elsewhere the body
    does not touch it and nothing reads this value. -/
def outAt (c : Dev nD) (t : Fin cfg1.N) : Vec F S1x512x2048 .f32 :=
  if h7 : t.val % 8 = 7 then
    outC V c t (by omega) h7 (stateAt V c (t.val - 1) (Nat.lt_of_le_of_lt (Nat.sub_le _ _) t.isLt))
  else VO.read (Elt F) VO.junk

end Cert.Kernel.Attn

end
-- ==== Proof.BitsAttnBody.lean ====
/-
  The attention kernel's invariant, proof data and per-point obligation.

  Between points the launch holds, besides the windows' buffers: the first kernel's staging buffers at anything, the
  generator register, and the three scratch buffers — at anything before the first point, and after point n at exactly
  the state the recursion assigns to n. A first key block may therefore start from any scratch contents (it resets
  them); every other block starts from the state of the point before, which is what it reads.
-/
import proofs.«137960_j66374424592665_2_alg».proof.Proof.BitsAttnData

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- Before point `n` (after point `n − 1`). -/
def inv (c : Dev nD) : (n : ℕ) → n ≤ cfg1.N → sProp 𝕄
  | 0, _ => Pipeline.ΦA spec1 c
  | n + 1, h => iprop(stagingThen c iprop(owns (c : Thread nD τ) scM fullShare (stateAt V c n h).1
        ∗ owns (c : Thread nD τ) scL fullShare (stateAt V c n h).2.1 ∗ owns (c : Thread nD τ) scA fullShare (stateAt V c n h).2.2)
      ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(stagingThen c iprop(owns (c : Thread nD τ) scM fullShare (stateAt V c n hn).1
        ∗ owns (c : Thread nD τ) scL fullShare (stateAt V c n hn).2.1 ∗ owns (c : Thread nD τ) scA fullShare (stateAt V c n hn).2.2)
      ∗ (∃ r, prngReg c r)) := rfl
theorem inv_pos (c : Dev nD) (n : ℕ) (h : n ≤ cfg1.N) (hz : n ≠ 0) :
    inv V c n h = iprop(stagingThen c iprop(owns (c : Thread nD τ) scM fullShare (stateAt V c (n - 1) (by omega)).1
        ∗ owns (c : Thread nD τ) scL fullShare (stateAt V c (n - 1) (by omega)).2.1 ∗ owns (c : Thread nD τ) scA fullShare (stateAt V c (n - 1) (by omega)).2.2)
      ∗ (∃ r, prngReg c r)) := by
  obtain ⟨k, rfl⟩ := Nat.exists_eq_succ_of_ne_zero hz
  rfl

/-! ## The proof data -/

/-- Each array as the kernel finds it; after the body the four input buffers still at their blocks and the output
    buffer at `outAt`; the invariant above; nothing owed. -/
def dat (c : Dev nD) : Dat τ (Elt F) Unit ℕ (UR sig nD τ) ℕ cfg1 c where
  A w := V c (Pipeline.arrRef spec1 w)
  after w t := match w with
    | ⟨0, _⟩ => block V c 0 t
    | ⟨1, _⟩ => block V c 1 t
    | ⟨2, _⟩ => block V c 2 t
    | ⟨3, _⟩ => block V c 3 t
    | ⟨4, _⟩ => outAt V c t
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem after_q (c : Dev nD) (t : Fin cfg1.N) : (dat V c).after 0 t = block V c 0 t := by dsimp only [dat]
theorem after_k (c : Dev nD) (t : Fin cfg1.N) : (dat V c).after 1 t = block V c 1 t := by dsimp only [dat]
theorem after_v (c : Dev nD) (t : Fin cfg1.N) : (dat V c).after 2 t = block V c 2 t := by dsimp only [dat]
theorem after_w (c : Dev nD) (t : Fin cfg1.N) : (dat V c).after 3 t = block V c 3 t := by dsimp only [dat]
theorem after_o (c : Dev nD) (t : Fin cfg1.N) : (dat V c).after 4 t = outAt V c t := by dsimp only [dat]

theorem before_q (c : Dev nD) (t : Fin cfg1.N) (d) : (dat V c).before 0 t d = block V c 0 t :=
  held_q V (dat V c) (A_eq V c 0) (after_q V c) t d
theorem before_k (c : Dev nD) (t : Fin cfg1.N) (d) : (dat V c).before 1 t d = block V c 1 t :=
  held_k V (dat V c) (A_eq V c 1) (after_k V c) t d
theorem before_v (c : Dev nD) (t : Fin cfg1.N) (d) : (dat V c).before 2 t d = block V c 2 t :=
  held_v V (dat V c) (A_eq V c 2) (after_v V c) t d
theorem before_w (c : Dev nD) (t : Fin cfg1.N) (d) : (dat V c).before 3 t d = block V c 3 t :=
  held_w V (dat V c) (A_eq V c 3) (after_w V c) t d

theorem inv_castSucc (c : Dev nD) (t : Fin cfg1.N) :
    (dat V c).Φ t.castSucc = inv V c t.val (Nat.le_of_lt t.isLt) := rfl

/-! ## The body at a grid point -/

/-- What the launch hands the body at point `t`, -/
def bodyPre (c : Dev nD) (t : Fin cfg1.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mk t) fullShare ((dat V c).before 1 t d))
    ∗ (∃ d, owns (c : Thread nD τ) (mv t) fullShare ((dat V c).before 2 t d))
    ∗ (∃ d, owns (c : Thread nD τ) (mw t) fullShare ((dat V c).before 3 t d))
    ∗ (∃ d, owns (c : Thread nD τ) (mo t) fullShare ((dat V c).before 4 t d)))

/-- and what it takes back: each window's buffer at its stated contents, or — the output off the last key block —
    as it was found. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 8000000 in
/-- At any point: the input buffers hold their blocks; t mod 8 says which case the point is in; the invariant hands
    the body the scratch at the previous point's state (at anything, for a first key block) and takes it back at this
    point's. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v, before_w]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (mq t) fullShare ((dat V c).after 0 t) from by
    unfold Dat.leavesExact; rw [live_q t], after_q]
  rw [show (dat V c).leavesExact 1 t = owns (c : Thread nD τ) (mk t) fullShare ((dat V c).after 1 t) from by
    unfold Dat.leavesExact; rw [live_k t], after_k]
  rw [show (dat V c).leavesExact 2 t = owns (c : Thread nD τ) (mv t) fullShare ((dat V c).after 2 t) from by
    unfold Dat.leavesExact; rw [live_v t], after_v]
  rw [show (dat V c).leavesExact 3 t = owns (c : Thread nD τ) (mw t) fullShare ((dat V c).after 3 t) from by
    unfold Dat.leavesExact; rw [live_w t], after_w]
  by_cases h0 : t.val % 8 = 0
  · have h7 : ¬t.val % 8 = 7 := by omega
    rw [Dat.leavesExact_idle (dat V c) 4 t (idle_out t (fun h => h7 ((last_iff t).mp h))) (noflush_out t (fun h => h7 ((last_iff t).mp h)))]
    rw [stateAt_first V c t h0]
    unfold afterA; (try dsimp only)
    by_cases hz : t.val = 0
    · rw [inv_castSucc V c t, inv_zero V c _ _ hz, rest_eq]; unfold stagingThen
      iintro ⟨⟨⟨S0, S1, S2, S3, S4, S5, S6, S7, S8, S9, HM, HL, HA⟩, Hg⟩, Ho, ⟨%d0, H0⟩, ⟨%d1, H1⟩, ⟨%d2, H2⟩, ⟨%d3, H3⟩, ⟨%d4, H4⟩⟩
      iapply ((runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).2.2.2 _ Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, ⟨%eM, HM⟩, ⟨%eL, HL⟩, ⟨%eA, HA⟩⟩
      isplitl [S0 S1 S2 S3 S4 S5 S6 S7 S8 S9 HM HL HA Hg]
      · isplitl [S0 S1 S2 S3 S4 S5 S6 S7 S8 S9 HM HL HA]
        · (try unfold stagingThen)
          isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [HM]
          · unfold owns; iexists _; isplitr
            swap; · iexact HM
            ipureintro; exact View.read_writes_of_cover _ _ _ _ _ (coverA_M c _ _ _ _ _ _ _ _ _ _ _ _ _ _ _ _ _ _ _ _ _ _ _)
          isplitl [HL]
          · unfold owns; iexists _; isplitr
            swap; · iexact HL
            ipureintro; exact View.read_writes_of_cover _ _ _ _ _ (coverA_L c _ _ _ _ _ _ _ _ _ _ _ _ _ _ _ _ _ _ _ _ _ _ _)
          unfold owns; iexists _; isplitr
          swap; · iexact HA
          ipureintro; exact View.read_writes_of_cover _ _ _ _ _ (coverA_A c _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      iexists _; iexact H4
    · rw [inv_castSucc V c t, inv_pos V c _ _ hz]; unfold stagingThen
      iintro ⟨⟨⟨S0, S1, S2, S3, S4, S5, S6, S7, S8, S9, HM, HL, HA⟩, Hg⟩, Ho, ⟨%d0, H0⟩, ⟨%d1, H1⟩, ⟨%d2, H2⟩, ⟨%d3, H3⟩, ⟨%d4, H4⟩⟩
      iapply ((runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).2.2.2 _ Set.univ _)
      isplitl [H0]; · iexact H0
      isplitl [H1]; · iexact H1
      isplitl [H2]; · iexact H2
      isplitl [H3]; · iexact H3
      isplitl [H4]; · iexact H4
      isplitl [HM]; · iexists _; iexact HM
      isplitl [HL]; · iexists _; iexact HL
      isplitl [HA]; · iexists _; iexact HA
      iintro ⟨H0, H1, H2, H3, H4, ⟨%eM, HM⟩, ⟨%eL, HL⟩, ⟨%eA, HA⟩⟩
      isplitl [S0 S1 S2 S3 S4 S5 S6 S7 S8 S9 HM HL HA Hg]
      · isplitl [S0 S1 S2 S3 S4 S5 S6 S7 S8 S9 HM HL HA]
        · (try unfold stagingThen)
          isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [HM]
          · unfold owns; iexists _; isplitr
            swap; · iexact HM
            ipureintro; exact View.read_writes_of_cover _ _ _ _ _ (coverA_M c _ _ _ _ _ _ _ _ _ _ _ _ _ _ _ _ _ _ _ _ _ _ _)
          isplitl [HL]
          · unfold owns; iexists _; isplitr
            swap; · iexact HL
            ipureintro; exact View.read_writes_of_cover _ _ _ _ _ (coverA_L c _ _ _ _ _ _ _ _ _ _ _ _ _ _ _ _ _ _ _ _ _ _ _)
          unfold owns; iexists _; isplitr
          swap; · iexact HA
          ipureintro; exact View.read_writes_of_cover _ _ _ _ _ (coverA_A c _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h7 : t.val % 8 = 7
    · rw [show (dat V c).leavesExact 4 t = owns (c : Thread nD τ) (mo t) fullShare ((dat V c).after 4 t) from by
        unfold Dat.leavesExact; rw [live_out t ((last_iff t).mpr h7)], after_o]
      rw [stateAt_last V c t h0 h7]
      unfold outAt; rw [dif_pos h7]
      unfold afterC outC; (try dsimp only)
      rw [inv_castSucc V c t, inv_pos V c _ _ hz]; unfold stagingThen
      iintro ⟨⟨⟨S0, S1, S2, S3, S4, S5, S6, S7, S8, S9, HM, HL, HA⟩, Hg⟩, Ho, ⟨%d0, H0⟩, ⟨%d1, H1⟩, ⟨%d2, H2⟩, ⟨%d3, H3⟩, ⟨%d4, H4⟩⟩
      iapply ((runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HM]; · iexact HM
      isplitl [HL]; · iexact HL
      isplitl [HA]; · iexact HA
      iintro ⟨H0, H1, H2, H3, ⟨%eO, H4⟩, ⟨%eM, HM⟩, ⟨%eL, HL⟩, ⟨%eA, HA⟩⟩
      isplitl [S0 S1 S2 S3 S4 S5 S6 S7 S8 S9 HM HL HA Hg]
      · isplitl [S0 S1 S2 S3 S4 S5 S6 S7 S8 S9 HM HL HA]
        · (try unfold stagingThen)
          isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [HM]
          · unfold owns; iexists _; isplitr
            swap; · iexact HM
            ipureintro; exact View.read_writes_of_cover _ _ _ _ _ (coverC_M c _ _ _ _ _ _ _ _ _ _ _ _ _ _ _ _ _ _ _ _ _ _ _ _ _ _)
          isplitl [HL]
          · unfold owns; iexists _; isplitr
            swap; · iexact HL
            ipureintro; exact View.read_writes_of_cover _ _ _ _ _ (coverC_L c _ _ _ _ _ _ _ _ _ _ _ _ _ _ _ _ _ _ _ _ _ _ _ _ _ _)
          unfold owns; iexists _; isplitr
          swap; · iexact HA
          ipureintro; exact View.read_writes_of_cover _ _ _ _ _ (coverC_A c _ _ _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_O c _ _ _ _ _ _ _ _ _ _ _ _ _ _ _ _ _ _ _ _ _ _ _ _ _ _)
    · rw [Dat.leavesExact_idle (dat V c) 4 t (idle_out t (fun h => h7 ((last_iff t).mp h))) (noflush_out t (fun h => h7 ((last_iff t).mp h)))]
      rw [stateAt_mid V c t h0 h7]
      unfold afterB; (try dsimp only)
      rw [inv_castSucc V c t, inv_pos V c _ _ hz]; unfold stagingThen
      iintro ⟨⟨⟨S0, S1, S2, S3, S4, S5, S6, S7, S8, S9, HM, HL, HA⟩, Hg⟩, Ho, ⟨%d0, H0⟩, ⟨%d1, H1⟩, ⟨%d2, H2⟩, ⟨%d3, H3⟩, ⟨%d4, H4⟩⟩
      iapply ((runB c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) (fun h => h7 ((last_iff t).mp h)) (block V c 0 t) (block V c 1 t) (block V c 2 t) (block V c 3 t) _ _ _).2.2.2 _ Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, ⟨%eM, HM⟩, ⟨%eL, HL⟩, ⟨%eA, HA⟩⟩
      isplitl [S0 S1 S2 S3 S4 S5 S6 S7 S8 S9 HM HL HA Hg]
      · isplitl [S0 S1 S2 S3 S4 S5 S6 S7 S8 S9 HM HL HA]
        · (try unfold stagingThen)
          isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [HM]
          · unfold owns; iexists _; isplitr
            swap; · iexact HM
            ipureintro; exact View.read_writes_of_cover _ _ _ _ _ (coverB_M c _ _ _ _ _ _ _ _ _ _ _ _ _ _ _ _ _ _ _ _ _ _ _ _ _ _)
          isplitl [HL]
          · unfold owns; iexists _; isplitr
            swap; · iexact HL
            ipureintro; exact View.read_writes_of_cover _ _ _ _ _ (coverB_L c _ _ _ _ _ _ _ _ _ _ _ _ _ _ _ _ _ _ _ _ _ _ _ _ _ _)
          unfold owns; iexists _; isplitr
          swap; · iexact HA
          ipureintro; exact View.read_writes_of_cover _ _ _ _ _ (coverB_A c _ _ _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      iexists _; iexact H4

/-- The launch's obligation about the body, at every point. -/
theorem body_obligation (c : Dev nD) : BodyObligation (dat (F := F) V c) (defs₀ (F := F)) Variants.none () Set.univ := fun t => by
  rw [bigSep_W1, bigSep_W1]
  exact sound_body V c t

end Cert.Kernel.Attn

end
-- ==== Proof.BitsWhole.lean ====
/-
  The whole program: a host reshape of the feature map, the projection kernel, the attention kernel, a host reshape of
  the result. Between two items every unscoped buffer is held at known contents: the launch memory; then the reshape's
  result; then the three arrays the first kernel writes back (whatever its sixteen points leave); then the one array the
  second writes back. Neither a host reshape nor a kernel writes an argument array, so each argument ends as launched —
  the frame — and every run terminates without a fault because each item does.
-/
import proofs.«137960_j66374424592665_2_alg».proof.Proof.BitsProj
import proofs.«137960_j66374424592665_2_alg».proof.Proof.BitsAttnBody
import proofs.«137960_j66374424592665_2_alg».proof.Proof.Gen.Kernel.Regions

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ
variable (V : (c : Dev nD) → (b : Ref sig .tc) → Buf (Elt F) ((c : Thread nD τ).loc b))

/-- After at least one point the invariant gives back what the launch handed over: the scratch at something. -/
theorem inv_out (c : Dev nD) (n : ℕ) (h : n ≤ cfg1.N) (hz : n ≠ 0) : inv V c n h ⊢ (Pipeline.ΦA spec1 c : sProp 𝕄) := by
  rw [inv_pos V c n h hz, rest_eq]; unfold stagingThen
  iintro ⟨⟨S0, S1, S2, S3, S4, S5, S6, S7, S8, S9, HM, HL, HA⟩, Hg⟩
  isplitl [S0 S1 S2 S3 S4 S5 S6 S7 S8 S9 HM HL HA]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [HM]; · iexists _; iexact HM
    isplitl [HL]; · iexists _; iexact HL
    iexists _; iexact HA
  iexact Hg

/-- The same at a point of the launch's own indexing, kept abstract: only "not the first" is used. -/
theorem Phi_out (c : Dev nD) (t : Fin (cfg1.N + 1)) (ht : t.val ≠ 0) : (dat V c).Φ t ⊢ (Pipeline.ΦA spec1 c : sProp 𝕄) := by
  rw [show (dat V c).Φ t = inv V c t.val (Nat.le_of_lt_succ t.isLt) from rfl]
  exact inv_out V c _ _ ht

end Cert.Kernel.Attn

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- When the projection kernel is entered (after the host reshape). -/
abbrev E1 (c : Dev nD) (b : Ref sig .tc) : Buf (Elt F) ((c : Thread nD τ).loc b) := Gen.V1 m c b

/-- What the projection kernel leaves in the three arrays it writes back. -/
def outs0 : Gen.Outs (F := F) := fun _ r c =>
  if h0 : r = main_v1_0 then h0 ▸ (show Buf (Elt F) ((c : Thread nD τ).loc main_v1_0) from (Proj.dat (E1 m) c).arrAt 3 cfg0.N)
  else if h1 : r = main_v1_1 then h1 ▸ (show Buf (Elt F) ((c : Thread nD τ).loc main_v1_1) from (Proj.dat (E1 m) c).arrAt 4 cfg0.N)
  else if h2 : r = main_v1_2 then h2 ▸ (show Buf (Elt F) ((c : Thread nD τ).loc main_v1_2) from (Proj.dat (E1 m) c).arrAt 5 cfg0.N)
  else m ((c : Thread nD τ).loc r)

/-- When the attention kernel is entered. -/
abbrev E2 (c : Dev nD) (b : Ref sig .tc) : Buf (Elt F) ((c : Thread nD τ).loc b) := Gen.V2 m (outs0 m) c b

/-- What both kernels leave: the above, and the attention kernel's one array. -/
def outs : Gen.Outs (F := F) := fun J r c =>
  if h : r = main_v2 then h ▸ (show Buf (Elt F) ((c : Thread nD τ).loc main_v2) from (Attn.dat (E2 m) c).arrAt 4 cfg1.N)
  else outs0 m J r c

theorem outs_v1_0 (J : ℕ) (c : Dev nD) : outs m J main_v1_0 c = (Proj.dat (E1 m) c).arrAt 3 cfg0.N := by
  simp only [outs, outs0, dif_neg (show ¬(main_v1_0 : Ref sig .tc) = main_v2 by decide), dif_pos rfl]; rfl
theorem outs_v1_1 (J : ℕ) (c : Dev nD) : outs m J main_v1_1 c = (Proj.dat (E1 m) c).arrAt 4 cfg0.N := by
  simp only [outs, outs0, dif_neg (show ¬(main_v1_1 : Ref sig .tc) = main_v2 by decide), dif_neg (show ¬(main_v1_1 : Ref sig .tc) = main_v1_0 by decide), dif_pos rfl]; rfl
theorem outs_v1_2 (J : ℕ) (c : Dev nD) : outs m J main_v1_2 c = (Proj.dat (E1 m) c).arrAt 5 cfg0.N := by
  simp only [outs, outs0, dif_neg (show ¬(main_v1_2 : Ref sig .tc) = main_v2 by decide), dif_neg (show ¬(main_v1_2 : Ref sig .tc) = main_v1_0 by decide), dif_neg (show ¬(main_v1_2 : Ref sig .tc) = main_v1_1 by decide), dif_pos rfl]; rfl
theorem outs_v2 (J : ℕ) (c : Dev nD) : outs m J main_v2 c = (Attn.dat (E2 m) c).arrAt 4 cfg1.N := by
  simp only [outs, dif_pos rfl]; rfl

/-- The second kernel's entry contents do not depend on what it will itself leave. -/
theorem V2_outs (c : Dev nD) : Gen.V2 m (outs m) c = Gen.V2 m (outs0 m) c := by
  have e0 : outs m 2 main_v1_0 c = outs0 m 2 main_v1_0 c := by simp only [outs, dif_neg (show ¬(main_v1_0 : Ref sig .tc) = main_v2 by decide)]
  have e1 : outs m 2 main_v1_1 c = outs0 m 2 main_v1_1 c := by simp only [outs, dif_neg (show ¬(main_v1_1 : Ref sig .tc) = main_v2 by decide)]
  have e2 : outs m 2 main_v1_2 c = outs0 m 2 main_v1_2 c := by simp only [outs, dif_neg (show ¬(main_v1_2 : Ref sig .tc) = main_v2 by decide)]
  simp only [Gen.V2, e0, e1, e2]

/-! ## The proof data family and what rides along -/

abbrev adm : (p : Fin 2) → (pcfgs (F := F) p).Adm := Gen.adm
def pdats : (p : Fin 2) → (c : Dev nD) → Dat τ (Elt F) Unit ℕ (UR sig nD τ) ℕ (Pipeline.pin (pcfgs (F := F)) adm p) c
  | ⟨0, _⟩ => fun c => Proj.dat (E1 m) c
  | ⟨1, _⟩ => fun c => Attn.dat (E2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

end Cert.Kernel.Whole

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The written-back arrays at the boundaries -/

theorem V2_at_0 (c : Dev nD) : Gen.V2 m (outs m) c main_v1_0 = (Proj.dat (E1 m) c).arrAt 3 cfg0.N := by
  rw [← outs_v1_0 m 2 c]
  simp only [Gen.V2, (Function.update_of_ne (StableHlo.devRef_ne_of_ne (by decide) : (Proc.devRef .tc main_v1_0 : DevRef τ sig) ≠ Proc.devRef .tc main_v1_2)), (Function.update_of_ne (StableHlo.devRef_ne_of_ne (by decide) : (Proc.devRef .tc main_v1_0 : DevRef τ sig) ≠ Proc.devRef .tc main_v1_1)), Function.update_self]
theorem V2_at_1 (c : Dev nD) : Gen.V2 m (outs m) c main_v1_1 = (Proj.dat (E1 m) c).arrAt 4 cfg0.N := by
  rw [← outs_v1_1 m 2 c]
  simp only [Gen.V2, (Function.update_of_ne (StableHlo.devRef_ne_of_ne (by decide) : (Proc.devRef .tc main_v1_1 : DevRef τ sig) ≠ Proc.devRef .tc main_v1_2)), Function.update_self]
theorem V2_at_2 (c : Dev nD) : Gen.V2 m (outs m) c main_v1_2 = (Proj.dat (E1 m) c).arrAt 5 cfg0.N := by
  rw [← outs_v1_2 m 2 c]
  simp only [Gen.V2, Function.update_self]
theorem V3_at (c : Dev nD) : Gen.V3 m (outs m) c main_v2 = (Attn.dat (E2 m) c).arrAt 4 cfg1.N := by
  rw [← outs_v2 m 3 c]
  simp only [Gen.V3, Function.update_self]

/-- After the projection kernel each of its six arrays holds what its launch leaves: the three inputs as found, the
    three outputs the written-back blocks. -/
theorem left0 (c : Dev nD) (w : Fin cfg0.W) :
    (pdats m 0 c).arrAt w cfg0.N = (fun b : Ref sig .tc => Gen.V2 m (outs m) c b) (Pipeline.arrRef spec0 w) := by
  fin_cases w
  · exact (((pdats m 0 c).arrAt_in 0 rfl _).trans (Proj.A_eq (E1 m) c 0)).trans (Gen.V2_of m (outs m) c _ (by decide)).symm
  · exact (((pdats m 0 c).arrAt_in 1 rfl _).trans (Proj.A_eq (E1 m) c 1)).trans (Gen.V2_of m (outs m) c _ (by decide)).symm
  · exact (((pdats m 0 c).arrAt_in 2 rfl _).trans (Proj.A_eq (E1 m) c 2)).trans (Gen.V2_of m (outs m) c _ (by decide)).symm
  · exact (V2_at_0 m c).symm
  · exact (V2_at_1 m c).symm
  · exact (V2_at_2 m c).symm

/-- Every other buffer is as the kernel found it. -/
theorem kept0 (c : Dev nD) : ∀ b : Ref sig .tc, b ∉ Finset.univ.image (Pipeline.arrRef spec0) →
    (fun b : Ref sig .tc => Gen.V2 m (outs m) c b) b = (fun b : Ref sig .tc => Gen.V1 m c b) b := fun b hb =>
  Gen.V2_of m (outs m) c b fun hmem => by
    simp only [List.mem_cons, List.mem_nil_iff, or_false] at hmem
    rcases hmem with rfl | rfl | rfl
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩)

/-- After the attention kernel: its four inputs as found, its output the written-back blocks. -/
theorem left1 (c : Dev nD) (w : Fin cfg1.W) :
    (pdats m 1 c).arrAt w cfg1.N = (fun b : Ref sig .tc => Gen.V3 m (outs m) c b) (Pipeline.arrRef spec1 w) := by
  have hin : ∀ (w : Fin cfg1.W) (hw : (cfg1.win w).isOut = false) (hne : Pipeline.arrRef spec1 w ∉ ([main_v2] : List (Ref sig .tc))),
      (pdats m 1 c).arrAt w cfg1.N = Gen.V3 m (outs m) c (Pipeline.arrRef spec1 w) := fun w hw hne =>
    (((pdats m 1 c).arrAt_in w hw _).trans (Attn.A_eq (E2 m) c w)).trans
      ((congrFun (V2_outs m c) _).symm.trans (Gen.V3_of m (outs m) c _ hne).symm)
  fin_cases w
  · exact hin 0 rfl (by decide)
  · exact hin 1 rfl (by decide)
  · exact hin 2 rfl (by decide)
  · exact hin 3 rfl (by decide)
  · exact (V3_at m c).symm

theorem kept1 (c : Dev nD) : ∀ b : Ref sig .tc, b ∉ Finset.univ.image (Pipeline.arrRef spec1) →
    (fun b : Ref sig .tc => Gen.V3 m (outs m) c b) b = (fun b : Ref sig .tc => Gen.V2 m (outs0 m) c b) b := fun b hb =>
  (Gen.V3_of m (outs m) c b fun hmem => by
    simp only [List.mem_cons, List.mem_nil_iff, or_false] at hmem
    subst hmem
    exact hb (Finset.mem_image.mpr ⟨4, Finset.mem_univ _, rfl⟩)).trans (congrFun (V2_outs m c) _)

/-! ## The two kernels as items of the program -/

set_option backward.isDefEq.respectTransparency.types false in
/-- The projection kernel: entered from every unscoped buffer at the reshape's contents, left with its three output
    arrays at what its sixteen points wrote back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => (Gen.V1 m c) b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => (Gen.V1 m c) b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => (Gen.V1 m c) b) (fun b => (Gen.V2 m (outs m) c) b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from those contents, left with its output array at what its 128 points wrote back
    (at every eighth). Its invariant starts as what the launch hands over and ends giving it back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (E2 m) c).loose
  hwaits := Pipeline.hwaits_of_owed_zero _ _ _ _ L lv 1 fun _ _ => rfl
  pre c := iprop(StableHlo.held (c : Thread nD τ) (Pipeline.ucRefs τ sig) (Gen.V2 m (outs0 m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => (Gen.V2 m (outs0 m) c) b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => (Gen.V2 m (outs0 m) c) b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Attn.Phi_out (E2 m) c (Fin.last _) (by show cfg1.N ≠ 0; rw [show cfg1.N = 128 from N_1]; decide)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => (Gen.V2 m (outs0 m) c) b) (fun b => (Gen.V3 m (outs m) c) b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of the program terminates, faults nowhere, and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V2_outs m c]; exact .rfl) (fun c => .rfl)

end Cert.Kernel.Whole

end
-- ==== Proof.IdealProj.lean ====
/-
  The first kernel (the projections): per batch entry b and half t of the 4096 positions, from the block x of the
  feature map (512 channels × 2048 positions) and the two weight matrices it writes three blocks,
    φ̂ = (W_φ x) with each column divided by its Euclidean norm      (256 × 2048),
    θ̂ = (W_θ x) likewise                                            (256 × 2048),
    x itself in the narrower format                                   (512 × 2048).
  Every point of the 8 × 2 grid does the same thing to its own blocks: there is no branch and nothing is kept from one
  point to the next. The body also reads each output buffer once before overwriting it; what it reads there is never
  used, so the buffers may hold anything when a point starts.

  This file: what each output buffer holds after the body, as a function of the three input blocks; that the body
  run from those blocks reaches its end without a fault leaving exactly that; and the per-point bookkeeping the
  pipelined launch asks for (each input buffer holds its block at every point whether or not it was fetched there —
  the weight matrices are fetched once, at the first point).
-/
import proofs.«137960_j66374424592665_2_alg».proof.Proof.Gen.KernelIdeal.Launch
import proofs.«137960_j66374424592665_2_alg».proof.Proof.Gen.KernelIdeal.Skeleton
import proofs.«137960_j66374424592665_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the first kernel is entered
variable (V : (c : Dev nD) → (b : Ref sig .tc) → Buf (Elt F) ((c : Thread nD τ).loc b))

/-! ## The blocks -/

/-- The block of window `w`'s array that grid point `t` works on. -/
def block (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Held
variable {c : Dev nD} (dat : Dat τ (Elt F) Unit ℕ (UR sig nD τ) ℕ cfg0 c)

/-- The feature-map window's buffer holds its block when the body runs (it is fetched at every point). -/
theorem held_x (hA : dat.A 0 = V c (Pipeline.arrRef spec0 0)) (hafter : ∀ t, dat.after 0 t = block V c 0 t)
    (t : Fin cfg0.N) (d) : dat.before 0 t d = block V c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)

/-- The φ weights' buffer holds the whole matrix at every point, though it is fetched only at the first: its block
    index never moves. -/
theorem held_wφ (hA : dat.A 1 = V c (Pipeline.arrRef spec0 1)) (hafter : ∀ t, dat.after 1 t = block V c 1 t)
    (t : Fin cfg0.N) (d) : dat.before 1 t d = block V c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)

/-- The same for the θ weights. -/
theorem held_wθ (hA : dat.A 2 = V c (Pipeline.arrRef spec0 2)) (hafter : ∀ t, dat.after 2 t = block V c 2 t)
    (t : Fin cfg0.N) (d) : dat.before 2 t d = block V c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)

end Held

/-! ## What the body leaves -/

/-- The whole feature block, the whole weight matrix, the whole output blocks: every access of the body is the full
    buffer. -/
abbrev rX : Rect S1x512x2048 := Rect.unit (s := S1x512x2048) ![0, 0, 0] S1x512x2048.size inb_S1x512x2048_S1x512x2048_0_0_0
abbrev rW : Rect S256x512 := Rect.unit (s := S256x512) ![0, 0] S256x512.size inb_S256x512_S256x512_0_0
abbrev rP : Rect S1x256x2048 := Rect.unit (s := S1x256x2048) ![0, 0, 0] S1x256x2048.size inb_S1x256x2048_S1x256x2048_0_0_0

/-- The normalised φ block, from the feature block and the φ weights. -/
def outφ (x : Vec F S1x512x2048 .f32) (w : Vec F S256x512 .f32) : Vec F S1x256x2048 .bf16 :=
  View.canon [⟨rP, k0_pay3 (View.ld x rX) (View.ld w rW)⟩]
/-- The normalised θ block, from the feature block and the θ weights. -/
def outθ (x : Vec F S1x512x2048 .f32) (w : Vec F S256x512 .f32) : Vec F S1x256x2048 .bf16 :=
  View.canon [⟨rP, k0_pay4 (View.ld x rX) (View.ld w rW)⟩]
/-- The feature block in the narrower format. -/
def outX (x : Vec F S1x512x2048 .f32) : Vec F S1x512x2048 .bf16 :=
  View.canon [⟨rX, k0_pay1 (k0_pay2 (View.ld x rX))⟩]

/-- One store of the whole buffer covers it. -/
theorem coverP (p : Vec F S1x256x2048 .bf16) (y : S1x256x2048.Idx) :
    ∃ pc ∈ ([⟨rP, p⟩] : List (View.Piece (Elt F) S1x256x2048 .bf16)), y ∈ pc.1.set :=
  View.cover_of_tiled [⟨rP, p⟩] S1x256x2048.size (by rfl) y
theorem coverX (p : Vec F S1x512x2048 .bf16) (y : S1x512x2048.Idx) :
    ∃ pc ∈ ([⟨rX, p⟩] : List (View.Piece (Elt F) S1x512x2048 .bf16)), y ∈ pc.1.set :=
  View.cover_of_tiled [⟨rX, p⟩] S1x512x2048.size (by rfl) y

/-! ## The body runs -/

set_option maxHeartbeats 4000000 in
/-- From the three input buffers at their blocks and the three output buffers at anything, the body reaches its end
    without a fault, the inputs as they were and each output at the function above. -/
theorem body_runs (c : Dev nD) (E : Set ℕ) (i : grid0.Coords)
    (a2 : Memref sig .tc .vmem S1x512x2048 .f32) (h2 : a2.IsWhole) (a3 : Memref sig .tc .vmem S256x512 .f32) (h3 : a3.IsWhole)
    (a4 : Memref sig .tc .vmem S256x512 .f32) (h4 : a4.IsWhole) (a5 : Memref sig .tc .vmem S1x256x2048 .bf16) (h5 : a5.IsWhole)
    (a6 : Memref sig .tc .vmem S1x256x2048 .bf16) (h6 : a6.IsWhole) (a7 : Memref sig .tc .vmem S1x512x2048 .bf16) (h7 : a7.IsWhole)
    (x : Vec F S1x512x2048 .f32) (wφ wθ : Vec F S256x512 .f32) (K : PUnit → sProp 𝕄) :
    iprop(owns (c : Thread nD τ) a2 fullShare x ∗ owns (c : Thread nD τ) a3 fullShare wφ ∗ owns (c : Thread nD τ) a4 fullShare wθ
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x ∗ owns (c : Thread nD τ) a3 fullShare wφ ∗ owns (c : Thread nD τ) a4 fullShare wθ
            ∗ owns (c : Thread nD τ) a5 fullShare (outφ x wφ) ∗ owns (c : Thread nD τ) a6 fullShare (outθ x wθ)
            ∗ owns (c : Thread nD τ) a7 fullShare (outX x)) -∗ K ⟨⟩))
      ⊢ wp frame (wpE (defs₀ (F := F)) Variants.none c none) E (cc0__proj_kernel i a2 h2 a3 h3 a4 h4 a5 h5 a6 h6 a7 h7) K := by
  simp only [cc0__proj_kernel_eq_skeleton, k0_part1_eq_skeleton]; unfold cc0__proj_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP _)
  isplitl [H6]
  · iexists _; isplitr
    swap; · iexact H6
    ipureintro
    exact View.read_writes_eq_canon _ _ _ (coverP _)
  iexists _; isplitr
  swap; · iexact H7
  ipureintro
  exact View.read_writes_eq_canon _ _ _ (coverX _)

/-! ## The proof data of the launch -/

/-- At every point: each array as the kernel finds it; after the body the three input buffers still at their blocks
    and the three output buffers at φ̂, θ̂ and the narrowed x of those blocks; nothing else is touched, nothing owed. -/
def dat (c : Dev nD) : Dat τ (Elt F) Unit ℕ (UR sig nD τ) ℕ cfg0 c where
  A w := V c (Pipeline.arrRef spec0 w)
  after w t := match w with
    | ⟨0, _⟩ => block V c 0 t
    | ⟨1, _⟩ => block V c 1 t
    | ⟨2, _⟩ => block V c 2 t
    | ⟨3, _⟩ => outφ (block V c 0 t) (block V c 1 t)
    | ⟨4, _⟩ => outθ (block V c 0 t) (block V c 2 t)
    | ⟨5, _⟩ => outX (block V c 0 t)
  Φ _ := Pipeline.ΦA spec0 c
  q _ := fullShare
  owed _ := 0

theorem A_eq (c : Dev nD) (w : Fin cfg0.W) : (dat V c).A w = V c (Pipeline.arrRef spec0 w) := by dsimp only [dat]
theorem after_x (c : Dev nD) (t : Fin cfg0.N) : (dat V c).after 0 t = block V c 0 t := by dsimp only [dat]
theorem after_wφ (c : Dev nD) (t : Fin cfg0.N) : (dat V c).after 1 t = block V c 1 t := by dsimp only [dat]
theorem after_wθ (c : Dev nD) (t : Fin cfg0.N) : (dat V c).after 2 t = block V c 2 t := by dsimp only [dat]
theorem after_φ (c : Dev nD) (t : Fin cfg0.N) : (dat V c).after 3 t = outφ (block V c 0 t) (block V c 1 t) := by dsimp only [dat]
theorem after_θ (c : Dev nD) (t : Fin cfg0.N) : (dat V c).after 4 t = outθ (block V c 0 t) (block V c 2 t) := by dsimp only [dat]
theorem after_xn (c : Dev nD) (t : Fin cfg0.N) : (dat V c).after 5 t = outX (block V c 0 t) := by dsimp only [dat]

theorem before_x (c : Dev nD) (t : Fin cfg0.N) (d) : (dat V c).before 0 t d = block V c 0 t :=
  held_x V (dat V c) (A_eq V c 0) (after_x V c) t d
theorem before_wφ (c : Dev nD) (t : Fin cfg0.N) (d) : (dat V c).before 1 t d = block V c 1 t :=
  held_wφ V (dat V c) (A_eq V c 1) (after_wφ V c) t d
theorem before_wθ (c : Dev nD) (t : Fin cfg0.N) (d) : (dat V c).before 2 t d = block V c 2 t :=
  held_wθ V (dat V c) (A_eq V c 2) (after_wθ V c) t d

/-! ## The body at a grid point -/

/-- What the launch hands the body at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it takes back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- At any point the input buffers hold their blocks, so the body runs; the invariant and the core's dues pass by. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_wφ, before_wθ]
  rw [show (dat V c).Φ t.succ = (dat V c).Φ t.castSucc from rfl,
    show (dat V c).owesAt () t.succ = (dat V c).owesAt () t.castSucc from rfl,
    after_x, after_wφ, after_wθ, after_φ, after_θ, after_xn]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (block V c 0 t) (block V c 1 t) (block V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation about the body, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.IdealAttn.lean ====
/-
  The second kernel (the attention): per batch entry b, half qi of the 4096 query positions and block ki of 512 key
  positions — a grid of 8 × 2 × 8 points, the key axis innermost — it takes the normalised query block φ̂ (256 × 2048),
  the normalised key block θ̂ (256 × 512) and the value block x (512 × 512) and keeps three running quantities in scratch
  from one key block to the next: per query a shift m, a denominator l and, per channel, a numerator a. Each point
  forms the 2048 × 512 cosines s = φ̂ᵀ θ̂, the new shift m' = max(m, row maximum of s), and
      l ← exp(m − m')·l + ∑ₖ exp(s − m'),      a ← exp(m − m')·a + exp(s − m') xᵀ,      m ← m'.
  At the first key block (ki = 0) the three are first reset to −∞, 0, 0; at the last (ki = 7) the output block is
  written: max(0, Wᵀ (a / l)ᵀ). At the other points the output buffer is not touched.

  So a point's effect depends on ki alone, three cases, and what the scratch holds after a point is a function of the
  blocks of the points since the last reset — never of what it held at launch.
-/
import proofs.«137960_j66374424592665_2_alg».proof.Proof.Gen.KernelIdeal.Launch
import proofs.«137960_j66374424592665_2_alg».proof.Proof.Gen.KernelIdeal.Skeleton
import proofs.«137960_j66374424592665_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- "This is the first key block": the body's first branch, as it computes it from the grid coordinates. -/
abbrev first (i : grid1.Coords) : Prop :=
  (Scalar.cmpi .ne (Scalar.extui (Scalar.cmpi .eq (BitVec.ofNat 32 (i 2).val) 0#32)) 0#32) = 1#1
/-- "This is the last key block": the body's second branch. -/
abbrev last (i : grid1.Coords) : Prop := k1_cond2 i = 1#1

/-- The key axis is innermost with 8 blocks: point t is at key block t mod 8. -/
theorem first_iff : ∀ t : Fin cfg1.N, first (grid1.coords t) ↔ t.val % 8 = 0 :=
  (by decide +kernel : ∀ t : Fin grid1.N, first (grid1.coords t) ↔ t.val % 8 = 0)
theorem last_iff : ∀ t : Fin cfg1.N, last (grid1.coords t) ↔ t.val % 8 = 7 :=
  (by decide +kernel : ∀ t : Fin grid1.N, last (grid1.coords t) ↔ t.val % 8 = 7)

/-- The four input windows are never idle; the output window is idle exactly off the last key block, and there it is
    not written back either. -/
theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
theorem live_w : ∀ t : Fin cfg1.N, cfg1.idle 3 (grid1.coords t) = false := by decide +kernel
theorem idle_out : ∀ t : Fin cfg1.N, ¬last (grid1.coords t) → cfg1.idle 4 (grid1.coords t) = true := by decide +kernel
theorem noflush_out : ∀ t : Fin cfg1.N, ¬last (grid1.coords t) → (cfg1.win 4).flush t = false := by decide +kernel
theorem live_out : ∀ t : Fin cfg1.N, last (grid1.coords t) → cfg1.idle 4 (grid1.coords t) = false := by decide +kernel

/-! ## The scratch -/

abbrev scM : Memref sig .tc .vmem S2048x1 .f32 := Memref.whole cc1_scratch0
abbrev scL : Memref sig .tc .vmem S2048x1 .f32 := Memref.whole cc1_scratch1
abbrev scA : Memref sig .tc .vmem S2048x512 .f32 := Memref.whole cc1_scratch2

/-- The first kernel's staging buffers, each held at something (the second kernel never touches them), beside `P`. -/
def stagingThen (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ P)

/-- What the launch hands the second kernel besides its windows: those staging buffers, its three scratch buffers at
    anything, and the generator register. -/
theorem rest_eq (c : Dev nD) :
    (Pipeline.ΦA spec1 c : sProp 𝕄)
      = iprop(stagingThen c iprop((∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA stagingThen; rw [scopedRest1_eq]; simp only [scM, scL, scA, owns_whole]; try rfl

/-! ## The body, case by case -/

-- In each case the body is run from its eight buffers and what it leaves in the three scratch buffers (and, in the
-- last case, in the output buffer) is recorded as the list of pieces stored, last first: found by the run itself.

set_option maxHeartbeats 8000000 in
/-- A MIDDLE key block (neither first nor last): from the four input buffers at their blocks, the output buffer at
    anything (handed back untouched) and the scratch at the previous point's state, the body reaches its end without
    a fault; the scratch ends with the recorded pieces written. -/
noncomputable def runB (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32)
    (sM sL : Vec F S2048x1 .f32) (sA : Vec F S2048x512 .f32) :
    Σ' (LM : List (View.Piece (Elt F) S2048x1 .f32)) (LL : List (View.Piece (Elt F) S2048x1 .f32)), { LA : List (View.Piece (Elt F) S2048x512 .f32) //
      ∀ (xo : Vec F S1x512x2048 .f32) (E : Set ℕ) (K : PUnit → sProp 𝕄),
        iprop(owns (c : Thread nD τ) a3 fullShare q ∗ owns (c : Thread nD τ) a4 fullShare k ∗ owns (c : Thread nD τ) a5 fullShare v
            ∗ owns (c : Thread nD τ) a6 fullShare w ∗ owns (c : Thread nD τ) a7 fullShare xo
            ∗ owns (c : Thread nD τ) a8 fullShare sM ∗ owns (c : Thread nD τ) a9 fullShare sL ∗ owns (c : Thread nD τ) a10 fullShare sA
            ∗ (iprop(owns (c : Thread nD τ) a3 fullShare q ∗ owns (c : Thread nD τ) a4 fullShare k ∗ owns (c : Thread nD τ) a5 fullShare v
                ∗ owns (c : Thread nD τ) a6 fullShare w ∗ owns (c : Thread nD τ) a7 fullShare xo
                ∗ (∃ f, a8.view.loc (c : Thread nD τ) ↦[a8.view.set]{fullShare} a8.view.writes (Elt F) f LM)
                ∗ (∃ f, a9.view.loc (c : Thread nD τ) ↦[a9.view.set]{fullShare} a9.view.writes (Elt F) f LL)
                ∗ (∃ f, a10.view.loc (c : Thread nD τ) ↦[a10.view.set]{fullShare} a10.view.writes (Elt F) f LA)) -∗ K ⟨⟩))
          ⊢ wp frame (wpE (defs₀ (F := F)) Variants.none c none) E (cc1__attn_kernel i a3 h3 a4 h4 a5 h5 a6 h6 a7 h7 a8 h8 a9 h9 a10 h10) K } := by
  refine ⟨?_, ?_, ?_, fun xo E K => ?run⟩
  case run =>
    simp only [cc1__attn_kernel_eq_skeleton, k1_part1_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h3.eq_unread hf3; obtain rfl := h4.eq_unread hf4; obtain rfl := h5.eq_unread hf5; obtain rfl := h6.eq_unread hf6
    obtain rfl := h7.eq_unread hf7; obtain rfl := h8.eq_unread hf8; obtain rfl := h9.eq_unread hf9; obtain rfl := h10.eq_unread hf10
    sl_exec (disch := first | exact hf | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    iexists _; iexact H10

set_option maxHeartbeats 8000000 in
/-- The FIRST key block: the scratch may hold anything — the body resets it before reading it — and ends with the
    recorded pieces written (the reset and the update); the output buffer is handed back untouched. -/
noncomputable def runA (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32) :
    Σ' (LM : List (View.Piece (Elt F) S2048x1 .f32)) (LL : List (View.Piece (Elt F) S2048x1 .f32)), { LA : List (View.Piece (Elt F) S2048x512 .f32) //
      ∀ (xo : Vec F S1x512x2048 .f32) (E : Set ℕ) (K : PUnit → sProp 𝕄),
        iprop(owns (c : Thread nD τ) a3 fullShare q ∗ owns (c : Thread nD τ) a4 fullShare k ∗ owns (c : Thread nD τ) a5 fullShare v
            ∗ owns (c : Thread nD τ) a6 fullShare w ∗ owns (c : Thread nD τ) a7 fullShare xo
            ∗ (∃ d, owns (c : Thread nD τ) a8 fullShare d) ∗ (∃ d, owns (c : Thread nD τ) a9 fullShare d) ∗ (∃ d, owns (c : Thread nD τ) a10 fullShare d)
            ∗ (iprop(owns (c : Thread nD τ) a3 fullShare q ∗ owns (c : Thread nD τ) a4 fullShare k ∗ owns (c : Thread nD τ) a5 fullShare v
                ∗ owns (c : Thread nD τ) a6 fullShare w ∗ owns (c : Thread nD τ) a7 fullShare xo
                ∗ (∃ f, a8.view.loc (c : Thread nD τ) ↦[a8.view.set]{fullShare} a8.view.writes (Elt F) f LM)
                ∗ (∃ f, a9.view.loc (c : Thread nD τ) ↦[a9.view.set]{fullShare} a9.view.writes (Elt F) f LL)
                ∗ (∃ f, a10.view.loc (c : Thread nD τ) ↦[a10.view.set]{fullShare} a10.view.writes (Elt F) f LA)) -∗ K ⟨⟩))
          ⊢ wp frame (wpE (defs₀ (F := F)) Variants.none c none) E (cc1__attn_kernel i a3 h3 a4 h4 a5 h5 a6 h6 a7 h7 a8 h8 a9 h9 a10 h10) K } := by
  refine ⟨?_, ?_, ?_, fun xo E K => ?run⟩
  case run =>
    simp only [cc1__attn_kernel_eq_skeleton, k1_part1_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := h3.eq_unread hf3; obtain rfl := h4.eq_unread hf4; obtain rfl := h5.eq_unread hf5; obtain rfl := h6.eq_unread hf6
    obtain rfl := h7.eq_unread hf7
    sl_exec (disch := first | exact hf | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    iexists _; iexact H10

set_option maxHeartbeats 8000000 in
/-- The LAST key block: from the scratch at the previous point's state and the output buffer at anything, the body
    updates the scratch and then stores the output block; both end with their recorded pieces written. -/
noncomputable def runC (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32)
    (sM sL : Vec F S2048x1 .f32) (sA : Vec F S2048x512 .f32) :
    Σ' (LO : List (View.Piece (Elt F) S1x512x2048 .f32)) (LM : List (View.Piece (Elt F) S2048x1 .f32)) (LL : List (View.Piece (Elt F) S2048x1 .f32)), { LA : List (View.Piece (Elt F) S2048x512 .f32) //
      ∀ (E : Set ℕ) (K : PUnit → sProp 𝕄),
        iprop(owns (c : Thread nD τ) a3 fullShare q ∗ owns (c : Thread nD τ) a4 fullShare k ∗ owns (c : Thread nD τ) a5 fullShare v
            ∗ owns (c : Thread nD τ) a6 fullShare w ∗ (∃ d, owns (c : Thread nD τ) a7 fullShare d)
            ∗ owns (c : Thread nD τ) a8 fullShare sM ∗ owns (c : Thread nD τ) a9 fullShare sL ∗ owns (c : Thread nD τ) a10 fullShare sA
            ∗ (iprop(owns (c : Thread nD τ) a3 fullShare q ∗ owns (c : Thread nD τ) a4 fullShare k ∗ owns (c : Thread nD τ) a5 fullShare v
                ∗ owns (c : Thread nD τ) a6 fullShare w
                ∗ (∃ f, a7.view.loc (c : Thread nD τ) ↦[a7.view.set]{fullShare} a7.view.writes (Elt F) f LO)
                ∗ (∃ f, a8.view.loc (c : Thread nD τ) ↦[a8.view.set]{fullShare} a8.view.writes (Elt F) f LM)
                ∗ (∃ f, a9.view.loc (c : Thread nD τ) ↦[a9.view.set]{fullShare} a9.view.writes (Elt F) f LL)
                ∗ (∃ f, a10.view.loc (c : Thread nD τ) ↦[a10.view.set]{fullShare} a10.view.writes (Elt F) f LA)) -∗ K ⟨⟩))
          ⊢ wp frame (wpE (defs₀ (F := F)) Variants.none c none) E (cc1__attn_kernel i a3 h3 a4 h4 a5 h5 a6 h6 a7 h7 a8 h8 a9 h9 a10 h10) K } := by
  refine ⟨?_, ?_, ?_, ?_, fun E K => ?run⟩
  case run =>
    simp only [cc1__attn_kernel_eq_skeleton, k1_part1_eq_skeleton]; unfold cc1__attn_kernel_skel
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := h3.eq_unread hf3; obtain rfl := h4.eq_unread hf4; obtain rfl := h5.eq_unread hf5; obtain rfl := h6.eq_unread hf6
    obtain rfl := h8.eq_unread hf8; obtain rfl := h9.eq_unread hf9; obtain rfl := h10.eq_unread hf10
    sl_exec (disch := first | exact hf | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    isplitl [H9]; · iexists _; iexact H9
    iexists _; iexact H10

end Cert.KernelIdeal.Attn

end
-- ==== Proof.IdealAttnData.lean ====
/-
  The attention kernel, point by point: what the three scratch buffers and the output buffer hold after each grid
  point, by recursion on the point — the first key block starts afresh, every other one continues from the point
  before —; the invariant the launch carries from point to point (the scratch at exactly those contents); and the
  per-point obligation, by the three cases.
-/
import proofs.«137960_j66374424592665_2_alg».proof.Proof.IdealAttn

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The recorded pieces cover their buffers -/

/-- First key block: the shift's pieces (the reset, then the update) cover the buffer. -/
theorem coverA_M (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32)  (y : S2048x1.Idx) :
    ∃ pc ∈ (runA c i a3 h3 a4 h4 a5 h5 a6 h6 a7 h7 a8 h8 a9 h9 a10 h10 hf hl q k v w).1, y ∈ pc.1.set :=
  View.cover_of_tiledL (runA c i a3 h3 a4 h4 a5 h5 a6 h6 a7 h7 a8 h8 a9 h9 a10 h10 hf hl q k v w).1 S2048x1.size (by sl_kernel_rfl) y
/-- First key block: the denominator's pieces cover the buffer. -/
theorem coverA_L (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32)  (y : S2048x1.Idx) :
    ∃ pc ∈ (runA c i a3 h3 a4 h4 a5 h5 a6 h6 a7 h7 a8 h8 a9 h9 a10 h10 hf hl q k v w).2.1, y ∈ pc.1.set :=
  View.cover_of_tiledL (runA c i a3 h3 a4 h4 a5 h5 a6 h6 a7 h7 a8 h8 a9 h9 a10 h10 hf hl q k v w).2.1 S2048x1.size (by sl_kernel_rfl) y
/-- First key block: the numerator's pieces cover the buffer. -/
theorem coverA_A (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32)  (y : S2048x512.Idx) :
    ∃ pc ∈ (runA c i a3 h3 a4 h4 a5 h5 a6 h6 a7 h7 a8 h8 a9 h9 a10 h10 hf hl q k v w).2.2.1, y ∈ pc.1.set :=
  View.cover_of_tiledL (runA c i a3 h3 a4 h4 a5 h5 a6 h6 a7 h7 a8 h8 a9 h9 a10 h10 hf hl q k v w).2.2.1 S2048x512.size (by sl_kernel_rfl) y
/-- Middle key block: the shift's one piece is the whole buffer. -/
theorem coverB_M (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32) (sM sL : Vec F S2048x1 .f32) (sA : Vec F S2048x512 .f32) (y : S2048x1.Idx) :
    ∃ pc ∈ (runB c i a3 h3 a4 h4 a5 h5 a6 h6 a7 h7 a8 h8 a9 h9 a10 h10 hf hl q k v w sM sL sA).1, y ∈ pc.1.set :=
  View.cover_of_tiledL (runB c i a3 h3 a4 h4 a5 h5 a6 h6 a7 h7 a8 h8 a9 h9 a10 h10 hf hl q k v w sM sL sA).1 S2048x1.size (by sl_kernel_rfl) y
/-- Middle key block: the denominator's piece. -/
theorem coverB_L (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32) (sM sL : Vec F S2048x1 .f32) (sA : Vec F S2048x512 .f32) (y : S2048x1.Idx) :
    ∃ pc ∈ (runB c i a3 h3 a4 h4 a5 h5 a6 h6 a7 h7 a8 h8 a9 h9 a10 h10 hf hl q k v w sM sL sA).2.1, y ∈ pc.1.set :=
  View.cover_of_tiledL (runB c i a3 h3 a4 h4 a5 h5 a6 h6 a7 h7 a8 h8 a9 h9 a10 h10 hf hl q k v w sM sL sA).2.1 S2048x1.size (by sl_kernel_rfl) y
/-- Middle key block: the numerator's piece. -/
theorem coverB_A (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32) (sM sL : Vec F S2048x1 .f32) (sA : Vec F S2048x512 .f32) (y : S2048x512.Idx) :
    ∃ pc ∈ (runB c i a3 h3 a4 h4 a5 h5 a6 h6 a7 h7 a8 h8 a9 h9 a10 h10 hf hl q k v w sM sL sA).2.2.1, y ∈ pc.1.set :=
  View.cover_of_tiledL (runB c i a3 h3 a4 h4 a5 h5 a6 h6 a7 h7 a8 h8 a9 h9 a10 h10 hf hl q k v w sM sL sA).2.2.1 S2048x512.size (by sl_kernel_rfl) y
/-- Last key block: the output block is stored whole. -/
theorem coverC_O (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32) (y : S1x512x2048.Idx) :
    ∃ pc ∈ (runC c i a3 h3 a4 h4 a5 h5 a6 h6 a7 h7 a8 h8 a9 h9 a10 h10 hf hl q k v w sM sL sA).1, y ∈ pc.1.set :=
  View.cover_of_tiledL (runC c i a3 h3 a4 h4 a5 h5 a6 h6 a7 h7 a8 h8 a9 h9 a10 h10 hf hl q k v w sM sL sA).1 S1x512x2048.size (by sl_kernel_rfl) y
/-- Last key block: the shift's piece. -/
theorem coverC_M (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32) (y : S2048x1.Idx) :
    ∃ pc ∈ (runC c i a3 h3 a4 h4 a5 h5 a6 h6 a7 h7 a8 h8 a9 h9 a10 h10 hf hl q k v w sM sL sA).2.1, y ∈ pc.1.set :=
  View.cover_of_tiledL (runC c i a3 h3 a4 h4 a5 h5 a6 h6 a7 h7 a8 h8 a9 h9 a10 h10 hf hl q k v w sM sL sA).2.1 S2048x1.size (by sl_kernel_rfl) y
/-- Last key block: the denominator's piece. -/
theorem coverC_L (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32) (y : S2048x1.Idx) :
    ∃ pc ∈ (runC c i a3 h3 a4 h4 a5 h5 a6 h6 a7 h7 a8 h8 a9 h9 a10 h10 hf hl q k v w sM sL sA).2.2.1, y ∈ pc.1.set :=
  View.cover_of_tiledL (runC c i a3 h3 a4 h4 a5 h5 a6 h6 a7 h7 a8 h8 a9 h9 a10 h10 hf hl q k v w sM sL sA).2.2.1 S2048x1.size (by sl_kernel_rfl) y
/-- Last key block: the numerator's piece. -/
theorem coverC_A (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32) (y : S2048x512.Idx) :
    ∃ pc ∈ (runC c i a3 h3 a4 h4 a5 h5 a6 h6 a7 h7 a8 h8 a9 h9 a10 h10 hf hl q k v w sM sL sA).2.2.2.1, y ∈ pc.1.set :=
  View.cover_of_tiledL (runC c i a3 h3 a4 h4 a5 h5 a6 h6 a7 h7 a8 h8 a9 h9 a10 h10 hf hl q k v w sM sL sA).2.2.2.1 S2048x512.size (by sl_kernel_rfl) y

/-! ## The blocks, and the buffers a point is run on -/

-- the buffers' contents when the second kernel is entered
variable (V : (c : Dev nD) → (b : Ref sig .tc) → Buf (Elt F) ((c : Thread nD τ).loc b))

/-- The block of window `w`'s array that grid point `t` works on. -/
def block (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Held
variable {c : Dev nD} (dat : Dat τ (Elt F) Unit ℕ (UR sig nD τ) ℕ cfg1 c)
/-- The query window's buffer holds its block at every point (it is fetched when the query block changes, every eighth point). -/
theorem held_q (hA : dat.A 0 = V c (Pipeline.arrRef spec1 0)) (hafter : ∀ t, dat.after 0 t = block V c 0 t)
    (t : Fin cfg1.N) (d) : dat.before 0 t d = block V c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- The key window's buffer holds its block (fetched at every point). -/
theorem held_k (hA : dat.A 1 = V c (Pipeline.arrRef spec1 1)) (hafter : ∀ t, dat.after 1 t = block V c 1 t)
    (t : Fin cfg1.N) (d) : dat.before 1 t d = block V c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- The value window's buffer holds its block (fetched at every point). -/
theorem held_v (hA : dat.A 2 = V c (Pipeline.arrRef spec1 2)) (hafter : ∀ t, dat.after 2 t = block V c 2 t)
    (t : Fin cfg1.N) (d) : dat.before 2 t d = block V c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- The output weights' buffer holds the whole matrix (fetched once). -/
theorem held_w (hA : dat.A 3 = V c (Pipeline.arrRef spec1 3)) (hafter : ∀ t, dat.after 3 t = block V c 3 t)
    (t : Fin cfg1.N) (d) : dat.before 3 t d = block V c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
end Held

abbrev mq (t : Fin cfg1.N) : Memref sig .tc .vmem S1x256x2048 .bf16 := win1_0.stage (cfg1.slots t 0)
abbrev hq (t : Fin cfg1.N) : (mq t).IsWhole := hstage1_0 ((cfg1.slots t 0).cast nbuf1_0)
abbrev mk (t : Fin cfg1.N) : Memref sig .tc .vmem S1x256x512 .bf16 := win1_1.stage (cfg1.slots t 1)
abbrev hk (t : Fin cfg1.N) : (mk t).IsWhole := hstage1_1 ((cfg1.slots t 1).cast nbuf1_1)
abbrev mv (t : Fin cfg1.N) : Memref sig .tc .vmem S1x512x512 .bf16 := win1_2.stage (cfg1.slots t 2)
abbrev hv (t : Fin cfg1.N) : (mv t).IsWhole := hstage1_2 ((cfg1.slots t 2).cast nbuf1_2)
abbrev mw (t : Fin cfg1.N) : Memref sig .tc .vmem S512x512 .f32 := win1_3.stage (cfg1.slots t 3)
abbrev hw (t : Fin cfg1.N) : (mw t).IsWhole := hstage1_3 ((cfg1.slots t 3).cast nbuf1_3)
abbrev mo (t : Fin cfg1.N) : Memref sig .tc .vmem S1x512x2048 .f32 := win1_4.stage (cfg1.slots t 4)
abbrev ho (t : Fin cfg1.N) : (mo t).IsWhole := hstage1_4 ((cfg1.slots t 4).cast nbuf1_4)

/-- The views through which the scratch's and the output's contents are stated. -/
abbrev VM : View sig .tc .vmem S2048x1 .f32 := scM.view
abbrev VL : View sig .tc .vmem S2048x1 .f32 := scL.view
abbrev VA : View sig .tc .vmem S2048x512 .f32 := scA.view
abbrev VO : View sig .tc .vmem S1x512x2048 .f32 := (Memref.whole cc1_stg4_0 : Memref sig .tc .vmem S1x512x2048 .f32).view

/-! ## One point's effect -/

/-- After a FIRST key block: the recorded pieces read back. Nothing of the state before enters. -/
def afterA (c : Dev nD) (t : Fin cfg1.N) (h0 : t.val % 8 = 0) : (Vec F S2048x1 .f32 × Vec F S2048x1 .f32 × Vec F S2048x512 .f32) :=
  (VM.read (Elt F) (VM.writes (Elt F) VM.junk (runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).1),
   VL.read (Elt F) (VL.writes (Elt F) VL.junk (runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).2.1),
   VA.read (Elt F) (VA.writes (Elt F) VA.junk (runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).2.2.1))

/-- After a MIDDLE key block, from the state `p` the point before left. -/
def afterB (c : Dev nD) (t : Fin cfg1.N) (h0 : ¬t.val % 8 = 0) (h7 : ¬t.val % 8 = 7) (p : (Vec F S2048x1 .f32 × Vec F S2048x1 .f32 × Vec F S2048x512 .f32)) : (Vec F S2048x1 .f32 × Vec F S2048x1 .f32 × Vec F S2048x512 .f32) :=
  (VM.read (Elt F) (VM.writes (Elt F) VM.junk (runB c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) (fun h => h7 ((last_iff t).mp h)) (block V c 0 t) (block V c 1 t) (block V c 2 t) (block V c 3 t) p.1 p.2.1 p.2.2).1),
   VL.read (Elt F) (VL.writes (Elt F) VL.junk (runB c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) (fun h => h7 ((last_iff t).mp h)) (block V c 0 t) (block V c 1 t) (block V c 2 t) (block V c 3 t) p.1 p.2.1 p.2.2).2.1),
   VA.read (Elt F) (VA.writes (Elt F) VA.junk (runB c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) (fun h => h7 ((last_iff t).mp h)) (block V c 0 t) (block V c 1 t) (block V c 2 t) (block V c 3 t) p.1 p.2.1 p.2.2).2.2.1))

/-- After a LAST key block, from the state `p`. -/
def afterC (c : Dev nD) (t : Fin cfg1.N) (h0 : ¬t.val % 8 = 0) (h7 : t.val % 8 = 7) (p : (Vec F S2048x1 .f32 × Vec F S2048x1 .f32 × Vec F S2048x512 .f32)) : (Vec F S2048x1 .f32 × Vec F S2048x1 .f32 × Vec F S2048x512 .f32) :=
  (VM.read (Elt F) (VM.writes (Elt F) VM.junk (runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) p.1 p.2.1 p.2.2).2.1),
   VL.read (Elt F) (VL.writes (Elt F) VL.junk (runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) p.1 p.2.1 p.2.2).2.2.1),
   VA.read (Elt F) (VA.writes (Elt F) VA.junk (runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) p.1 p.2.1 p.2.2).2.2.2.1))

/-- The output block a LAST key block stores, from the state `p`. -/
def outC (c : Dev nD) (t : Fin cfg1.N) (h0 : ¬t.val % 8 = 0) (h7 : t.val % 8 = 7) (p : (Vec F S2048x1 .f32 × Vec F S2048x1 .f32 × Vec F S2048x512 .f32)) : Vec F S1x512x2048 .f32 :=
  VO.read (Elt F) (VO.writes (Elt F) VO.junk (runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) p.1 p.2.1 p.2.2).1)

/-! ## The state after each point -/

/-- What the scratch holds after point `n`: afresh at every first key block, else from the point before. -/
def stateAt (c : Dev nD) : (n : ℕ) → n < cfg1.N → (Vec F S2048x1 .f32 × Vec F S2048x1 .f32 × Vec F S2048x512 .f32)
  | 0, h => afterA V c ⟨0, h⟩ (Nat.zero_mod 8)
  | n + 1, h =>
    if h0 : (n + 1) % 8 = 0 then afterA V c ⟨n + 1, h⟩ h0
    else if h7 : (n + 1) % 8 = 7 then afterC V c ⟨n + 1, h⟩ h0 h7 (stateAt c n (Nat.lt_of_succ_lt h))
    else afterB V c ⟨n + 1, h⟩ h0 h7 (stateAt c n (Nat.lt_of_succ_lt h))

theorem stateAt_first (c : Dev nD) (t : Fin cfg1.N) (h0 : t.val % 8 = 0) : stateAt V c t.val t.isLt = afterA V c t h0 := by
  obtain ⟨n, hn⟩ := t
  cases n with
  | zero => rfl
  | succ n => simp only [stateAt, dif_pos h0]

theorem stateAt_mid (c : Dev nD) (t : Fin cfg1.N) (h0 : ¬t.val % 8 = 0) (h7 : ¬t.val % 8 = 7) :
    stateAt V c t.val t.isLt = afterB V c t h0 h7 (stateAt V c (t.val - 1) (Nat.lt_of_le_of_lt (Nat.sub_le _ _) t.isLt)) := by
  obtain ⟨n, hn⟩ := t
  cases n with
  | zero => exact absurd (Nat.zero_mod 8) h0
  | succ n => simp only [stateAt, dif_neg h0, dif_neg h7]; rfl

theorem stateAt_last (c : Dev nD) (t : Fin cfg1.N) (h0 : ¬t.val % 8 = 0) (h7 : t.val % 8 = 7) :
    stateAt V c t.val t.isLt = afterC V c t h0 h7 (stateAt V c (t.val - 1) (Nat.lt_of_le_of_lt (Nat.sub_le _ _) t.isLt)) := by
  obtain ⟨n, hn⟩ := t
  cases n with
  | zero => exact absurd (Nat.zero_mod 8) h0
  | succ n => simp only [stateAt, dif_neg h0, dif_pos h7]; rfl

/-- What the output buffer is left holding at point `t`: at a last key block, the stored block; elsewhere the body
    does not touch it and nothing reads this value. -/
def outAt (c : Dev nD) (t : Fin cfg1.N) : Vec F S1x512x2048 .f32 :=
  if h7 : t.val % 8 = 7 then
    outC V c t (by omega) h7 (stateAt V c (t.val - 1) (Nat.lt_of_le_of_lt (Nat.sub_le _ _) t.isLt))
  else VO.read (Elt F) VO.junk

end Cert.KernelIdeal.Attn

end
-- ==== Proof.IdealAttnBody.lean ====
/-
  The attention kernel's invariant, proof data and per-point obligation.

  Between points the launch holds, besides the windows' buffers: the first kernel's staging buffers at anything, the
  generator register, and the three scratch buffers — at anything before the first point, and after point n at exactly
  the state the recursion assigns to n. A first key block may therefore start from any scratch contents (it resets
  them); every other block starts from the state of the point before, which is what it reads.
-/
import proofs.«137960_j66374424592665_2_alg».proof.Proof.IdealAttnData

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- Before point `n` (after point `n − 1`). -/
def inv (c : Dev nD) : (n : ℕ) → n ≤ cfg1.N → sProp 𝕄
  | 0, _ => Pipeline.ΦA spec1 c
  | n + 1, h => iprop(stagingThen c iprop(owns (c : Thread nD τ) scM fullShare (stateAt V c n h).1
        ∗ owns (c : Thread nD τ) scL fullShare (stateAt V c n h).2.1 ∗ owns (c : Thread nD τ) scA fullShare (stateAt V c n h).2.2)
      ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(stagingThen c iprop(owns (c : Thread nD τ) scM fullShare (stateAt V c n hn).1
        ∗ owns (c : Thread nD τ) scL fullShare (stateAt V c n hn).2.1 ∗ owns (c : Thread nD τ) scA fullShare (stateAt V c n hn).2.2)
      ∗ (∃ r, prngReg c r)) := rfl
theorem inv_pos (c : Dev nD) (n : ℕ) (h : n ≤ cfg1.N) (hz : n ≠ 0) :
    inv V c n h = iprop(stagingThen c iprop(owns (c : Thread nD τ) scM fullShare (stateAt V c (n - 1) (by omega)).1
        ∗ owns (c : Thread nD τ) scL fullShare (stateAt V c (n - 1) (by omega)).2.1 ∗ owns (c : Thread nD τ) scA fullShare (stateAt V c (n - 1) (by omega)).2.2)
      ∗ (∃ r, prngReg c r)) := by
  obtain ⟨k, rfl⟩ := Nat.exists_eq_succ_of_ne_zero hz
  rfl

/-! ## The proof data -/

/-- Each array as the kernel finds it; after the body the four input buffers still at their blocks and the output
    buffer at `outAt`; the invariant above; nothing owed. -/
def dat (c : Dev nD) : Dat τ (Elt F) Unit ℕ (UR sig nD τ) ℕ cfg1 c where
  A w := V c (Pipeline.arrRef spec1 w)
  after w t := match w with
    | ⟨0, _⟩ => block V c 0 t
    | ⟨1, _⟩ => block V c 1 t
    | ⟨2, _⟩ => block V c 2 t
    | ⟨3, _⟩ => block V c 3 t
    | ⟨4, _⟩ => outAt V c t
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem after_q (c : Dev nD) (t : Fin cfg1.N) : (dat V c).after 0 t = block V c 0 t := by dsimp only [dat]
theorem after_k (c : Dev nD) (t : Fin cfg1.N) : (dat V c).after 1 t = block V c 1 t := by dsimp only [dat]
theorem after_v (c : Dev nD) (t : Fin cfg1.N) : (dat V c).after 2 t = block V c 2 t := by dsimp only [dat]
theorem after_w (c : Dev nD) (t : Fin cfg1.N) : (dat V c).after 3 t = block V c 3 t := by dsimp only [dat]
theorem after_o (c : Dev nD) (t : Fin cfg1.N) : (dat V c).after 4 t = outAt V c t := by dsimp only [dat]

theorem before_q (c : Dev nD) (t : Fin cfg1.N) (d) : (dat V c).before 0 t d = block V c 0 t :=
  held_q V (dat V c) (A_eq V c 0) (after_q V c) t d
theorem before_k (c : Dev nD) (t : Fin cfg1.N) (d) : (dat V c).before 1 t d = block V c 1 t :=
  held_k V (dat V c) (A_eq V c 1) (after_k V c) t d
theorem before_v (c : Dev nD) (t : Fin cfg1.N) (d) : (dat V c).before 2 t d = block V c 2 t :=
  held_v V (dat V c) (A_eq V c 2) (after_v V c) t d
theorem before_w (c : Dev nD) (t : Fin cfg1.N) (d) : (dat V c).before 3 t d = block V c 3 t :=
  held_w V (dat V c) (A_eq V c 3) (after_w V c) t d

theorem inv_castSucc (c : Dev nD) (t : Fin cfg1.N) :
    (dat V c).Φ t.castSucc = inv V c t.val (Nat.le_of_lt t.isLt) := rfl

/-! ## The body at a grid point -/

/-- What the launch hands the body at point `t`, -/
def bodyPre (c : Dev nD) (t : Fin cfg1.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mk t) fullShare ((dat V c).before 1 t d))
    ∗ (∃ d, owns (c : Thread nD τ) (mv t) fullShare ((dat V c).before 2 t d))
    ∗ (∃ d, owns (c : Thread nD τ) (mw t) fullShare ((dat V c).before 3 t d))
    ∗ (∃ d, owns (c : Thread nD τ) (mo t) fullShare ((dat V c).before 4 t d)))

/-- and what it takes back: each window's buffer at its stated contents, or — the output off the last key block —
    as it was found. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 8000000 in
/-- At any point: the input buffers hold their blocks; t mod 8 says which case the point is in; the invariant hands
    the body the scratch at the previous point's state (at anything, for a first key block) and takes it back at this
    point's. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v, before_w]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (mq t) fullShare ((dat V c).after 0 t) from by
    unfold Dat.leavesExact; rw [live_q t], after_q]
  rw [show (dat V c).leavesExact 1 t = owns (c : Thread nD τ) (mk t) fullShare ((dat V c).after 1 t) from by
    unfold Dat.leavesExact; rw [live_k t], after_k]
  rw [show (dat V c).leavesExact 2 t = owns (c : Thread nD τ) (mv t) fullShare ((dat V c).after 2 t) from by
    unfold Dat.leavesExact; rw [live_v t], after_v]
  rw [show (dat V c).leavesExact 3 t = owns (c : Thread nD τ) (mw t) fullShare ((dat V c).after 3 t) from by
    unfold Dat.leavesExact; rw [live_w t], after_w]
  by_cases h0 : t.val % 8 = 0
  · have h7 : ¬t.val % 8 = 7 := by omega
    rw [Dat.leavesExact_idle (dat V c) 4 t (idle_out t (fun h => h7 ((last_iff t).mp h))) (noflush_out t (fun h => h7 ((last_iff t).mp h)))]
    rw [stateAt_first V c t h0]
    unfold afterA; (try dsimp only)
    by_cases hz : t.val = 0
    · rw [inv_castSucc V c t, inv_zero V c _ _ hz, rest_eq]; unfold stagingThen
      iintro ⟨⟨⟨S0, S1, S2, S3, S4, S5, S6, S7, S8, S9, HM, HL, HA⟩, Hg⟩, Ho, ⟨%d0, H0⟩, ⟨%d1, H1⟩, ⟨%d2, H2⟩, ⟨%d3, H3⟩, ⟨%d4, H4⟩⟩
      iapply ((runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).2.2.2 _ Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, ⟨%eM, HM⟩, ⟨%eL, HL⟩, ⟨%eA, HA⟩⟩
      isplitl [S0 S1 S2 S3 S4 S5 S6 S7 S8 S9 HM HL HA Hg]
      · isplitl [S0 S1 S2 S3 S4 S5 S6 S7 S8 S9 HM HL HA]
        · (try unfold stagingThen)
          isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [HM]
          · unfold owns; iexists _; isplitr
            swap; · iexact HM
            ipureintro; exact View.read_writes_of_cover _ _ _ _ _ (coverA_M c _ _ _ _ _ _ _ _ _ _ _ _ _ _ _ _ _ _ _ _ _ _ _)
          isplitl [HL]
          · unfold owns; iexists _; isplitr
            swap; · iexact HL
            ipureintro; exact View.read_writes_of_cover _ _ _ _ _ (coverA_L c _ _ _ _ _ _ _ _ _ _ _ _ _ _ _ _ _ _ _ _ _ _ _)
          unfold owns; iexists _; isplitr
          swap; · iexact HA
          ipureintro; exact View.read_writes_of_cover _ _ _ _ _ (coverA_A c _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      iexists _; iexact H4
    · rw [inv_castSucc V c t, inv_pos V c _ _ hz]; unfold stagingThen
      iintro ⟨⟨⟨S0, S1, S2, S3, S4, S5, S6, S7, S8, S9, HM, HL, HA⟩, Hg⟩, Ho, ⟨%d0, H0⟩, ⟨%d1, H1⟩, ⟨%d2, H2⟩, ⟨%d3, H3⟩, ⟨%d4, H4⟩⟩
      iapply ((runA c (grid1.coords t) (mq t) (hq t) (mk t) (hk t) (mv t) (hv t) (mw t) (hw t) (mo t) (ho t) scM (Memref.isWhole_whole _) scL (Memref.isWhole_whole _) scA (Memref.isWhole_whole _) ((first_iff t).mpr h0) (fun h => by have := (last_iff t).mp h; omega) (block V c 0 t) (block V c 1 t) (block V c 2 t) (block V c 3 t)).2.2.2 _ Set.univ _)
      isplitl [H0]; · iexact H0
      isplitl [H1]; · iexact H1
      isplitl [H2]; · iexact H2
      isplitl [H3]; · iexact H3
      isplitl [H4]; · iexact H4
      isplitl [HM]; · iexists _; iexact HM
      isplitl [HL]; · iexists _; iexact HL
      isplitl [HA]; · iexists _; iexact HA
      iintro ⟨H0, H1, H2, H3, H4, ⟨%eM, HM⟩, ⟨%eL, HL⟩, ⟨%eA, HA⟩⟩
      isplitl [S0 S1 S2 S3 S4 S5 S6 S7 S8 S9 HM HL HA Hg]
      · isplitl [S0 S1 S2 S3 S4 S5 S6 S7 S8 S9 HM HL HA]
        · (try unfold stagingThen)
          isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [HM]
          · unfold owns; iexists _; isplitr
            swap; · iexact HM
            ipureintro; exact View.read_writes_of_cover _ _ _ _ _ (coverA_M c _ _ _ _ _ _ _ _ _ _ _ _ _ _ _ _ _ _ _ _ _ _ _)
          isplitl [HL]
          · unfold owns; iexists _; isplitr
            swap; · iexact HL
            ipureintro; exact View.read_writes_of_cover _ _ _ _ _ (coverA_L c _ _ _ _ _ _ _ _ _ _ _ _ _ _ _ _ _ _ _ _ _ _ _)
          unfold owns; iexists _; isplitr
          swap; · iexact HA
          ipureintro; exact View.read_writes_of_cover _ _ _ _ _ (coverA_A c _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h7 : t.val % 8 = 7
    · rw [show (dat V c).leavesExact 4 t = owns (c : Thread nD τ) (mo t) fullShare ((dat V c).after 4 t) from by
        unfold Dat.leavesExact; rw [live_out t ((last_iff t).mpr h7)], after_o]
      rw [stateAt_last V c t h0 h7]
      unfold outAt; rw [dif_pos h7]
      unfold afterC outC; (try dsimp only)
      rw [inv_castSucc V c t, inv_pos V c _ _ hz]; unfold stagingThen
      iintro ⟨⟨⟨S0, S1, S2, S3, S4, S5, S6, S7, S8, S9, HM, HL, HA⟩, Hg⟩, Ho, ⟨%d0, H0⟩, ⟨%d1, H1⟩, ⟨%d2, H2⟩, ⟨%d3, H3⟩, ⟨%d4, H4⟩⟩
      iapply ((runC c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) ((last_iff t).mpr h7) (block V c 0 t) (block V c 1 t) (block V c 2 t) (block V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HM]; · iexact HM
      isplitl [HL]; · iexact HL
      isplitl [HA]; · iexact HA
      iintro ⟨H0, H1, H2, H3, ⟨%eO, H4⟩, ⟨%eM, HM⟩, ⟨%eL, HL⟩, ⟨%eA, HA⟩⟩
      isplitl [S0 S1 S2 S3 S4 S5 S6 S7 S8 S9 HM HL HA Hg]
      · isplitl [S0 S1 S2 S3 S4 S5 S6 S7 S8 S9 HM HL HA]
        · (try unfold stagingThen)
          isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [HM]
          · unfold owns; iexists _; isplitr
            swap; · iexact HM
            ipureintro; exact View.read_writes_of_cover _ _ _ _ _ (coverC_M c _ _ _ _ _ _ _ _ _ _ _ _ _ _ _ _ _ _ _ _ _ _ _ _ _ _)
          isplitl [HL]
          · unfold owns; iexists _; isplitr
            swap; · iexact HL
            ipureintro; exact View.read_writes_of_cover _ _ _ _ _ (coverC_L c _ _ _ _ _ _ _ _ _ _ _ _ _ _ _ _ _ _ _ _ _ _ _ _ _ _)
          unfold owns; iexists _; isplitr
          swap; · iexact HA
          ipureintro; exact View.read_writes_of_cover _ _ _ _ _ (coverC_A c _ _ _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_O c _ _ _ _ _ _ _ _ _ _ _ _ _ _ _ _ _ _ _ _ _ _ _ _ _ _)
    · rw [Dat.leavesExact_idle (dat V c) 4 t (idle_out t (fun h => h7 ((last_iff t).mp h))) (noflush_out t (fun h => h7 ((last_iff t).mp h)))]
      rw [stateAt_mid V c t h0 h7]
      unfold afterB; (try dsimp only)
      rw [inv_castSucc V c t, inv_pos V c _ _ hz]; unfold stagingThen
      iintro ⟨⟨⟨S0, S1, S2, S3, S4, S5, S6, S7, S8, S9, HM, HL, HA⟩, Hg⟩, Ho, ⟨%d0, H0⟩, ⟨%d1, H1⟩, ⟨%d2, H2⟩, ⟨%d3, H3⟩, ⟨%d4, H4⟩⟩
      iapply ((runB c (grid1.coords t) (mq t) (hq t) (mk t) (hk t) (mv t) (hv t) (mw t) (hw t) (mo t) (ho t) scM (Memref.isWhole_whole _) scL (Memref.isWhole_whole _) scA (Memref.isWhole_whole _) (fun h => h0 ((first_iff t).mp h)) (fun h => h7 ((last_iff t).mp h)) (block V c 0 t) (block V c 1 t) (block V c 2 t) (block V c 3 t) _ _ _).2.2.2 _ Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, ⟨%eM, HM⟩, ⟨%eL, HL⟩, ⟨%eA, HA⟩⟩
      isplitl [S0 S1 S2 S3 S4 S5 S6 S7 S8 S9 HM HL HA Hg]
      · isplitl [S0 S1 S2 S3 S4 S5 S6 S7 S8 S9 HM HL HA]
        · (try unfold stagingThen)
          isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [HM]
          · unfold owns; iexists _; isplitr
            swap; · iexact HM
            ipureintro; exact View.read_writes_of_cover _ _ _ _ _ (coverB_M c _ _ _ _ _ _ _ _ _ _ _ _ _ _ _ _ _ _ _ _ _ _ _ _ _ _)
          isplitl [HL]
          · unfold owns; iexists _; isplitr
            swap; · iexact HL
            ipureintro; exact View.read_writes_of_cover _ _ _ _ _ (coverB_L c _ _ _ _ _ _ _ _ _ _ _ _ _ _ _ _ _ _ _ _ _ _ _ _ _ _)
          unfold owns; iexists _; isplitr
          swap; · iexact HA
          ipureintro; exact View.read_writes_of_cover _ _ _ _ _ (coverB_A c _ _ _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      iexists _; iexact H4

/-- The launch's obligation about the body, at every point. -/
theorem body_obligation (c : Dev nD) : BodyObligation (dat (F := F) V c) (defs₀ (F := F)) Variants.none () Set.univ := fun t => by
  rw [bigSep_W1, bigSep_W1]
  exact sound_body V c t

end Cert.KernelIdeal.Attn

end
-- ==== Proof.IdealWhole.lean ====
/-
  The whole program: a host reshape of the feature map, the projection kernel, the attention kernel, a host reshape of
  the result. Between two items every unscoped buffer is held at known contents: the launch memory; then the reshape's
  result; then the three arrays the first kernel writes back (whatever its sixteen points leave); then the one array the
  second writes back. Neither a host reshape nor a kernel writes an argument array, so each argument ends as launched —
  the frame — and every run terminates without a fault because each item does.
-/
import proofs.«137960_j66374424592665_2_alg».proof.Proof.IdealProj
import proofs.«137960_j66374424592665_2_alg».proof.Proof.IdealAttnBody
import proofs.«137960_j66374424592665_2_alg».proof.Proof.Gen.KernelIdeal.Regions

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ
variable (V : (c : Dev nD) → (b : Ref sig .tc) → Buf (Elt F) ((c : Thread nD τ).loc b))

/-- After at least one point the invariant gives back what the launch handed over: the scratch at something. -/
theorem inv_out (c : Dev nD) (n : ℕ) (h : n ≤ cfg1.N) (hz : n ≠ 0) : inv V c n h ⊢ (Pipeline.ΦA spec1 c : sProp 𝕄) := by
  rw [inv_pos V c n h hz, rest_eq]; unfold stagingThen
  iintro ⟨⟨S0, S1, S2, S3, S4, S5, S6, S7, S8, S9, HM, HL, HA⟩, Hg⟩
  isplitl [S0 S1 S2 S3 S4 S5 S6 S7 S8 S9 HM HL HA]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [HM]; · iexists _; iexact HM
    isplitl [HL]; · iexists _; iexact HL
    iexists _; iexact HA
  iexact Hg

/-- The same at a point of the launch's own indexing, kept abstract: only "not the first" is used. -/
theorem Phi_out (c : Dev nD) (t : Fin (cfg1.N + 1)) (ht : t.val ≠ 0) : (dat V c).Φ t ⊢ (Pipeline.ΦA spec1 c : sProp 𝕄) := by
  rw [show (dat V c).Φ t = inv V c t.val (Nat.le_of_lt_succ t.isLt) from rfl]
  exact inv_out V c _ _ ht

end Cert.KernelIdeal.Attn

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- When the projection kernel is entered (after the host reshape). -/
abbrev E1 (c : Dev nD) (b : Ref sig .tc) : Buf (Elt F) ((c : Thread nD τ).loc b) := Gen.V1 m c b

/-- What the projection kernel leaves in the three arrays it writes back. -/
def outs0 : Gen.Outs (F := F) := fun _ r c =>
  if h0 : r = main_v1_0 then h0 ▸ (show Buf (Elt F) ((c : Thread nD τ).loc main_v1_0) from (Proj.dat (E1 m) c).arrAt 3 cfg0.N)
  else if h1 : r = main_v1_1 then h1 ▸ (show Buf (Elt F) ((c : Thread nD τ).loc main_v1_1) from (Proj.dat (E1 m) c).arrAt 4 cfg0.N)
  else if h2 : r = main_v1_2 then h2 ▸ (show Buf (Elt F) ((c : Thread nD τ).loc main_v1_2) from (Proj.dat (E1 m) c).arrAt 5 cfg0.N)
  else m ((c : Thread nD τ).loc r)

/-- When the attention kernel is entered. -/
abbrev E2 (c : Dev nD) (b : Ref sig .tc) : Buf (Elt F) ((c : Thread nD τ).loc b) := Gen.V2 m (outs0 m) c b

/-- What both kernels leave: the above, and the attention kernel's one array. -/
def outs : Gen.Outs (F := F) := fun J r c =>
  if h : r = main_v2 then h ▸ (show Buf (Elt F) ((c : Thread nD τ).loc main_v2) from (Attn.dat (E2 m) c).arrAt 4 cfg1.N)
  else outs0 m J r c

theorem outs_v1_0 (J : ℕ) (c : Dev nD) : outs m J main_v1_0 c = (Proj.dat (E1 m) c).arrAt 3 cfg0.N := by
  simp only [outs, outs0, dif_neg (show ¬(main_v1_0 : Ref sig .tc) = main_v2 by decide), dif_pos rfl]; rfl
theorem outs_v1_1 (J : ℕ) (c : Dev nD) : outs m J main_v1_1 c = (Proj.dat (E1 m) c).arrAt 4 cfg0.N := by
  simp only [outs, outs0, dif_neg (show ¬(main_v1_1 : Ref sig .tc) = main_v2 by decide), dif_neg (show ¬(main_v1_1 : Ref sig .tc) = main_v1_0 by decide), dif_pos rfl]; rfl
theorem outs_v1_2 (J : ℕ) (c : Dev nD) : outs m J main_v1_2 c = (Proj.dat (E1 m) c).arrAt 5 cfg0.N := by
  simp only [outs, outs0, dif_neg (show ¬(main_v1_2 : Ref sig .tc) = main_v2 by decide), dif_neg (show ¬(main_v1_2 : Ref sig .tc) = main_v1_0 by decide), dif_neg (show ¬(main_v1_2 : Ref sig .tc) = main_v1_1 by decide), dif_pos rfl]; rfl
theorem outs_v2 (J : ℕ) (c : Dev nD) : outs m J main_v2 c = (Attn.dat (E2 m) c).arrAt 4 cfg1.N := by
  simp only [outs, dif_pos rfl]; rfl

/-- The second kernel's entry contents do not depend on what it will itself leave. -/
theorem V2_outs (c : Dev nD) : Gen.V2 m (outs m) c = Gen.V2 m (outs0 m) c := by
  have e0 : outs m 2 main_v1_0 c = outs0 m 2 main_v1_0 c := by simp only [outs, dif_neg (show ¬(main_v1_0 : Ref sig .tc) = main_v2 by decide)]
  have e1 : outs m 2 main_v1_1 c = outs0 m 2 main_v1_1 c := by simp only [outs, dif_neg (show ¬(main_v1_1 : Ref sig .tc) = main_v2 by decide)]
  have e2 : outs m 2 main_v1_2 c = outs0 m 2 main_v1_2 c := by simp only [outs, dif_neg (show ¬(main_v1_2 : Ref sig .tc) = main_v2 by decide)]
  simp only [Gen.V2, e0, e1, e2]

/-! ## The proof data family and what rides along -/

abbrev adm : (p : Fin 2) → (pcfgs (F := F) p).Adm := Gen.adm
def pdats : (p : Fin 2) → (c : Dev nD) → Dat τ (Elt F) Unit ℕ (UR sig nD τ) ℕ (Pipeline.pin (pcfgs (F := F)) adm p) c
  | ⟨0, _⟩ => fun c => Proj.dat (E1 m) c
  | ⟨1, _⟩ => fun c => Attn.dat (E2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

end Cert.KernelIdeal.Whole

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The written-back arrays at the boundaries -/

theorem V2_at_0 (c : Dev nD) : Gen.V2 m (outs m) c main_v1_0 = (Proj.dat (E1 m) c).arrAt 3 cfg0.N := by
  rw [← outs_v1_0 m 2 c]
  simp only [Gen.V2, (Function.update_of_ne (StableHlo.devRef_ne_of_ne (by decide) : (Proc.devRef .tc main_v1_0 : DevRef τ sig) ≠ Proc.devRef .tc main_v1_2)), (Function.update_of_ne (StableHlo.devRef_ne_of_ne (by decide) : (Proc.devRef .tc main_v1_0 : DevRef τ sig) ≠ Proc.devRef .tc main_v1_1)), Function.update_self]
theorem V2_at_1 (c : Dev nD) : Gen.V2 m (outs m) c main_v1_1 = (Proj.dat (E1 m) c).arrAt 4 cfg0.N := by
  rw [← outs_v1_1 m 2 c]
  simp only [Gen.V2, (Function.update_of_ne (StableHlo.devRef_ne_of_ne (by decide) : (Proc.devRef .tc main_v1_1 : DevRef τ sig) ≠ Proc.devRef .tc main_v1_2)), Function.update_self]
theorem V2_at_2 (c : Dev nD) : Gen.V2 m (outs m) c main_v1_2 = (Proj.dat (E1 m) c).arrAt 5 cfg0.N := by
  rw [← outs_v1_2 m 2 c]
  simp only [Gen.V2, Function.update_self]
theorem V3_at (c : Dev nD) : Gen.V3 m (outs m) c main_v2 = (Attn.dat (E2 m) c).arrAt 4 cfg1.N := by
  rw [← outs_v2 m 3 c]
  simp only [Gen.V3, Function.update_self]

/-- After the projection kernel each of its six arrays holds what its launch leaves: the three inputs as found, the
    three outputs the written-back blocks. -/
theorem left0 (c : Dev nD) (w : Fin cfg0.W) :
    (pdats m 0 c).arrAt w cfg0.N = (fun b : Ref sig .tc => Gen.V2 m (outs m) c b) (Pipeline.arrRef spec0 w) := by
  fin_cases w
  · exact (((pdats m 0 c).arrAt_in 0 rfl _).trans (Proj.A_eq (E1 m) c 0)).trans (Gen.V2_of m (outs m) c _ (by decide)).symm
  · exact (((pdats m 0 c).arrAt_in 1 rfl _).trans (Proj.A_eq (E1 m) c 1)).trans (Gen.V2_of m (outs m) c _ (by decide)).symm
  · exact (((pdats m 0 c).arrAt_in 2 rfl _).trans (Proj.A_eq (E1 m) c 2)).trans (Gen.V2_of m (outs m) c _ (by decide)).symm
  · exact (V2_at_0 m c).symm
  · exact (V2_at_1 m c).symm
  · exact (V2_at_2 m c).symm

/-- Every other buffer is as the kernel found it. -/
theorem kept0 (c : Dev nD) : ∀ b : Ref sig .tc, b ∉ Finset.univ.image (Pipeline.arrRef spec0) →
    (fun b : Ref sig .tc => Gen.V2 m (outs m) c b) b = (fun b : Ref sig .tc => Gen.V1 m c b) b := fun b hb =>
  Gen.V2_of m (outs m) c b fun hmem => by
    simp only [List.mem_cons, List.mem_nil_iff, or_false] at hmem
    rcases hmem with rfl | rfl | rfl
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩)

/-- After the attention kernel: its four inputs as found, its output the written-back blocks. -/
theorem left1 (c : Dev nD) (w : Fin cfg1.W) :
    (pdats m 1 c).arrAt w cfg1.N = (fun b : Ref sig .tc => Gen.V3 m (outs m) c b) (Pipeline.arrRef spec1 w) := by
  have hin : ∀ (w : Fin cfg1.W) (hw : (cfg1.win w).isOut = false) (hne : Pipeline.arrRef spec1 w ∉ ([main_v2] : List (Ref sig .tc))),
      (pdats m 1 c).arrAt w cfg1.N = Gen.V3 m (outs m) c (Pipeline.arrRef spec1 w) := fun w hw hne =>
    (((pdats m 1 c).arrAt_in w hw _).trans (Attn.A_eq (E2 m) c w)).trans
      ((congrFun (V2_outs m c) _).symm.trans (Gen.V3_of m (outs m) c _ hne).symm)
  fin_cases w
  · exact hin 0 rfl (by decide)
  · exact hin 1 rfl (by decide)
  · exact hin 2 rfl (by decide)
  · exact hin 3 rfl (by decide)
  · exact (V3_at m c).symm

theorem kept1 (c : Dev nD) : ∀ b : Ref sig .tc, b ∉ Finset.univ.image (Pipeline.arrRef spec1) →
    (fun b : Ref sig .tc => Gen.V3 m (outs m) c b) b = (fun b : Ref sig .tc => Gen.V2 m (outs0 m) c b) b := fun b hb =>
  (Gen.V3_of m (outs m) c b fun hmem => by
    simp only [List.mem_cons, List.mem_nil_iff, or_false] at hmem
    subst hmem
    exact hb (Finset.mem_image.mpr ⟨4, Finset.mem_univ _, rfl⟩)).trans (congrFun (V2_outs m c) _)

/-! ## The two kernels as items of the program -/

set_option backward.isDefEq.respectTransparency.types false in
/-- The projection kernel: entered from every unscoped buffer at the reshape's contents, left with its three output
    arrays at what its sixteen points wrote back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => (Gen.V1 m c) b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => (Gen.V1 m c) b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => (Gen.V1 m c) b) (fun b => (Gen.V2 m (outs m) c) b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from those contents, left with its output array at what its 128 points wrote back
    (at every eighth). Its invariant starts as what the launch hands over and ends giving it back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (E2 m) c).loose
  hwaits := Pipeline.hwaits_of_owed_zero _ _ _ _ L lv 1 fun _ _ => rfl
  pre c := iprop(StableHlo.held (c : Thread nD τ) (Pipeline.ucRefs τ sig) (Gen.V2 m (outs0 m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => (Gen.V2 m (outs0 m) c) b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => (Gen.V2 m (outs0 m) c) b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Attn.Phi_out (E2 m) c (Fin.last _) (by show cfg1.N ≠ 0; rw [show cfg1.N = 128 from N_1]; decide)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => (Gen.V2 m (outs0 m) c) b) (fun b => (Gen.V3 m (outs m) c) b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of the program terminates, faults nowhere, and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V2_outs m c]; exact .rfl) (fun c => .rfl)

end Cert.KernelIdeal.Whole

end
-- ==== Proof.Spec.lean ====
/-
  The function both programs compute, over the reals. Per batch entry b, with x the feature map (512 channels × 4096
  positions) and the three weight matrices:
    P_w[b,i,n] = ∑_c w[i,c]·x[b,c,n]                                  a projection (w = w_φ or w_θ),
    N_w[b,n]   = √(∑_i P_w[b,i,n]²)                                   its column norm,
    S[b,n,m]   = (∑_i P_φ[b,i,n]·P_θ[b,i,m]) / (N_φ[b,n]·N_θ[b,m])     the cosine of query n and key m,
    O[b,n,c]   = (∑_m exp(S[b,n,m])·x[b,c,m]) / (∑_m exp(S[b,n,m]))    the softmax average of the values,
    G[b,d,n]   = max(∑_c w_o[c,d]·O[b,n,c], 0)                         the projected, clipped result.
  Position n of the flattened 64 × 64 map is 64·h + w.
-/
import Idealize.ShloMosaic.PureOps.Ideal

noncomputable section

namespace Cert.Spec

open scoped BigOperators

variable (x : Fin 8 → Fin 512 → Fin 4096 → ℝ) (wφ wθ : Fin 256 → Fin 512 → ℝ) (wo : Fin 512 → Fin 512 → ℝ)

/-- A projection of column n of batch entry b. -/
def P (w : Fin 256 → Fin 512 → ℝ) (b : Fin 8) (i : Fin 256) (n : Fin 4096) : ℝ := ∑ c : Fin 512, w i c * x b c n

/-- Its Euclidean norm over the 256 features. -/
def N (w : Fin 256 → Fin 512 → ℝ) (b : Fin 8) (n : Fin 4096) : ℝ := Real.sqrt (∑ i : Fin 256, P x w b i n * P x w b i n)

/-- The cosine of query n against key m. -/
def S (b : Fin 8) (n m : Fin 4096) : ℝ := (∑ i : Fin 256, P x wφ b i n * P x wθ b i m) / (N x wφ b n * N x wθ b m)

/-- The softmax average of channel c of the values, for query n. -/
def O (b : Fin 8) (n : Fin 4096) (c : Fin 512) : ℝ :=
  (∑ m : Fin 4096, Real.exp (S x wφ wθ b n m) * x b c m) / (∑ m : Fin 4096, Real.exp (S x wφ wθ b n m))

/-- The result at output channel d, position n. -/
def G (b : Fin 8) (d : Fin 512) (n : Fin 4096) : ℝ := max (∑ c : Fin 512, wo c d * O x wφ wθ b n c) 0

/-- Position (h, w) of the 64 × 64 map, flattened. -/
def pos (h w : Fin 64) : Fin 4096 := ⟨64 * h.val + w.val, by have := h.isLt; have := w.isLt; omega⟩

end Cert.Spec

end
-- ==== Proof.Domain.lean ====
/-
  The precondition, decoded. The predicate is a conjunction of six statements about the four inputs: every entry of the
  feature map and of the three weight matrices is below +∞ in absolute value, and, for either projection matrix w, the
  square root of ∑_i (∑_c x[b,c,n]·w[i,c])² is above 0 at every batch entry b and position n. On the extended reals the
  first four say that every entry is a real number; once the entries are real, the projection ∑_c x[b,c,n]·w[i,c] is the
  real number P_w[b,i,n], the sum of its squares is a nonnegative real whose square root is N_w[b,n], and the last two say
  0 < N_w[b,n]. Position n of the flattened 64 × 64 map is 64·h + w, so the entry of the map at (b, c, h, w) is the real
  array's entry at (b, c, 64·h + w), and conversely position n sits at row n / 64, column n % 64.
-/
import proofs.«137960_j66374424592665_2_alg».proof.Pre_finite_inputs
import proofs.«137960_j66374424592665_2_alg».proof.Proof.Spec
import proofs.«137960_j66374424592665_2_alg».proof.Proof.LibOnlineSoftmax
import Idealize.ShloMosaic.Lib.ReduceAll
import Idealize.ShloMosaic.Lib.ValueIdx
import Idealize.ShloMosaic.Lib.Pipeline.Value
import Idealize.ShloMosaic.PureOps.Ideal.Laws

noncomputable section

namespace Cert.Domain

open Cert.Pre_finite_inputs Idealize.ShloMosaic Idealize.ShloMosaic.ValueIdx
open Cert.Lib.OnlineSoftmax
open scoped BigOperators

variable [Facts]
open Facts

/-! ## Words and comparisons -/

instance : Subsingleton S_.Idx := ⟨fun a b => funext fun d => d.elim0⟩

theorem posinf_f32 : Ideal.ofBits .f32 0x7F800000#32 = (⊤ : EReal) := by
  simp [Ideal.ofBits, Ideal.ieee]

/-- An extended real whose absolute value is below +∞ is a real. -/
theorem real_of_abs_lt (v : EReal)
    (h : Ideal.cmp .olt (max v (-v)) (Ideal.ofBits .f32 0x7F800000#32) = 1#1) : ∃ r : ℝ, v = (r : EReal) := by
  rw [posinf_f32] at h
  induction v using EReal.rec with
  | bot => exact absurd h (by simp [Ideal.cmp])
  | coe r => exact ⟨r, rfl⟩
  | top => exact absurd h (by simp [Ideal.cmp])

/-- A strict comparison that answers 1 is the strict inequality. -/
theorem lt_of_ogt (u v : EReal) (h : Ideal.cmp .ogt u v = 1#1) : v < u := by
  by_contra hn
  simp [Ideal.cmp, hn] at h

/-! ## The predicate's norm, named -/

/-- The projection, as the predicate computes it: the feature map flattened to 4096 positions, positions before channels,
    contracted with a weight matrix over the channels. -/
def proj (X : FVec Ideal S8x512x64x64 .f32) (W : FVec Ideal S256x512 .f32) : FVec Ideal S8x4096x256 .f32 :=
  Host.dotGeneral dot_S8x4096x512_S256x512_S8x4096x256_2_1_01_0_n_n none
    (transpose S8x4096x512 [0, 2, 1] (shapeCast S8x512x4096 X shapeCasts_S8x512x64x64_S8x512x4096)
      transposes_S8x512x4096_S8x4096x512_0_2_1) W

/-- The sum of its squares over the 256 features. -/
def sqsum (X : FVec Ideal S8x512x64x64 .f32) (W : FVec Ideal S256x512 .f32) : FVec Ideal S8x4096 .f32 :=
  Host.reduceAdd (mulf (proj X W) (proj X W)) (constant (F := Ideal) S_ .f32 0x00000000#32)
    reducesTo_S8x4096x256_S8x4096_d2 h_S_

/-- Its square root, with a trailing unit axis. -/
def normv (X : FVec Ideal S8x512x64x64 .f32) (W : FVec Ideal S256x512 .f32) : FVec Ideal S8x4096x1 .f32 :=
  Host.sqrt (broadcastInDim S8x4096x1 ![0, 1] bcast_S8x4096_S8x4096x1_0_1 (sqsum X W))

/-! ## The predicate, conjunct by conjunct -/

theorem split (X : FVec Ideal S8x512x64x64 .f32) (Wφ Wθ : FVec Ideal S256x512 .f32) (Wo : FVec Ideal S512x512 .f32)
    (h : Cert.Pre_finite_inputs.fn (F := Ideal) X Wφ Wθ Wo = fun _ => 1#1) :
    (∀ i, ∃ r : ℝ, X i = (r : EReal)) ∧ (∀ i, ∃ r : ℝ, Wφ i = (r : EReal)) ∧ (∀ i, ∃ r : ℝ, Wθ i = (r : EReal))
      ∧ (∀ i, ∃ r : ℝ, Wo i = (r : EReal)) ∧ (∀ i, (0 : EReal) < normv X Wφ i) ∧ (∀ i, (0 : EReal) < normv X Wθ i) := by
  have h0 := congrFun h ValueIdx.ix0
  dsimp only [Cert.Pre_finite_inputs.fn, fn_part1, fn_part2, andi] at h0
  rw [IntOp.andi_eq_one, IntOp.andi_eq_one, IntOp.andi_eq_one, IntOp.andi_eq_one, IntOp.andi_eq_one] at h0
  obtain ⟨⟨⟨⟨⟨hX, hφ⟩, hθ⟩, ho⟩, hnφ⟩, hnθ⟩ := h0
  refine ⟨fun i => ?_, fun i => ?_, fun i => ?_, fun i => ?_, fun i => ?_, fun i => ?_⟩
  · exact real_of_abs_lt _ (Host.reduce_andi_all _ _ _ _ _ hX i)
  · exact real_of_abs_lt _ (Host.reduce_andi_all _ _ _ _ _ hφ i)
  · exact real_of_abs_lt _ (Host.reduce_andi_all _ _ _ _ _ hθ i)
  · exact real_of_abs_lt _ (Host.reduce_andi_all _ _ _ _ _ ho i)
  · have e := lt_of_ogt _ _ (Host.reduce_andi_all _ _ _ _ _ hnφ i)
    rw [← Ideal.ofBits_zero_f32]
    exact e
  · have e := lt_of_ogt _ _ (Host.reduce_andi_all _ _ _ _ _ hnθ i)
    rw [← Ideal.ofBits_zero_f32]
    exact e

/-! ## Positions of the flattened map -/

/-- The row of position n. -/
def row (n : Fin 4096) : Fin 64 := ⟨n.val / 64, by have := n.isLt; omega⟩
/-- The column of position n. -/
def col (n : Fin 4096) : Fin 64 := ⟨n.val % 64, Nat.mod_lt _ (by decide)⟩

theorem row_pos (h w : Fin 64) : row (Cert.Spec.pos h w) = h :=
  Fin.ext (by have := w.isLt; show (64 * h.val + w.val) / 64 = h.val; omega)
theorem col_pos (h w : Fin 64) : col (Cert.Spec.pos h w) = w :=
  Fin.ext (by have := w.isLt; show (64 * h.val + w.val) % 64 = w.val; omega)
theorem pos_row_col (n : Fin 4096) : Cert.Spec.pos (row n) (col n) = n :=
  Fin.ext (by show 64 * (n.val / 64) + n.val % 64 = n.val; omega)

/-! ## The projection at an index -/

theorem lhs_0 (i : S8x4096x256.Idx) (q : dot_S8x4096x512_S256x512_S8x4096x256_2_1_01_0_n_n.contr.Idx) : (dot_S8x4096x512_S256x512_S8x4096x256_2_1_01_0_n_n.lhsIdx i q 0).val = (i 0).val := by
  unfold DotDims.lhsIdx
  rw [dif_neg (show ¬(0 : Fin S8x4096x512.rank) ∈ dot_S8x4096x512_S256x512_S8x4096x256_2_1_01_0_n_n.lhsBatch from
      (by decide : ¬(0 : Fin S8x4096x512.rank) ∈ ([] : List (Fin S8x4096x512.rank)))),
    dif_pos (show (0 : Fin S8x4096x512.rank) ∈ dot_S8x4096x512_S256x512_S8x4096x256_2_1_01_0_n_n.lhsNonContracting from
      (by decide : (0 : Fin S8x4096x512.rank) ∈ ([0, 1] : List (Fin S8x4096x512.rank))))]
  rfl
theorem lhs_1 (i : S8x4096x256.Idx) (q : dot_S8x4096x512_S256x512_S8x4096x256_2_1_01_0_n_n.contr.Idx) : (dot_S8x4096x512_S256x512_S8x4096x256_2_1_01_0_n_n.lhsIdx i q 1).val = (i 1).val := by
  unfold DotDims.lhsIdx
  rw [dif_neg (show ¬(1 : Fin S8x4096x512.rank) ∈ dot_S8x4096x512_S256x512_S8x4096x256_2_1_01_0_n_n.lhsBatch from
      (by decide : ¬(1 : Fin S8x4096x512.rank) ∈ ([] : List (Fin S8x4096x512.rank)))),
    dif_pos (show (1 : Fin S8x4096x512.rank) ∈ dot_S8x4096x512_S256x512_S8x4096x256_2_1_01_0_n_n.lhsNonContracting from
      (by decide : (1 : Fin S8x4096x512.rank) ∈ ([0, 1] : List (Fin S8x4096x512.rank))))]
  rfl
theorem lhs_2 (i : S8x4096x256.Idx) (q : dot_S8x4096x512_S256x512_S8x4096x256_2_1_01_0_n_n.contr.Idx) :
    (dot_S8x4096x512_S256x512_S8x4096x256_2_1_01_0_n_n.lhsIdx i q 2).val = (q ⟨0, (by decide : 0 < 1)⟩).val :=
  dot_S8x4096x512_S256x512_S8x4096x256_2_1_01_0_n_n.lhsIdx_val_of_single rfl i q
theorem rhs_0 (i : S8x4096x256.Idx) (q : dot_S8x4096x512_S256x512_S8x4096x256_2_1_01_0_n_n.contr.Idx) : (dot_S8x4096x512_S256x512_S8x4096x256_2_1_01_0_n_n.rhsIdx i q 0).val = (i 2).val := by
  unfold DotDims.rhsIdx
  rw [dif_neg (show ¬(0 : Fin S256x512.rank) ∈ dot_S8x4096x512_S256x512_S8x4096x256_2_1_01_0_n_n.rhsBatch from
      (by decide : ¬(0 : Fin S256x512.rank) ∈ ([] : List (Fin S256x512.rank)))),
    dif_pos (show (0 : Fin S256x512.rank) ∈ dot_S8x4096x512_S256x512_S8x4096x256_2_1_01_0_n_n.rhsNonContracting from
      (by decide : (0 : Fin S256x512.rank) ∈ ([0] : List (Fin S256x512.rank))))]
  rfl
theorem rhs_1 (i : S8x4096x256.Idx) (q : dot_S8x4096x512_S256x512_S8x4096x256_2_1_01_0_n_n.contr.Idx) :
    (dot_S8x4096x512_S256x512_S8x4096x256_2_1_01_0_n_n.rhsIdx i q 1).val = (q ⟨0, (by decide : 0 < 1)⟩).val :=
  dot_S8x4096x512_S256x512_S8x4096x256_2_1_01_0_n_n.rhsIdx_val_of_single rfl i q

/-- The contraction over the channels, entry by entry. -/
theorem dot_apply (Y : FVec Ideal S8x4096x512 .f32) (W : FVec Ideal S256x512 .f32) (b : Fin 8) (n : Fin 4096) (i : Fin 256) :
    Host.dotGeneral dot_S8x4096x512_S256x512_S8x4096x256_2_1_01_0_n_n none Y W (ix3 b n i) = ∑ k : Fin 512, Y (ix3 b n k) * W (ix2 i k) := by
  simp only [Host.dotGeneral]
  rw [Ideal.dotGeneral_apply, ← Equiv.sum_comp (ValueIdx.contrEquiv1 dot_S8x4096x512_S256x512_S8x4096x256_2_1_01_0_n_n 512 rfl rfl).symm]
  refine Finset.sum_congr rfl fun k _ => ?_
  have hk := ValueIdx.contrEquiv1_symm_val dot_S8x4096x512_S256x512_S8x4096x256_2_1_01_0_n_n 512 rfl rfl k
  have el : dot_S8x4096x512_S256x512_S8x4096x256_2_1_01_0_n_n.lhsIdx (ix3 b n i) ((ValueIdx.contrEquiv1 dot_S8x4096x512_S256x512_S8x4096x256_2_1_01_0_n_n 512 rfl rfl).symm k) = ix3 b n k :=
    funext fun a => Fin.ext (by
      match a with
      | ⟨0, _⟩ => exact lhs_0 _ _
      | ⟨1, _⟩ => exact lhs_1 _ _
      | ⟨2, _⟩ => exact (lhs_2 _ _).trans hk)
  have er : dot_S8x4096x512_S256x512_S8x4096x256_2_1_01_0_n_n.rhsIdx (ix3 b n i) ((ValueIdx.contrEquiv1 dot_S8x4096x512_S256x512_S8x4096x256_2_1_01_0_n_n 512 rfl rfl).symm k) = ix2 i k :=
    funext fun a => Fin.ext (by
      match a with
      | ⟨0, _⟩ => exact rhs_0 _ _
      | ⟨1, _⟩ => exact (rhs_1 _ _).trans hk)
  rw [el, er]

/-- The flattened map with positions before channels, at (b, n, c), is the map at (b, c, row n, column n). -/
theorem flat_apply (X : FVec Ideal S8x512x64x64 .f32) (b : Fin 8) (n : Fin 4096) (c : Fin 512) :
    transpose S8x4096x512 [0, 2, 1] (shapeCast S8x512x4096 X shapeCasts_S8x512x64x64_S8x512x4096)
        transposes_S8x512x4096_S8x4096x512_0_2_1 (ix3 b n c)
      = X (ix4 b c (row n) (col n)) := by
  refine (transpose_apply [0, 2, 1] _ transposes_S8x512x4096_S8x4096x512_0_2_1 (ix3 b n c) (ix3 b c n) (fun a =>
    match a with
    | ⟨0, _⟩ => rfl
    | ⟨1, _⟩ => rfl
    | ⟨2, _⟩ => rfl)).trans ?_
  exact shapeCast_apply X shapeCasts_S8x512x64x64_S8x512x4096 (ix3 b c n) _ (by
    rewrite [Shape.rowMajor_val_four, Shape.rowMajor_val_three]
    have := n.isLt
    show ((b.val * 512 + c.val) * 64 + n.val / 64) * 64 + n.val % 64 = (b.val * 512 + c.val) * 4096 + n.val
    omega)

theorem proj_apply (X : FVec Ideal S8x512x64x64 .f32) (W : FVec Ideal S256x512 .f32) (b : Fin 8) (n : Fin 4096) (i : Fin 256) :
    proj X W (ix3 b n i) = ∑ k : Fin 512, X (ix4 b k (row n) (col n)) * W (ix2 i k) := by
  unfold proj
  rw [dot_apply]
  exact Finset.sum_congr rfl fun k _ => congrArg (· * W (ix2 i k)) (flat_apply X b n k)

/-- The sum of squares at (b, n). -/
theorem sqsum_apply (X : FVec Ideal S8x512x64x64 .f32) (W : FVec Ideal S256x512 .f32) (b : Fin 8) (n : Fin 4096) :
    sqsum X W (ix2 b n) = 0 + ∑ i : Fin 256, proj X W (ix3 b n i) * proj X W (ix3 b n i) := by
  unfold sqsum
  generalize proj X W = y0
  simp only [Host.reduceAdd, Ideal.hostReduceAdd_def]
  rw [Ideal.hostReduceAdd_single reducesTo_S8x4096x256_S8x4096_d2 (by decide)]
  refine congrArg₂ (· + ·) Ideal.ofBits_zero_f32 (Finset.sum_congr rfl fun k _ => ?_)
  have e : ∀ j : S8x4096x256.Idx, j = ix3 b n k → mulf y0 y0 j = y0 (ix3 b n k) * y0 (ix3 b n k) :=
    fun j hj => by rw [hj]; rfl
  exact e _ (funext fun a => Fin.ext (by match a with | ⟨0, _⟩ => rfl | ⟨1, _⟩ => rfl | ⟨2, _⟩ => rfl))

/-- The norm at (b, n, 0). -/
theorem normv_apply (X : FVec Ideal S8x512x64x64 .f32) (W : FVec Ideal S256x512 .f32) (b : Fin 8) (n : Fin 4096) :
    normv X W (ix3 b n 0) = Ideal.sqrt (sqsum X W (ix2 b n)) := by
  unfold normv
  generalize sqsum X W = y
  show FloatOps.hostUnary .sqrt (broadcastInDim S8x4096x1 ![0, 1] bcast_S8x4096_S8x4096x1_0_1 y (ix3 b n 0)) = _
  rw [Ideal.hostUnary_sqrt_def]
  refine congrArg Ideal.sqrt ?_
  exact broadcastInDim_apply _ bcast_S8x4096_S8x4096x1_0_1 y (ix3 b n 0) (ix2 b n) (fun a => match a with
    | ⟨0, _⟩ => by show b.val = if (8 : Nat) = 1 then 0 else b.val; rw [if_neg (by decide)]
    | ⟨1, _⟩ => by show n.val = if (4096 : Nat) = 1 then 0 else n.val; rw [if_neg (by decide)])

/-! ## On real inputs the predicate's norm is the specification's -/

section Real
variable (X : FVec Ideal S8x512x64x64 .f32) (W : FVec Ideal S256x512 .f32)
  (x : Fin 8 → Fin 512 → Fin 4096 → ℝ) (w : Fin 256 → Fin 512 → ℝ)
  (hX : ∀ b c h w', X (ix4 b c h w') = ((x b c (Cert.Spec.pos h w') : ℝ) : EReal))
  (hW : ∀ i c, W (ix2 i c) = ((w i c : ℝ) : EReal))
include hX hW

theorem proj_real (b : Fin 8) (n : Fin 4096) (i : Fin 256) :
    proj X W (ix3 b n i) = ((Cert.Spec.P x w b i n : ℝ) : EReal) := by
  rw [proj_apply]
  unfold Cert.Spec.P
  rw [coe_sum]
  refine Finset.sum_congr rfl fun k _ => ?_
  rw [hX, hW, pos_row_col, ← EReal.coe_mul, mul_comm]

theorem normv_real (b : Fin 8) (n : Fin 4096) :
    normv X W (ix3 b n 0) = ((Cert.Spec.N x w b n : ℝ) : EReal) := by
  have hs : ∑ i : Fin 256, proj X W (ix3 b n i) * proj X W (ix3 b n i)
      = ((∑ i : Fin 256, Cert.Spec.P x w b i n * Cert.Spec.P x w b i n : ℝ) : EReal) := by
    rw [coe_sum]
    refine Finset.sum_congr rfl fun i _ => ?_
    rw [proj_real X W x w hX hW, EReal.coe_mul]
  rw [normv_apply, sqsum_apply, zero_add, hs, Ideal.sqrt_coe,
    if_neg (not_lt.2 (Finset.sum_nonneg fun i _ => mul_self_nonneg _))]
  rfl

end Real

/-! ## The precondition, decoded -/

theorem of_pre (X : FVec Ideal S8x512x64x64 .f32) (Wφ Wθ : FVec Ideal S256x512 .f32) (Wo : FVec Ideal S512x512 .f32)
    (h : Cert.Pre_finite_inputs.fn (F := Ideal) X Wφ Wθ Wo = fun _ => 1#1) :
    ∃ (x : Fin 8 → Fin 512 → Fin 4096 → ℝ) (wφ wθ : Fin 256 → Fin 512 → ℝ) (wo : Fin 512 → Fin 512 → ℝ),
      (∀ b c h w, X (ValueIdx.ix4 b c h w) = ((x b c (Cert.Spec.pos h w) : ℝ) : EReal))
      ∧ (∀ i c, Wφ (ValueIdx.ix2 i c) = ((wφ i c : ℝ) : EReal)) ∧ (∀ i c, Wθ (ValueIdx.ix2 i c) = ((wθ i c : ℝ) : EReal))
      ∧ (∀ c d, Wo (ValueIdx.ix2 c d) = ((wo c d : ℝ) : EReal))
      ∧ (∀ b n, 0 < Cert.Spec.N x wφ b n) ∧ (∀ b n, 0 < Cert.Spec.N x wθ b n) := by
  obtain ⟨hX, hφ, hθ, ho, hnφ, hnθ⟩ := split X Wφ Wθ Wo h
  choose fX hfX using hX
  choose fφ hfφ using hφ
  choose fθ hfθ using hθ
  choose fo hfo using ho
  have hx : ∀ (b : Fin 8) (c : Fin 512) (h w : Fin 64), X (ix4 b c h w)
      = ((fX (ix4 b c (row (Cert.Spec.pos h w)) (col (Cert.Spec.pos h w))) : ℝ) : EReal) := by
    intro b c h w
    rw [row_pos, col_pos]
    exact hfX _
  have hwφ : ∀ (i : Fin 256) (c : Fin 512), Wφ (ix2 i c) = ((fφ (ix2 i c) : ℝ) : EReal) := fun i c => hfφ _
  have hwθ : ∀ (i : Fin 256) (c : Fin 512), Wθ (ix2 i c) = ((fθ (ix2 i c) : ℝ) : EReal) := fun i c => hfθ _
  refine ⟨fun b c n => fX (ix4 b c (row n) (col n)), fun i c => fφ (ix2 i c), fun i c => fθ (ix2 i c),
    fun c d => fo (ix2 c d), hx, hwφ, hwθ, fun c d => hfo _, fun b n => ?_, fun b n => ?_⟩
  · have e := hnφ (ix3 b n 0)
    rw [normv_real X Wφ (fun b c n => fX (ix4 b c (row n) (col n))) (fun i c => fφ (ix2 i c)) hx hwφ b n] at e
    exact_mod_cast e
  · have e := hnθ (ix3 b n 0)
    rw [normv_real X Wθ (fun b c n => fX (ix4 b c (row n) (col n))) (fun i c => fθ (ix2 i c)) hx hwθ b n] at e
    exact_mod_cast e

end Cert.Domain

end
-- ==== Proof.IdealAttnPieces.lean ====
/-
  What the attention kernel's recorded pieces are, as arithmetic. In every case the three scratch buffers end at the
  same three expressions of the point's blocks and of the state (m, l, a) the body started from:
      m' = max(m, row maximum of the cosines),   l' = exp(m − m')·l + row sums of exp(cosines − m'),
      a' = exp(m − m')·a + exp(cosines − m') · valuesᵀ,
  the first key block starting from the reset (−∞, 0, 0) instead of from the point before; and the last key block's
  output is the epilogue of (a', l') and the output weights.
-/
import proofs.«137960_j66374424592665_2_alg».proof.Proof.IdealAttnData
import Idealize.ShloMosaic.Lib.Pipeline.Value
import Idealize.ShloMosaic.Lib.ValueIdx

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle key block leaves the shift at max(m, row maximum). -/
theorem piecesB_M (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32) (sM sL : Vec F S2048x1 .f32) (sA : Vec F S2048x512 .f32)
    (vw : View sig .tc .vmem S2048x1 .f32) (f : vw.ty.Contents (Elt F)) :
    vw.read (Elt F) (vw.writes (Elt F) f (runB c i a3 h3 a4 h4 a5 h5 a6 h6 a7 h7 a8 h8 a9 h9 a10 h10 hf hl q k v w sM sL sA).1) = k1_pay2 (k1_pay8 q k sM) := by
  rw [View.read_writes_eq_canon _ _ _ (coverB_M c i a3 h3 a4 h4 a5 h5 a6 h6 a7 h7 a8 h8 a9 h9 a10 h10 hf hl q k v w sM sL sA)]
  unfold runB
  dsimp only
  sl_unfold_words
  rw [View.canon_unit_zero hz2]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]
/-- A middle key block leaves the denominator rescaled plus the block's row sums. -/
theorem piecesB_L (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32) (sM sL : Vec F S2048x1 .f32) (sA : Vec F S2048x512 .f32)
    (vw : View sig .tc .vmem S2048x1 .f32) (f : vw.ty.Contents (Elt F)) :
    vw.read (Elt F) (vw.writes (Elt F) f (runB c i a3 h3 a4 h4 a5 h5 a6 h6 a7 h7 a8 h8 a9 h9 a10 h10 hf hl q k v w sM sL sA).2.1) = k1_pay11 q k sM sM sL := by
  rw [View.read_writes_eq_canon _ _ _ (coverB_L c i a3 h3 a4 h4 a5 h5 a6 h6 a7 h7 a8 h8 a9 h9 a10 h10 hf hl q k v w sM sL sA)]
  unfold runB
  dsimp only
  sl_unfold_words
  rw [View.canon_unit_zero hz2]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]
/-- A middle key block leaves the numerator rescaled plus the block's weighted values. -/
theorem piecesB_A (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : ¬last i) (q : Vec F S1x256x2048 .bf16) (k : Vec F S1x256x512 .bf16) (v : Vec F S1x512x512 .bf16) (w : Vec F S512x512 .f32) (sM sL : Vec F S2048x1 .f32) (sA : Vec F S2048x512 .f32)
    (vw : View sig .tc .vmem S2048x512 .f32) (f : vw.ty.Contents (Elt F)) :
    vw.read (Elt F) (vw.writes (Elt F) f (runB c i a3 h3 a4 h4 a5 h5 a6 h6 a7 h7 a8 h8 a9 h9 a10 h10 hf hl q k v w sM sL sA).2.2.1) = k1_pay1 (k1_pay9 q k sM sM) (k1_pay12 q k v sM) sA := by
  rw [View.read_writes_eq_canon _ _ _ (coverB_A c i a3 h3 a4 h4 a5 h5 a6 h6 a7 h7 a8 h8 a9 h9 a10 h10 hf hl q k v w sM sL sA)]
  unfold runB
  dsimp only
  sl_unfold_words
  rw [View.canon_unit_zero hz2]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]
/-- The last key block updates the shift the same way. -/
theorem piecesC_M (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32)
    (vw : View sig .tc .vmem S2048x1 .f32) (f : vw.ty.Contents (Elt F)) :
    vw.read (Elt F) (vw.writes (Elt F) f (runC c i a3 h3 a4 h4 a5 h5 a6 h6 a7 h7 a8 h8 a9 h9 a10 h10 hf hl q k v w sM sL sA).2.1) = k1_pay2 (k1_pay8 q k sM) := by
  rw [View.read_writes_eq_canon _ _ _ (coverC_M c i a3 h3 a4 h4 a5 h5 a6 h6 a7 h7 a8 h8 a9 h9 a10 h10 hf hl q k v w sM sL sA)]
  unfold runC
  dsimp only
  sl_unfold_words
  rw [View.canon_unit_zero hz2]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]
/-- … and the denominator. -/
theorem piecesC_L (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32)
    (vw : View sig .tc .vmem S2048x1 .f32) (f : vw.ty.Contents (Elt F)) :
    vw.read (Elt F) (vw.writes (Elt F) f (runC c i a3 h3 a4 h4 a5 h5 a6 h6 a7 h7 a8 h8 a9 h9 a10 h10 hf hl q k v w sM sL sA).2.2.1) = k1_pay11 q k sM sM sL := by
  rw [View.read_writes_eq_canon _ _ _ (coverC_L c i a3 h3 a4 h4 a5 h5 a6 h6 a7 h7 a8 h8 a9 h9 a10 h10 hf hl q k v w sM sL sA)]
  unfold runC
  dsimp only
  sl_unfold_words
  rw [View.canon_unit_zero hz2]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]
/-- … and the numerator. -/
theorem piecesC_A (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32)
    (vw : View sig .tc .vmem S2048x512 .f32) (f : vw.ty.Contents (Elt F)) :
    vw.read (Elt F) (vw.writes (Elt F) f (runC c i a3 h3 a4 h4 a5 h5 a6 h6 a7 h7 a8 h8 a9 h9 a10 h10 hf hl q k v w sM sL sA).2.2.2.1) = k1_pay1 (k1_pay9 q k sM sM) (k1_pay12 q k v sM) sA := by
  rw [View.read_writes_eq_canon _ _ _ (coverC_A c i a3 h3 a4 h4 a5 h5 a6 h6 a7 h7 a8 h8 a9 h9 a10 h10 hf hl q k v w sM sL sA)]
  unfold runC
  dsimp only
  sl_unfold_words
  rw [View.canon_unit_zero hz2]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]
/-- The first key block: the same update from the reset shift −∞. -/
theorem piecesA_M (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32)
    (vw : View sig .tc .vmem S2048x1 .f32) (f : vw.ty.Contents (Elt F)) :
    vw.read (Elt F) (vw.writes (Elt F) f (runA c i a3 h3 a4 h4 a5 h5 a6 h6 a7 h7 a8 h8 a9 h9 a10 h10 hf hl q k v w).1) = k1_pay2 (k1_pay8 q k k1_pay4) := by
  rw [View.read_writes_eq_canon _ _ _ (coverA_M c i a3 h3 a4 h4 a5 h5 a6 h6 a7 h7 a8 h8 a9 h9 a10 h10 hf hl q k v w)]
  unfold runA
  dsimp only
  sl_unfold_words
  rw [View.canon_cons_unit_zero (S := S2048x1) hz2]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]
/-- The first key block: the denominator from the reset 0. -/
theorem piecesA_L (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32)
    (vw : View sig .tc .vmem S2048x1 .f32) (f : vw.ty.Contents (Elt F)) :
    vw.read (Elt F) (vw.writes (Elt F) f (runA c i a3 h3 a4 h4 a5 h5 a6 h6 a7 h7 a8 h8 a9 h9 a10 h10 hf hl q k v w).2.1) = k1_pay11 q k k1_pay4 k1_pay4 k1_pay5 := by
  rw [View.read_writes_eq_canon _ _ _ (coverA_L c i a3 h3 a4 h4 a5 h5 a6 h6 a7 h7 a8 h8 a9 h9 a10 h10 hf hl q k v w)]
  unfold runA
  dsimp only
  sl_unfold_words
  rw [View.canon_cons_unit_zero (S := S2048x1) hz2]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]
/-- The first key block: the numerator from the reset 0. -/
theorem piecesA_A (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : first i) (hl : ¬last i) (q : Vec F S1x256x2048 .bf16) (k : Vec F S1x256x512 .bf16) (v : Vec F S1x512x512 .bf16) (w : Vec F S512x512 .f32)
    (vw : View sig .tc .vmem S2048x512 .f32) (f : vw.ty.Contents (Elt F)) :
    vw.read (Elt F) (vw.writes (Elt F) f (runA c i a3 h3 a4 h4 a5 h5 a6 h6 a7 h7 a8 h8 a9 h9 a10 h10 hf hl q k v w).2.2.1) = k1_pay1 (k1_pay9 q k k1_pay4 k1_pay4) (k1_pay12 q k v k1_pay4) k1_pay6 := by
  rw [View.read_writes_eq_canon _ _ _ (coverA_A c i a3 h3 a4 h4 a5 h5 a6 h6 a7 h7 a8 h8 a9 h9 a10 h10 hf hl q k v w)]
  unfold runA
  dsimp only
  sl_unfold_words
  rw [View.canon_cons_unit_zero (S := S2048x512) hz2]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]

/-- The last key block's output: the epilogue of the updated numerator and denominator and the output weights. -/
theorem piecesC_O (c : Dev nD) (i : grid1.Coords) (a3 : Memref sig .tc .vmem S1x256x2048 .bf16) (h3 : a3.IsWhole) (a4 : Memref sig .tc .vmem S1x256x512 .bf16) (h4 : a4.IsWhole)
    (a5 : Memref sig .tc .vmem S1x512x512 .bf16) (h5 : a5.IsWhole) (a6 : Memref sig .tc .vmem S512x512 .f32) (h6 : a6.IsWhole)
    (a7 : Memref sig .tc .vmem S1x512x2048 .f32) (h7 : a7.IsWhole) (a8 : Memref sig .tc .vmem S2048x1 .f32) (h8 : a8.IsWhole)
    (a9 : Memref sig .tc .vmem S2048x1 .f32) (h9 : a9.IsWhole) (a10 : Memref sig .tc .vmem S2048x512 .f32) (h10 : a10.IsWhole)
    (hf : ¬first i) (hl : last i) (q : Vec F S1x256x2048 .bf16) (k : Vec F S1x256x512 .bf16) (v : Vec F S1x512x512 .bf16) (w : Vec F S512x512 .f32) (sM sL : Vec F S2048x1 .f32) (sA : Vec F S2048x512 .f32)
    (vw : View sig .tc .vmem S1x512x2048 .f32) (f : vw.ty.Contents (Elt F)) :
    vw.read (Elt F) (vw.writes (Elt F) f (runC c i a3 h3 a4 h4 a5 h5 a6 h6 a7 h7 a8 h8 a9 h9 a10 h10 hf hl q k v w sM sL sA).1) = k1_pay3 (k1_pay1 (k1_pay9 q k sM sM) (k1_pay12 q k v sM) sA) (k1_pay11 q k sM sM sL) w := by
  rw [View.read_writes_eq_canon _ _ _ (coverC_O c i a3 h3 a4 h4 a5 h5 a6 h6 a7 h7 a8 h8 a9 h9 a10 h10 hf hl q k v w sM sL sA)]
  unfold runC
  dsimp only
  sl_unfold_words
  rw [View.canon_unit_zero hz3]
  simp only [View.readCov_unit_zero (S := S2048x1) _ hz2, View.readCov_unit_zero (S := S2048x512) _ hz2, View.readAt_eq_ld, h3.read_unread, h4.read_unread, h5.read_unread, h6.read_unread, h7.read_unread, h8.read_unread, h9.read_unread, h10.read_unread, View.ld_unit_zero (S := S1x256x2048) hz3, View.ld_unit_zero (S := S1x256x512) hz3, View.ld_unit_zero (S := S1x512x512) hz3, View.ld_unit_zero (S := S512x512) hz2, View.ld_unit_zero (S := S1x512x2048) hz3, View.ld_unit_zero (S := S2048x1) hz2, View.ld_unit_zero (S := S2048x512) hz2, shapeCast_self]

/-! ## The step, named -/

/-- One key block's effect on the running (shift, denominator, numerator), from the point's query, key and value blocks. -/
def stepV (q : Vec F S1x256x2048 .bf16) (k : Vec F S1x256x512 .bf16) (v : Vec F S1x512x512 .bf16) (s : (Vec F S2048x1 .f32 × Vec F S2048x1 .f32 × Vec F S2048x512 .f32)) : (Vec F S2048x1 .f32 × Vec F S2048x1 .f32 × Vec F S2048x512 .f32) :=
  (k1_pay2 (k1_pay8 q k s.1), k1_pay11 q k s.1 s.1 s.2.1, k1_pay1 (k1_pay9 q k s.1 s.1) (k1_pay12 q k v s.1) s.2.2)

/-- The state a first key block starts from: −∞, 0, 0. -/
def resetV : (Vec F S2048x1 .f32 × Vec F S2048x1 .f32 × Vec F S2048x512 .f32) := (k1_pay4, k1_pay5, k1_pay6)

/-- The output block from a state and the output weights. -/
def epilogueV (s : (Vec F S2048x1 .f32 × Vec F S2048x1 .f32 × Vec F S2048x512 .f32)) (w : Vec F S512x512 .f32) : Vec F S1x512x2048 .f32 := k1_pay3 s.2.2 s.2.1 w

variable (V : (c : Dev nD) → (b : Ref sig .tc) → Buf (Elt F) ((c : Thread nD τ).loc b))

theorem afterA_eq (c : Dev nD) (t : Fin cfg1.N) (h0 : t.val % 8 = 0) :
    afterA V c t h0 = stepV (block V c 0 t) (block V c 1 t) (block V c 2 t) resetV := by
  unfold afterA stepV resetV; simp only [piecesA_M, piecesA_L, piecesA_A]

theorem afterB_eq (c : Dev nD) (t : Fin cfg1.N) (h0 : ¬t.val % 8 = 0) (h7 : ¬t.val % 8 = 7) (p : (Vec F S2048x1 .f32 × Vec F S2048x1 .f32 × Vec F S2048x512 .f32)) :
    afterB V c t h0 h7 p = stepV (block V c 0 t) (block V c 1 t) (block V c 2 t) p := by
  unfold afterB stepV; simp only [piecesB_M, piecesB_L, piecesB_A]

theorem afterC_eq (c : Dev nD) (t : Fin cfg1.N) (h0 : ¬t.val % 8 = 0) (h7 : t.val % 8 = 7) (p : (Vec F S2048x1 .f32 × Vec F S2048x1 .f32 × Vec F S2048x512 .f32)) :
    afterC V c t h0 h7 p = stepV (block V c 0 t) (block V c 1 t) (block V c 2 t) p := by
  unfold afterC stepV; simp only [piecesC_M, piecesC_L, piecesC_A]

theorem outC_eq (c : Dev nD) (t : Fin cfg1.N) (h0 : ¬t.val % 8 = 0) (h7 : t.val % 8 = 7) (p : (Vec F S2048x1 .f32 × Vec F S2048x1 .f32 × Vec F S2048x512 .f32)) :
    outC V c t h0 h7 p = epilogueV (stepV (block V c 0 t) (block V c 1 t) (block V c 2 t) p) (block V c 3 t) := by
  unfold outC epilogueV stepV; simp only [piecesC_O]

/-- The state after each point, in one line: the step from the reset at a first key block, from the point before
    otherwise. -/
theorem stateAt_step (c : Dev nD) (t : Fin cfg1.N) :
    stateAt V c t.val t.isLt = stepV (block V c 0 t) (block V c 1 t) (block V c 2 t)
      (if t.val % 8 = 0 then resetV else stateAt V c (t.val - 1) (Nat.lt_of_le_of_lt (Nat.sub_le _ _) t.isLt)) := by
  by_cases h0 : t.val % 8 = 0
  · rw [if_pos h0, stateAt_first V c t h0, afterA_eq]
  · rw [if_neg h0]
    by_cases h7 : t.val % 8 = 7
    · rw [stateAt_last V c t h0 h7, afterC_eq]
    · rw [stateAt_mid V c t h0 h7, afterB_eq]

/-- What a last key block leaves in the output buffer. -/
theorem outAt_last (c : Dev nD) (t : Fin cfg1.N) (h7 : t.val % 8 = 7) :
    outAt V c t = epilogueV (stateAt V c t.val t.isLt) (block V c 3 t) := by
  have h0 : ¬t.val % 8 = 0 := by omega
  unfold outAt; rw [dif_pos h7, outC_eq V c t h0 h7, stateAt_last V c t h0 h7, afterC_eq]

end Cert.KernelIdeal.Attn

end
-- ==== Proof.IdealAttnNum.lean ====
/-
  The attention step, entry by entry, on the extended reals. For one query row n and one channel c the kernel's three
  vector updates are scalar updates: with s[j] = ∑ᵢ q[i,n]·k[i,j] the cosines of the row against the block's 512 keys,
      m' = max(m, maxⱼ s[j]),   l' = exp(m − m')·l + ∑ⱼ exp(s[j] − m'),   a' = exp(m − m')·a + ∑ⱼ exp(s[j] − m')·v[c,j].
  Each matrix product is a plain sum of products (into a zero accumulator), each change of float format the identity.
-/
import proofs.«137960_j66374424592665_2_alg».proof.Proof.IdealAttnPieces
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Num

open Cert.KernelIdeal Cert.KernelIdeal.Gen Idealize.ShloMosaic Idealize.ShloMosaic.ValueIdx
open scoped BigOperators

/-! ## The three matrix products -/

theorem qk_l0 (j : S2048x512.Idx) (q : dot_S256x2048_S256x512_S2048x512_0_0_1_1_n_n.contr.Idx) : (dot_S256x2048_S256x512_S2048x512_0_0_1_1_n_n.lhsIdx j q 0).val = (q ⟨0, by decide⟩).val :=
  dot_S256x2048_S256x512_S2048x512_0_0_1_1_n_n.lhsIdx_val_of_single rfl j q
theorem qk_l1 (j : S2048x512.Idx) (q : dot_S256x2048_S256x512_S2048x512_0_0_1_1_n_n.contr.Idx) : (dot_S256x2048_S256x512_S2048x512_0_0_1_1_n_n.lhsIdx j q 1).val = (j 0).val := by
  unfold DotDims.lhsIdx
  rw [dif_neg (show ¬(1 : Fin S256x2048.rank) ∈ dot_S256x2048_S256x512_S2048x512_0_0_1_1_n_n.lhsBatch by decide), dif_pos (show (1 : Fin S256x2048.rank) ∈ dot_S256x2048_S256x512_S2048x512_0_0_1_1_n_n.lhsNonContracting by decide)]
  rfl
theorem qk_r0 (j : S2048x512.Idx) (q : dot_S256x2048_S256x512_S2048x512_0_0_1_1_n_n.contr.Idx) : (dot_S256x2048_S256x512_S2048x512_0_0_1_1_n_n.rhsIdx j q 0).val = (q ⟨0, by decide⟩).val :=
  dot_S256x2048_S256x512_S2048x512_0_0_1_1_n_n.rhsIdx_val_of_single rfl j q
theorem qk_r1 (j : S2048x512.Idx) (q : dot_S256x2048_S256x512_S2048x512_0_0_1_1_n_n.contr.Idx) : (dot_S256x2048_S256x512_S2048x512_0_0_1_1_n_n.rhsIdx j q 1).val = (j 1).val := by
  unfold DotDims.rhsIdx
  rw [dif_neg (show ¬(1 : Fin S256x512.rank) ∈ dot_S256x2048_S256x512_S2048x512_0_0_1_1_n_n.rhsBatch by decide), dif_pos (show (1 : Fin S256x512.rank) ∈ dot_S256x2048_S256x512_S2048x512_0_0_1_1_n_n.rhsNonContracting by decide)]
  rfl

/-- The cosines: queries against keys, contracted over the 256 features. -/
theorem qk_at (l : FVec Ideal S256x2048 .bf16) (r : FVec Ideal S256x512 .bf16) (n : Fin 2048) (j : Fin 512) :
    matmul dot_S256x2048_S256x512_S2048x512_0_0_1_1_n_n none l r (constant S2048x512 .f32 0x00000000#32) (ix2 n j) = ∑ i : Fin 256, l (ix2 i n) * r (ix2 i j) := by
  simp only [matmul]
  rw [Ideal.matmul_constant_zero_apply, ← Equiv.sum_comp (contrEquiv1 dot_S256x2048_S256x512_S2048x512_0_0_1_1_n_n 256 rfl rfl).symm]
  refine Finset.sum_congr rfl fun i _ => ?_
  have hk := contrEquiv1_symm_val dot_S256x2048_S256x512_S2048x512_0_0_1_1_n_n 256 rfl rfl i
  have el : dot_S256x2048_S256x512_S2048x512_0_0_1_1_n_n.lhsIdx (ix2 n j) ((contrEquiv1 dot_S256x2048_S256x512_S2048x512_0_0_1_1_n_n 256 rfl rfl).symm i) = ix2 i n := funext fun a => Fin.ext (by
    match a with
    | ⟨0, _⟩ => exact (qk_l0 _ _).trans hk
    | ⟨1, _⟩ => exact qk_l1 _ _)
  have er : dot_S256x2048_S256x512_S2048x512_0_0_1_1_n_n.rhsIdx (ix2 n j) ((contrEquiv1 dot_S256x2048_S256x512_S2048x512_0_0_1_1_n_n 256 rfl rfl).symm i) = ix2 i j := funext fun a => Fin.ext (by
    match a with
    | ⟨0, _⟩ => exact (qk_r0 _ _).trans hk
    | ⟨1, _⟩ => exact qk_r1 _ _)
  rw [el, er]

theorem pv_l0 (j : S2048x512.Idx) (q : dot_S2048x512_S512x512_S2048x512_1_1_0_0_n_n.contr.Idx) : (dot_S2048x512_S512x512_S2048x512_1_1_0_0_n_n.lhsIdx j q 0).val = (j 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem pv_l1 (j : S2048x512.Idx) (q : dot_S2048x512_S512x512_S2048x512_1_1_0_0_n_n.contr.Idx) : (dot_S2048x512_S512x512_S2048x512_1_1_0_0_n_n.lhsIdx j q 1).val = (q ⟨0, by decide⟩).val :=
  dot_S2048x512_S512x512_S2048x512_1_1_0_0_n_n.lhsIdx_val_of_single rfl j q
theorem pv_r0 (j : S2048x512.Idx) (q : dot_S2048x512_S512x512_S2048x512_1_1_0_0_n_n.contr.Idx) : (dot_S2048x512_S512x512_S2048x512_1_1_0_0_n_n.rhsIdx j q 0).val = (j 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem pv_r1 (j : S2048x512.Idx) (q : dot_S2048x512_S512x512_S2048x512_1_1_0_0_n_n.contr.Idx) : (dot_S2048x512_S512x512_S2048x512_1_1_0_0_n_n.rhsIdx j q 1).val = (q ⟨0, by decide⟩).val :=
  dot_S2048x512_S512x512_S2048x512_1_1_0_0_n_n.rhsIdx_val_of_single rfl j q

/-- The weighted values: the block's weights against the value block, contracted over its 512 keys. -/
theorem pv_at (l : FVec Ideal S2048x512 .bf16) (r : FVec Ideal S512x512 .bf16) (n : Fin 2048) (c : Fin 512) :
    matmul dot_S2048x512_S512x512_S2048x512_1_1_0_0_n_n none l r (constant S2048x512 .f32 0x00000000#32) (ix2 n c) = ∑ i : Fin 512, l (ix2 n i) * r (ix2 c i) := by
  simp only [matmul]
  rw [Ideal.matmul_constant_zero_apply, ← Equiv.sum_comp (contrEquiv1 dot_S2048x512_S512x512_S2048x512_1_1_0_0_n_n 512 rfl rfl).symm]
  refine Finset.sum_congr rfl fun i _ => ?_
  have hk := contrEquiv1_symm_val dot_S2048x512_S512x512_S2048x512_1_1_0_0_n_n 512 rfl rfl i
  have el : dot_S2048x512_S512x512_S2048x512_1_1_0_0_n_n.lhsIdx (ix2 n c) ((contrEquiv1 dot_S2048x512_S512x512_S2048x512_1_1_0_0_n_n 512 rfl rfl).symm i) = ix2 n i := funext fun a => Fin.ext (by
    match a with
    | ⟨0, _⟩ => exact pv_l0 _ _
    | ⟨1, _⟩ => exact (pv_l1 _ _).trans hk)
  have er : dot_S2048x512_S512x512_S2048x512_1_1_0_0_n_n.rhsIdx (ix2 n c) ((contrEquiv1 dot_S2048x512_S512x512_S2048x512_1_1_0_0_n_n 512 rfl rfl).symm i) = ix2 c i := funext fun a => Fin.ext (by
    match a with
    | ⟨0, _⟩ => exact pv_r0 _ _
    | ⟨1, _⟩ => exact (pv_r1 _ _).trans hk)
  rw [el, er]

theorem wo_l0 (j : S512x2048.Idx) (q : dot_S512x512_S2048x512_S512x2048_0_1_1_0_n_n.contr.Idx) : (dot_S512x512_S2048x512_S512x2048_0_1_1_0_n_n.lhsIdx j q 0).val = (q ⟨0, by decide⟩).val :=
  dot_S512x512_S2048x512_S512x2048_0_1_1_0_n_n.lhsIdx_val_of_single rfl j q
theorem wo_l1 (j : S512x2048.Idx) (q : dot_S512x512_S2048x512_S512x2048_0_1_1_0_n_n.contr.Idx) : (dot_S512x512_S2048x512_S512x2048_0_1_1_0_n_n.lhsIdx j q 1).val = (j 0).val := by
  unfold DotDims.lhsIdx
  rw [dif_neg (show ¬(1 : Fin S512x512.rank) ∈ dot_S512x512_S2048x512_S512x2048_0_1_1_0_n_n.lhsBatch by decide), dif_pos (show (1 : Fin S512x512.rank) ∈ dot_S512x512_S2048x512_S512x2048_0_1_1_0_n_n.lhsNonContracting by decide)]
  rfl
theorem wo_r0 (j : S512x2048.Idx) (q : dot_S512x512_S2048x512_S512x2048_0_1_1_0_n_n.contr.Idx) : (dot_S512x512_S2048x512_S512x2048_0_1_1_0_n_n.rhsIdx j q 0).val = (j 1).val := by
  unfold DotDims.rhsIdx
  rw [dif_neg (show ¬(0 : Fin S2048x512.rank) ∈ dot_S512x512_S2048x512_S512x2048_0_1_1_0_n_n.rhsBatch by decide), dif_pos (show (0 : Fin S2048x512.rank) ∈ dot_S512x512_S2048x512_S512x2048_0_1_1_0_n_n.rhsNonContracting by decide)]
  rfl
theorem wo_r1 (j : S512x2048.Idx) (q : dot_S512x512_S2048x512_S512x2048_0_1_1_0_n_n.contr.Idx) : (dot_S512x512_S2048x512_S512x2048_0_1_1_0_n_n.rhsIdx j q 1).val = (q ⟨0, by decide⟩).val :=
  dot_S512x512_S2048x512_S512x2048_0_1_1_0_n_n.rhsIdx_val_of_single rfl j q

/-- The output projection: the output weights against the normalised numerator, contracted over the 512 channels. -/
theorem wo_at (l : FVec Ideal S512x512 .bf16) (r : FVec Ideal S2048x512 .bf16) (d : Fin 512) (n : Fin 2048) :
    matmul dot_S512x512_S2048x512_S512x2048_0_1_1_0_n_n none l r (constant S512x2048 .f32 0x00000000#32) (ix2 d n) = ∑ i : Fin 512, l (ix2 i d) * r (ix2 n i) := by
  simp only [matmul]
  rw [Ideal.matmul_constant_zero_apply, ← Equiv.sum_comp (contrEquiv1 dot_S512x512_S2048x512_S512x2048_0_1_1_0_n_n 512 rfl rfl).symm]
  refine Finset.sum_congr rfl fun i _ => ?_
  have hk := contrEquiv1_symm_val dot_S512x512_S2048x512_S512x2048_0_1_1_0_n_n 512 rfl rfl i
  have el : dot_S512x512_S2048x512_S512x2048_0_1_1_0_n_n.lhsIdx (ix2 d n) ((contrEquiv1 dot_S512x512_S2048x512_S512x2048_0_1_1_0_n_n 512 rfl rfl).symm i) = ix2 i d := funext fun a => Fin.ext (by
    match a with
    | ⟨0, _⟩ => exact (wo_l0 _ _).trans hk
    | ⟨1, _⟩ => exact wo_l1 _ _)
  have er : dot_S512x512_S2048x512_S512x2048_0_1_1_0_n_n.rhsIdx (ix2 d n) ((contrEquiv1 dot_S512x512_S2048x512_S512x2048_0_1_1_0_n_n 512 rfl rfl).symm i) = ix2 n i := funext fun a => Fin.ext (by
    match a with
    | ⟨0, _⟩ => exact wo_r0 _ _
    | ⟨1, _⟩ => exact (wo_r1 _ _).trans hk)
  rw [el, er]

/-! ## Layout and reductions at an index -/

section Layout
variable {α : Type}

/-- Dropping a leading unit axis. -/
theorem drop3 {A B : Nat} (x : (⟨3, ![1, A, B]⟩ : Shape).Idx → α) (h : (⟨3, ![1, A, B]⟩ : Shape).ShapeCasts ⟨2, ![A, B]⟩)
    (a : Fin A) (b : Fin B) : shapeCast ⟨2, ![A, B]⟩ x h (ix2 a b) = x (ix3 0 a b) :=
  shapeCast_apply x h _ _ (by
    rw [Shape.rowMajor_val_three, Shape.rowMajor_val_two]
    show ((0 : ℕ) * A + a.val) * B + b.val = a.val * B + b.val
    rw [Nat.zero_mul, Nat.zero_add])

/-- Adding a leading unit axis. -/
theorem add3 {A B : Nat} (x : (⟨2, ![A, B]⟩ : Shape).Idx → α) (h : (⟨2, ![A, B]⟩ : Shape).ShapeCasts ⟨3, ![1, A, B]⟩)
    (a : Fin A) (b : Fin B) : shapeCast ⟨3, ![1, A, B]⟩ x h (ix3 0 a b) = x (ix2 a b) :=
  shapeCast_apply x h _ _ (by
    rw [Shape.rowMajor_val_three, Shape.rowMajor_val_two]
    show a.val * B + b.val = ((0 : ℕ) * A + a.val) * B + b.val
    rw [Nat.zero_mul, Nat.zero_add])

/-- A vector as a column. -/
theorem col2 {A : Nat} (x : (⟨1, ![A]⟩ : Shape).Idx → α) (h : (⟨1, ![A]⟩ : Shape).ShapeCasts ⟨2, ![A, 1]⟩)
    (a : Fin A) : shapeCast ⟨2, ![A, 1]⟩ x h (ix2 a 0) = x (ix1 a) :=
  shapeCast_apply x h _ _ (by
    rw [Shape.rowMajor_val_one, Shape.rowMajor_val_two]
    show a.val = a.val * 1 + 0
    rw [Nat.mul_one, Nat.add_zero])

/-- A column spread along the rows' second axis. -/
theorem spread2 {A B : Nat} (x : (⟨2, ![A, 1]⟩ : Shape).Idx → α) (h : (⟨2, ![A, 1]⟩ : Shape).Broadcasts ⟨2, ![A, B]⟩)
    (hA : A ≠ 1) (a : Fin A) (b : Fin B) : broadcastTo ⟨2, ![A, B]⟩ x h (ix2 a b) = x (ix2 a 0) :=
  broadcastTo_apply x h _ _ (fun c => by
    match c with
    | ⟨0, _⟩ => simp [hA]
    | ⟨1, _⟩ => simp)

/-- Reducing the second axis of a matrix: the reduced index with coordinate `k` put back is (row, k). -/
theorem lift_row {A B : Nat} (h : (⟨2, ![A, B]⟩ : Shape).Reduces [1] ⟨1, ![A]⟩) (a : Fin A) (k : Fin B) :
    h.lift (ix1 a) k = ix2 a k := by
  funext c
  apply Fin.ext
  show Shape.Reduces.liftVal h (ix1 a) k.val c = (ix2 a k c).val
  unfold Shape.Reduces.liftVal
  match c with
  | ⟨0, _⟩ => simp
  | ⟨1, _⟩ => simp

end Layout

/-! ## The payloads at an entry -/

section Pay
variable (q : Vec Ideal S1x256x2048 .bf16) (k : Vec Ideal S1x256x512 .bf16) (v : Vec Ideal S1x512x512 .bf16) (w : Vec Ideal S512x512 .f32)
variable (M M' L : Vec Ideal S2048x1 .f32) (A : Vec Ideal S2048x512 .f32)

/-- The cosine of query `n` against key `j` of the block. -/
def cosv (n : Fin 2048) (j : Fin 512) : EReal := ∑ i : Fin 256, q (ix3 0 i n) * k (ix3 0 i j)

theorem pay7_at (n : Fin 2048) (j : Fin 512) : k1_pay7 (F := Ideal) q k (ix2 n j) = cosv q k n j := by
  unfold k1_pay7 cosv
  (try dsimp only)
  rw [qk_at]
  refine Finset.sum_congr rfl fun i _ => ?_
  rw [drop3, drop3]

/-- The row's maximum over the block's keys, from −∞. -/
def rowmax (n : Fin 2048) : EReal :=
  (Finset.univ : Finset (Fin 512)).fold max (Ideal.ofBits .f32 0xFF800000#32) (fun j => cosv q k n j)

theorem pay8_at (n : Fin 2048) : k1_pay8 (F := Ideal) q k M (ix2 n 0) = max (M (ix2 n 0)) (rowmax q k n) := by
  unfold k1_pay8 rowmax
  (try dsimp only)
  rw [ValueIdx.maximumf_apply, col2]
  refine congrArg (max (M (ix2 n 0)) ·) ((Ideal.multiReduction_maximumf_single _ _ _ _ _ _).trans ?_)
  have e : (k1_pay7 (F := Ideal) q k ∘ (reduces_S2048x512_S2048).lift (ix1 n)) = fun j : Fin 512 => cosv q k n j :=
    funext fun j =>
      (congrArg (k1_pay7 (F := Ideal) q k) (lift_row reduces_S2048x512_S2048 n j)).trans (pay7_at q k n j)
  rw [e]
  rfl

theorem pay9_at (n : Fin 2048) :
    k1_pay9 (F := Ideal) q k M M' (ix2 n 0) = Ideal.exp (M' (ix2 n 0) - k1_pay8 (F := Ideal) q k M (ix2 n 0)) := rfl

theorem pay10_at (n : Fin 2048) (j : Fin 512) :
    k1_pay10 (F := Ideal) q k M (ix2 n j) = Ideal.exp (cosv q k n j - k1_pay8 (F := Ideal) q k M (ix2 n 0)) := by
  unfold k1_pay10
  (try dsimp only)
  show Ideal.exp (k1_pay7 (F := Ideal) q k (ix2 n j) - broadcastTo S2048x512 (k1_pay8 (F := Ideal) q k M) broadcasts_S2048x1_S2048x512 (ix2 n j)) = _
  rw [spread2 _ _ (by decide), pay7_at]

theorem pay11_at (n : Fin 2048) :
    k1_pay11 (F := Ideal) q k M M' L (ix2 n 0)
      = k1_pay9 (F := Ideal) q k M M' (ix2 n 0) * L (ix2 n 0) + ∑ j : Fin 512, k1_pay10 (F := Ideal) q k M (ix2 n j) := by
  unfold k1_pay11
  (try dsimp only)
  rw [shapeCast_self, ValueIdx.addf_apply, ValueIdx.mulf_apply, col2]
  refine congrArg (_ + ·) ((Ideal.multiReduction_add_single _ _ _ _ _ _).trans (Finset.sum_congr rfl fun j _ => ?_))
  exact congrArg (k1_pay10 (F := Ideal) q k M) (lift_row reduces_S2048x512_S2048 n j)

theorem pay12_at (n : Fin 2048) (c : Fin 512) :
    k1_pay12 (F := Ideal) q k v M (ix2 n c) = ∑ j : Fin 512, k1_pay10 (F := Ideal) q k M (ix2 n j) * v (ix3 0 c j) := by
  unfold k1_pay12
  (try dsimp only)
  rw [pv_at]
  refine Finset.sum_congr rfl fun j _ => ?_
  rw [drop3]
  rfl

theorem pay1_at (a16 : FVec Ideal S2048x1 .f32) (a29 : FVec Ideal S2048x512 .f32) (n : Fin 2048) (c : Fin 512) :
    k1_pay1 (F := Ideal) a16 a29 A (ix2 n c) = a16 (ix2 n 0) * A (ix2 n c) + a29 (ix2 n c) := by
  unfold k1_pay1
  (try dsimp only)
  rw [shapeCast_self, ValueIdx.addf_apply, ValueIdx.mulf_apply, spread2 _ _ (by decide)]

theorem pay2_eq (x : FVec Ideal S2048x1 .f32) : k1_pay2 (F := Ideal) x = x := by
  unfold k1_pay2; (try dsimp only); rw [shapeCast_self]

/-- The epilogue: numerator times the reciprocal of the denominator, projected by the output weights, clipped at 0. -/
theorem pay3_at (d : Fin 512) (n : Fin 2048) :
    k1_pay3 (F := Ideal) A L w (ix3 0 d n)
      = max (∑ c : Fin 512, w (ix2 c d) * (A (ix2 n c) * Ideal.div (Ideal.ofBits .f32 0x3F800000#32) (L (ix2 n 0))))
          (Ideal.ofBits .f32 0x00000000#32) := by
  unfold k1_pay3
  (try dsimp only)
  rw [add3, ValueIdx.maximumf_apply, wo_at]
  refine congrArg₂ max (Finset.sum_congr rfl fun c _ => ?_) rfl
  show w (ix2 c d) * (A (ix2 n c) * broadcastTo S2048x512 _ broadcasts_S2048x1_S2048x512 (ix2 n c)) = _
  rw [spread2 _ _ (by decide)]
  rfl

theorem pay4_at (n : Fin 2048) : k1_pay4 (F := Ideal) (ix2 n 0) = Ideal.ofBits .f32 0xFF800000#32 := by
  unfold k1_pay4; (try dsimp only); rw [shapeCast_self]; rfl
theorem pay5_at (n : Fin 2048) : k1_pay5 (F := Ideal) (ix2 n 0) = Ideal.ofBits .f32 0x00000000#32 := by
  unfold k1_pay5; (try dsimp only); rw [shapeCast_self]; rfl
theorem pay6_at (n : Fin 2048) (c : Fin 512) : k1_pay6 (F := Ideal) (ix2 n c) = Ideal.ofBits .f32 0x00000000#32 := by
  unfold k1_pay6; (try dsimp only); rw [shapeCast_self]; rfl

end Pay

end Cert.KernelIdeal.Num

end
-- ==== Proof.IdealAttnStep.lean ====
/-
  The attention step is the scalar accumulation, entry by entry. For a query row n and a channel c the entries
  (m[n], l[n], a[n,c]) of the scratch after a key block are the library's `step` of the entries before it, with the
  block's 512 cosines, their maximum and the channel's 512 values — once those are known to be real numbers.
-/
import proofs.«137960_j66374424592665_2_alg».proof.Proof.IdealAttnNum
import proofs.«137960_j66374424592665_2_alg».proof.Proof.LibOnlineSoftmax

set_option maxRecDepth 16384

noncomputable section

namespace Cert.KernelIdeal.Num

open Cert.KernelIdeal Cert.KernelIdeal.Gen Idealize.ShloMosaic Idealize.ShloMosaic.ValueIdx
open Cert.Lib.OnlineSoftmax
open scoped BigOperators

/-! ## Three words -/

theorem neginf_f32 : Ideal.ofBits .f32 0xFF800000#32 = (⊥ : EReal) := by
  simp [Ideal.ofBits, Ideal.ieee]
theorem one_f32 : Ideal.ofBits .f32 0x3F800000#32 = ((1 : ℝ) : EReal) := by
  simp [Ideal.ofBits, Ideal.ieee]
  exact_mod_cast (by norm_num : (8388608 : ℝ) * ((2 : ℝ) ^ 23)⁻¹ = 1)
theorem zero_f32 : Ideal.ofBits .f32 0x00000000#32 = (0 : EReal) := Ideal.ofBits_zero_f32

/-! ## A maximum of finitely many reals, taken from −∞, is a real -/

theorem fold_max_real {J : Type*} (x : J → ℝ) (s : Finset J) (hs : s.Nonempty) :
    ∃ r : ℝ, s.fold max (⊥ : EReal) (fun j => (x j : EReal)) = (r : EReal) := by
  classical
  induction hs using Finset.Nonempty.cons_induction with
  | singleton a => exact ⟨x a, by rw [Finset.fold_singleton]; exact max_eq_left bot_le⟩
  | cons a s ha hs ih =>
    obtain ⟨r, hr⟩ := ih
    exact ⟨max (x a) r, by rw [Finset.fold_cons, hr]; exact (EReal.coe_strictMono.monotone.map_max).symm⟩

/-! ## One key block, at one entry -/

theorem stepV_entry (q : Vec Ideal S1x256x2048 .bf16) (k : Vec Ideal S1x256x512 .bf16) (v : Vec Ideal S1x512x512 .bf16)
    (s : Vec Ideal S2048x1 .f32 × Vec Ideal S2048x1 .f32 × Vec Ideal S2048x512 .f32) (n : Fin 2048) (c : Fin 512)
    (x f : Fin 512 → ℝ) (r : ℝ) (hx : ∀ j, cosv q k n j = (x j : EReal)) (hr : rowmax q k n = (r : EReal))
    (hf : ∀ j, v (ix3 0 c j) = (f j : EReal)) :
    ((Attn.stepV (F := Ideal) q k v s).1 (ix2 n 0), (Attn.stepV (F := Ideal) q k v s).2.1 (ix2 n 0), (Attn.stepV (F := Ideal) q k v s).2.2 (ix2 n c))
      = step r x f (s.1 (ix2 n 0), s.2.1 (ix2 n 0), s.2.2 (ix2 n c)) := by
  unfold Attn.stepV step
  refine Prod.ext ?_ (Prod.ext ?_ ?_)
  · show k1_pay2 (F := Ideal) (k1_pay8 (F := Ideal) q k s.1) (ix2 n 0) = _
    rw [pay2_eq, pay8_at, hr]
  · show k1_pay11 (F := Ideal) q k s.1 s.1 s.2.1 (ix2 n 0) = _
    rw [pay11_at, pay9_at, pay8_at, hr]
    refine congrArg (_ + ·) (Finset.sum_congr rfl fun j _ => ?_)
    rw [pay10_at, pay8_at, hr, hx]
  · show k1_pay1 (F := Ideal) (k1_pay9 (F := Ideal) q k s.1 s.1) (k1_pay12 (F := Ideal) q k v s.1) s.2.2 (ix2 n c) = _
    rw [pay1_at, pay9_at, pay8_at, hr, pay12_at]
    refine congrArg (_ + ·) (Finset.sum_congr rfl fun j _ => ?_)
    rw [pay10_at, pay8_at, hr, hx, hf]

/-- The reset state's entries. -/
theorem resetV_entry (n : Fin 2048) (c : Fin 512) :
    ((Attn.resetV (F := Ideal)).1 (ix2 n 0), (Attn.resetV (F := Ideal)).2.1 (ix2 n 0), (Attn.resetV (F := Ideal)).2.2 (ix2 n c))
      = ((⊥ : EReal), (0 : EReal), (0 : EReal)) := by
  unfold Attn.resetV
  refine Prod.ext ?_ (Prod.ext ?_ ?_)
  · exact (pay4_at n).trans neginf_f32
  · exact (pay5_at n).trans zero_f32
  · exact (pay6_at n c).trans zero_f32

end Cert.KernelIdeal.Num

end
-- ==== Proof.IdealAttnFold.lean ====
/-
  Eight key blocks in a row. From a first key block t0 (a multiple of 8) on, the scratch entries for a query row n and
  a channel c after point t0 + ki are the library's accumulation after ki + 1 blocks — the first from the reset, each
  later one from the point before — given that the cosines, their maxima and the values met along the way are real.
-/
import proofs.«137960_j66374424592665_2_alg».proof.Proof.IdealAttnStep

set_option maxRecDepth 16384

noncomputable section

namespace Cert.KernelIdeal.Num

open Cert.KernelIdeal Cert.KernelIdeal.Gen Idealize.ShloMosaic Idealize.ShloMosaic.ValueIdx Idealize.ShloMosaic.TcCoe
open Cert.Lib.OnlineSoftmax
open scoped BigOperators

variable (V : (c : Dev nD) → (b : Ref sig .tc) → Buf (Elt Ideal) ((c : Thread nD τ).loc b))

theorem state_run (c : Dev nD) (t0 : ℕ) (h0 : t0 % 8 = 0) (n : Fin 2048) (ch : Fin 512)
    (x f : ℕ → Fin 512 → ℝ) (r : ℕ → ℝ)
    (hx : ∀ (ki : ℕ) (h : t0 + ki < cfg1.N), ki < 8 → ∀ j, cosv (Attn.block V c 0 ⟨t0 + ki, h⟩) (Attn.block V c 1 ⟨t0 + ki, h⟩) n j = (x ki j : EReal))
    (hr : ∀ (ki : ℕ) (h : t0 + ki < cfg1.N), ki < 8 → rowmax (Attn.block V c 0 ⟨t0 + ki, h⟩) (Attn.block V c 1 ⟨t0 + ki, h⟩) n = (r ki : EReal))
    (hf : ∀ (ki : ℕ) (h : t0 + ki < cfg1.N), ki < 8 → ∀ j, Attn.block V c 2 ⟨t0 + ki, h⟩ (ix3 0 ch j) = (f ki j : EReal)) :
    ∀ (ki : ℕ) (h : t0 + ki < cfg1.N), ki < 8 →
      ((Attn.stateAt V c (t0 + ki) h).1 (ix2 n 0), (Attn.stateAt V c (t0 + ki) h).2.1 (ix2 n 0), (Attn.stateAt V c (t0 + ki) h).2.2 (ix2 n ch))
        = run r x f (ki + 1) := by
  intro ki
  induction ki with
  | zero =>
    intro h _
    have hs := Attn.stateAt_step V c ⟨t0 + 0, h⟩
    rw [if_pos (show (⟨t0 + 0, h⟩ : Fin cfg1.N).val % 8 = 0 from by simpa using h0)] at hs
    show ((Attn.stateAt V c (⟨t0 + 0, h⟩ : Fin cfg1.N).val _).1 (ix2 n 0), _, _) = _
    rw [hs, stepV_entry _ _ _ _ n ch (x 0) (f 0) (r 0) (hx 0 h (by decide)) (hr 0 h (by decide)) (hf 0 h (by decide)), resetV_entry]
    rfl
  | succ ki ih =>
    intro h hk
    have hprev : t0 + ki < cfg1.N := by omega
    have hs := Attn.stateAt_step V c ⟨t0 + (ki + 1), h⟩
    rw [if_neg (show ¬(⟨t0 + (ki + 1), h⟩ : Fin cfg1.N).val % 8 = 0 from by show ¬(t0 + (ki + 1)) % 8 = 0; omega)] at hs
    show ((Attn.stateAt V c (⟨t0 + (ki + 1), h⟩ : Fin cfg1.N).val _).1 (ix2 n 0), _, _) = _
    rw [hs, stepV_entry _ _ _ _ n ch (x (ki + 1)) (f (ki + 1)) (r (ki + 1)) (hx (ki + 1) h hk) (hr (ki + 1) h hk) (hf (ki + 1) h hk)]
    have e := ih hprev (by omega)
    show step (r (ki + 1)) (x (ki + 1)) (f (ki + 1))
        ((Attn.stateAt V c (t0 + ki) _).1 (ix2 n 0), (Attn.stateAt V c (t0 + ki) _).2.1 (ix2 n 0), (Attn.stateAt V c (t0 + ki) _).2.2 (ix2 n ch)) = _
    rw [e]
    rfl

end Cert.KernelIdeal.Num

end
-- ==== Proof.IdealAttnCover.lean ====
/-
  From the attention kernel's 128 points to its output array. Point t works on batch entry t / 16, query half
  (t / 8) mod 2 and key block t mod 8; the output block of (batch entry, query half) is written back once, at the last
  key block. So entry (b, d, n) of the output array is what point ((2b + n / 2048)·8 + 7) stored at (d, n mod 2048).
-/
import proofs.«137960_j66374424592665_2_alg».proof.Proof.IdealAttnFold
import proofs.«137960_j66374424592665_2_alg».proof.Proof.IdealAttnBody

set_option maxRecDepth 16384

noncomputable section

namespace Cert.KernelIdeal.Num

open Cert.KernelIdeal Cert.KernelIdeal.Gen Idealize.ShloMosaic Idealize.ShloMosaic.ValueIdx Idealize.ShloMosaic.TcCoe
open Idealize.ShloMosaic.Pipeline (Dat)
open scoped BigOperators

/-- Which block each window of the attention kernel is on, at each of its 128 points. -/
theorem idx1 : ∀ t : Fin cfg1.N,
    win1_0.index t (0 : Fin 3) = t.val / 16 ∧ win1_0.index t (1 : Fin 3) = 0 ∧ win1_0.index t (2 : Fin 3) = t.val / 8 % 2
    ∧ win1_1.index t (0 : Fin 3) = t.val / 16 ∧ win1_1.index t (1 : Fin 3) = 0 ∧ win1_1.index t (2 : Fin 3) = t.val % 8
    ∧ win1_2.index t (0 : Fin 3) = t.val / 16 ∧ win1_2.index t (1 : Fin 3) = 0 ∧ win1_2.index t (2 : Fin 3) = t.val % 8
    ∧ win1_3.index t (0 : Fin 2) = 0 ∧ win1_3.index t (1 : Fin 2) = 0
    ∧ win1_4.index t (0 : Fin 3) = t.val / 16 ∧ win1_4.index t (1 : Fin 3) = 0 ∧ win1_4.index t (2 : Fin 3) = t.val / 8 % 2 :=
  (by decide +kernel : ∀ t : Fin grid1.N, _)

theorem emb_q (t : Fin cfg1.N) (r : Fin 256) (n' : Fin 2048) :
    ((cfg1.win 0).blk t).view.emb (ix3 0 r n') = ix3 ⟨t.val / 16, by have := t.isLt; have : cfg1.N = 128 := N_1; omega⟩ r ⟨(t.val / 8 % 2) * 2048 + n'.val, by have := n'.isLt; omega⟩ := by
  have hI := idx1 t
  funext a; apply Fin.ext
  match a with
  | ⟨0, _⟩ => show win1_0.index t (0 : Fin 3) * 1 + 1 * 0 = t.val / 16; omega
  | ⟨1, _⟩ => show win1_0.index t (1 : Fin 3) * 256 + 1 * r.val = r.val; omega
  | ⟨2, _⟩ => show win1_0.index t (2 : Fin 3) * 2048 + 1 * n'.val = (t.val / 8 % 2) * 2048 + n'.val; omega
theorem emb_k (t : Fin cfg1.N) (r : Fin 256) (j : Fin 512) :
    ((cfg1.win 1).blk t).view.emb (ix3 0 r j) = ix3 ⟨t.val / 16, by have := t.isLt; have : cfg1.N = 128 := N_1; omega⟩ r ⟨(t.val % 8) * 512 + j.val, by have := j.isLt; omega⟩ := by
  have hI := idx1 t
  funext a; apply Fin.ext
  match a with
  | ⟨0, _⟩ => show win1_1.index t (0 : Fin 3) * 1 + 1 * 0 = t.val / 16; omega
  | ⟨1, _⟩ => show win1_1.index t (1 : Fin 3) * 256 + 1 * r.val = r.val; omega
  | ⟨2, _⟩ => show win1_1.index t (2 : Fin 3) * 512 + 1 * j.val = (t.val % 8) * 512 + j.val; omega
theorem emb_v (t : Fin cfg1.N) (r : Fin 512) (j : Fin 512) :
    ((cfg1.win 2).blk t).view.emb (ix3 0 r j) = ix3 ⟨t.val / 16, by have := t.isLt; have : cfg1.N = 128 := N_1; omega⟩ r ⟨(t.val % 8) * 512 + j.val, by have := j.isLt; omega⟩ := by
  have hI := idx1 t
  funext a; apply Fin.ext
  match a with
  | ⟨0, _⟩ => show win1_2.index t (0 : Fin 3) * 1 + 1 * 0 = t.val / 16; omega
  | ⟨1, _⟩ => show win1_2.index t (1 : Fin 3) * 512 + 1 * r.val = r.val; omega
  | ⟨2, _⟩ => show win1_2.index t (2 : Fin 3) * 512 + 1 * j.val = (t.val % 8) * 512 + j.val; omega
theorem emb_out (t : Fin cfg1.N) (r : Fin 512) (n' : Fin 2048) :
    ((cfg1.win 4).blk t).view.emb (ix3 0 r n') = ix3 ⟨t.val / 16, by have := t.isLt; have : cfg1.N = 128 := N_1; omega⟩ r ⟨(t.val / 8 % 2) * 2048 + n'.val, by have := n'.isLt; omega⟩ := by
  have hI := idx1 t
  funext a; apply Fin.ext
  match a with
  | ⟨0, _⟩ => show win1_4.index t (0 : Fin 3) * 1 + 1 * 0 = t.val / 16; omega
  | ⟨1, _⟩ => show win1_4.index t (1 : Fin 3) * 512 + 1 * r.val = r.val; omega
  | ⟨2, _⟩ => show win1_4.index t (2 : Fin 3) * 2048 + 1 * n'.val = (t.val / 8 % 2) * 2048 + n'.val; omega
theorem emb_wo (t : Fin cfg1.N) (ch d : Fin 512) : ((cfg1.win 3).blk t).view.emb (ix2 ch d) = ix2 ch d := by
  have hI := idx1 t
  funext a; apply Fin.ext
  match a with
  | ⟨0, _⟩ => show win1_3.index t (0 : Fin 2) * 512 + 1 * ch.val = ch.val; omega
  | ⟨1, _⟩ => show win1_3.index t (1 : Fin 2) * 512 + 1 * d.val = d.val; omega

variable (V : (c : Dev nD) → (b : Ref sig .tc) → Buf (Elt Ideal) ((c : Thread nD τ).loc b))

/-- The point that writes entry i of the output array: its batch entry, its query half, the last key block. -/
def pointOf (i : S8x512x4096.Idx) : Fin cfg1.N :=
  ⟨((i 0).val * 2 + (i 2).val / 2048) * 8 + 7, by
    have h0 : (i 0).val < 8 := (i 0).isLt
    have h2 : (i 2).val < 4096 := (i 2).isLt
    have : cfg1.N = 128 := N_1
    omega⟩

/-- The output array in closed form: at each entry, what its point stored there. -/
def outArr (c : Dev nD) : S8x512x4096.Idx → EReal := fun i =>
  Attn.outAt V c (pointOf i) (ix3 0 ⟨(i 1).val, (i 1).isLt⟩ ⟨(i 2).val % 2048, Nat.mod_lt _ (by decide)⟩)

/-- What a last-key-block point writes back is its block of that closed form. -/
theorem flushedOut (c : Dev nD) (t : Fin cfg1.N) (hf : (cfg1.win 4).flush t = true) :
    (Attn.dat V c).flushed 4 t = ((cfg1.win 4).blk t).view.read (Elt Ideal) (outArr V c) := by
  have h7 : t.val % 8 = 7 := (flush1_4 t).mp hf
  have hN : cfg1.N = 128 := N_1
  have ht := t.isLt
  show (cfg1.win 4).cut (grid1.coords t) ((Attn.dat V c).after 4 t) = _
  rw [Attn.after_o]
  funext j
  obtain ⟨z, d, n', rfl⟩ : ∃ (z : Fin 1) (d : Fin 512) (n' : Fin 2048), j = ix3 z d n' := ⟨j 0, j 1, j 2, eq_ix3 j⟩
  obtain rfl : z = 0 := Subsingleton.elim _ _
  show Attn.outAt V c t (ix3 0 d n') = outArr V c (((cfg1.win 4).blk t).view.emb (ix3 0 d n'))
  rw [emb_out]
  unfold outArr
  have hn' := n'.isLt
  have e1 : pointOf (ix3 ⟨t.val / 16, by have := t.isLt; have : cfg1.N = 128 := N_1; omega⟩ d ⟨(t.val / 8 % 2) * 2048 + n'.val, by omega⟩) = t := Fin.ext (by
    show ((t.val / 16) * 2 + ((t.val / 8 % 2) * 2048 + n'.val) / 2048) * 8 + 7 = t.val
    omega)
  have e2 : (⟨((t.val / 8 % 2) * 2048 + n'.val) % 2048, Nat.mod_lt _ (by decide)⟩ : Fin 2048) = n' := Fin.ext (by
    show ((t.val / 8 % 2) * 2048 + n'.val) % 2048 = n'.val
    omega)
  rw [e1]
  exact congrArg (Attn.outAt V c t) (congrArg (ix3 0 d) e2.symm)

/-- Every entry of the output array is in the block of its point. -/
theorem coverOut (i : S8x512x4096.Idx) :
    ∃ t : Fin cfg1.N, (cfg1.win 4).flush t = true ∧ i ∈ ((cfg1.win 4).blk t).view.set := by
  have h0 : (i 0).val < 8 := (i 0).isLt
  have h1 : (i 1).val < 512 := (i 1).isLt
  have h2 : (i 2).val < 4096 := (i 2).isLt
  have hN : cfg1.N = 128 := N_1
  obtain ⟨t, ht⟩ : ∃ t : Fin cfg1.N, t.val = ((i 0).val * 2 + (i 2).val / 2048) * 8 + 7 := ⟨pointOf i, rfl⟩
  refine ⟨t, (flush1_4 t).mpr (by omega), ?_⟩
  have hI := idx1 t
  show i ∈ ((View.whole main_v2).slice (win1_4.rect t)).set
  rw [View.set_slice_whole, Rect.mem_set_unit]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 512 ≤ (i 1).val ∧ (i 1).val < win1_4.index t (1 : Fin 3) * 512 + 512
    omega
  | ⟨2, _⟩ =>
    show win1_4.index t (2 : Fin 3) * 2048 ≤ (i 2).val ∧ (i 2).val < win1_4.index t (2 : Fin 3) * 2048 + 2048
    omega

/-- After the launch the output array is the closed form. -/
theorem finalOut (c : Dev nD) : (Attn.dat V c).arrAt 4 cfg1.N = outArr V c :=
  (Attn.dat V c).arrAt_eq_of_cover 4 _ (fun t hf => flushedOut V c t hf) coverOut

end Cert.KernelIdeal.Num

end
-- ==== Proof.IdealProjNum.lean ====
/-
  The projection kernel, entry by entry, on the extended reals: with P[r,n] = ∑_c W[r,c]·x[c,n] the projected block,
  each output entry is P[r,n] times the reciprocal of the column norm √(∑_r' P[r',n]²); the third output is the feature
  block itself (a change of float format is the identity).
-/
import proofs.«137960_j66374424592665_2_alg».proof.Proof.IdealProj
import proofs.«137960_j66374424592665_2_alg».proof.Proof.IdealAttnNum

set_option maxRecDepth 16384

noncomputable section

namespace Cert.KernelIdeal.Num

open Cert.KernelIdeal Cert.KernelIdeal.Gen Idealize.ShloMosaic Idealize.ShloMosaic.ValueIdx
open scoped BigOperators

theorem proj_l0 (j : S256x2048.Idx) (q : dot_S256x512_S512x2048_S256x2048_1_0_0_1_n_n.contr.Idx) : (dot_S256x512_S512x2048_S256x2048_1_0_0_1_n_n.lhsIdx j q 0).val = (j 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem proj_l1 (j : S256x2048.Idx) (q : dot_S256x512_S512x2048_S256x2048_1_0_0_1_n_n.contr.Idx) : (dot_S256x512_S512x2048_S256x2048_1_0_0_1_n_n.lhsIdx j q 1).val = (q ⟨0, by decide⟩).val :=
  dot_S256x512_S512x2048_S256x2048_1_0_0_1_n_n.lhsIdx_val_of_single rfl j q
theorem proj_r0 (j : S256x2048.Idx) (q : dot_S256x512_S512x2048_S256x2048_1_0_0_1_n_n.contr.Idx) : (dot_S256x512_S512x2048_S256x2048_1_0_0_1_n_n.rhsIdx j q 0).val = (q ⟨0, by decide⟩).val :=
  dot_S256x512_S512x2048_S256x2048_1_0_0_1_n_n.rhsIdx_val_of_single rfl j q
theorem proj_r1 (j : S256x2048.Idx) (q : dot_S256x512_S512x2048_S256x2048_1_0_0_1_n_n.contr.Idx) : (dot_S256x512_S512x2048_S256x2048_1_0_0_1_n_n.rhsIdx j q 1).val = (j 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- A projection: weights against the feature block, contracted over the 512 channels. -/
theorem proj_at (l : FVec Ideal S256x512 .bf16) (r : FVec Ideal S512x2048 .bf16) (ro : Fin 256) (n : Fin 2048) :
    matmul dot_S256x512_S512x2048_S256x2048_1_0_0_1_n_n none l r (constant S256x2048 .f32 0x00000000#32) (ix2 ro n) = ∑ i : Fin 512, l (ix2 ro i) * r (ix2 i n) := by
  simp only [matmul]
  rw [Ideal.matmul_constant_zero_apply, ← Equiv.sum_comp (contrEquiv1 dot_S256x512_S512x2048_S256x2048_1_0_0_1_n_n 512 rfl rfl).symm]
  refine Finset.sum_congr rfl fun i _ => ?_
  have hk := contrEquiv1_symm_val dot_S256x512_S512x2048_S256x2048_1_0_0_1_n_n 512 rfl rfl i
  have el : dot_S256x512_S512x2048_S256x2048_1_0_0_1_n_n.lhsIdx (ix2 ro n) ((contrEquiv1 dot_S256x512_S512x2048_S256x2048_1_0_0_1_n_n 512 rfl rfl).symm i) = ix2 ro i := funext fun a => Fin.ext (by
    match a with
    | ⟨0, _⟩ => exact proj_l0 _ _
    | ⟨1, _⟩ => exact (proj_l1 _ _).trans hk)
  have er : dot_S256x512_S512x2048_S256x2048_1_0_0_1_n_n.rhsIdx (ix2 ro n) ((contrEquiv1 dot_S256x512_S512x2048_S256x2048_1_0_0_1_n_n 512 rfl rfl).symm i) = ix2 i n := funext fun a => Fin.ext (by
    match a with
    | ⟨0, _⟩ => exact (proj_r0 _ _).trans hk
    | ⟨1, _⟩ => exact proj_r1 _ _)
  rw [el, er]

section Layout
variable {α : Type}

/-- A vector as a row. -/
theorem row2 {B : Nat} (x : (⟨1, ![B]⟩ : Shape).Idx → α) (h : (⟨1, ![B]⟩ : Shape).ShapeCasts ⟨2, ![1, B]⟩)
    (b : Fin B) : shapeCast ⟨2, ![1, B]⟩ x h (ix2 0 b) = x (ix1 b) :=
  shapeCast_apply x h _ _ (by
    rw [Shape.rowMajor_val_one, Shape.rowMajor_val_two]
    show b.val = (0 : ℕ) * B + b.val
    rw [Nat.zero_mul, Nat.zero_add])

/-- A row spread down the columns' first axis. -/
theorem spreadRow {A B : Nat} (x : (⟨2, ![1, B]⟩ : Shape).Idx → α) (h : (⟨2, ![1, B]⟩ : Shape).Broadcasts ⟨2, ![A, B]⟩)
    (hB : B ≠ 1) (a : Fin A) (b : Fin B) : broadcastTo ⟨2, ![A, B]⟩ x h (ix2 a b) = x (ix2 0 b) :=
  broadcastTo_apply x h _ _ (fun c => by
    match c with
    | ⟨0, _⟩ => simp
    | ⟨1, _⟩ => simp [hB])

/-- Reducing the first axis of a matrix: the reduced index with coordinate `k` put back is (k, column). -/
theorem lift_col {A B : Nat} (h : (⟨2, ![A, B]⟩ : Shape).Reduces [0] ⟨1, ![B]⟩) (b : Fin B) (k : Fin A) :
    h.lift (ix1 b) k = ix2 k b := by
  funext c
  apply Fin.ext
  show Shape.Reduces.liftVal h (ix1 b) k.val c = (ix2 k b c).val
  unfold Shape.Reduces.liftVal
  match c with
  | ⟨0, _⟩ => simp
  | ⟨1, _⟩ => simp

end Layout

section Pay
variable (x : Vec Ideal S1x512x2048 .f32) (w : Vec Ideal S256x512 .f32)

/-- The projected block at (feature r, position n). -/
def proj (r : Fin 256) (n : Fin 2048) : EReal := ∑ c : Fin 512, w (ix2 r c) * x (ix3 0 c n)

theorem pay2_at (c : Fin 512) (n : Fin 2048) : k0_pay2 (F := Ideal) x (ix2 c n) = x (ix3 0 c n) := by
  unfold k0_pay2; (try dsimp only)
  show shapeCast S512x2048 x shapeCasts_S1x512x2048_S512x2048 (ix2 c n) = _
  rw [drop3]

/-- A normalised projection entry: the projection times the reciprocal of its column's norm. -/
theorem pay3_at' (r : Fin 256) (n : Fin 2048) :
    k0_pay3 (F := Ideal) x w (ix3 0 r n)
      = proj x w r n * Ideal.div (Ideal.ofBits .f32 0x3F800000#32) (Ideal.sqrt (∑ r' : Fin 256, proj x w r' n * proj x w r' n)) := by
  have hP : ∀ (r : Fin 256) (n : Fin 2048),
      matmul dot_S256x512_S512x2048_S256x2048_1_0_0_1_n_n none (truncf .bf16 w bitsLt_bf16_f32) (k0_pay2 (F := Ideal) x) (constant S256x2048 .f32 0x00000000#32) (ix2 r n) = proj x w r n := fun r n => by
    rw [proj_at]; unfold proj
    refine Finset.sum_congr rfl fun c _ => ?_
    rw [pay2_at]; rfl
  unfold k0_pay3
  (try dsimp only)
  rw [add3]
  show (matmul dot_S256x512_S512x2048_S256x2048_1_0_0_1_n_n none (truncf .bf16 w bitsLt_bf16_f32) (k0_pay2 (F := Ideal) x) (constant S256x2048 .f32 0x00000000#32) (ix2 r n))
      * broadcastTo S256x2048 _ broadcasts_S1x2048_S256x2048 (ix2 r n) = _
  rw [hP, spreadRow _ _ (by decide)]
  refine congrArg _ ?_
  show Ideal.div _ (Ideal.sqrt (shapeCast S1x2048 _ shapeCasts_S2048_S1x2048 (ix2 0 n))) = _
  rw [row2]
  refine congrArg _ (congrArg _ ((Ideal.multiReduction_add_single _ _ _ _ _ _).trans (Finset.sum_congr rfl fun r' _ => ?_)))
  refine (congrArg (mulf _ _) (lift_col reduces_S256x2048_S2048 n r')).trans ?_
  exact congrArg₂ (· * ·) (hP r' n) (hP r' n)

theorem pay4_at' (r : Fin 256) (n : Fin 2048) :
    k0_pay4 (F := Ideal) x w (ix3 0 r n)
      = proj x w r n * Ideal.div (Ideal.ofBits .f32 0x3F800000#32) (Ideal.sqrt (∑ r' : Fin 256, proj x w r' n * proj x w r' n)) := by
  have hP : ∀ (r : Fin 256) (n : Fin 2048),
      matmul dot_S256x512_S512x2048_S256x2048_1_0_0_1_n_n none (truncf .bf16 w bitsLt_bf16_f32) (k0_pay2 (F := Ideal) x) (constant S256x2048 .f32 0x00000000#32) (ix2 r n) = proj x w r n := fun r n => by
    rw [proj_at]; unfold proj
    refine Finset.sum_congr rfl fun c _ => ?_
    rw [pay2_at]; rfl
  unfold k0_pay4
  (try dsimp only)
  rw [add3]
  show (matmul dot_S256x512_S512x2048_S256x2048_1_0_0_1_n_n none (truncf .bf16 w bitsLt_bf16_f32) (k0_pay2 (F := Ideal) x) (constant S256x2048 .f32 0x00000000#32) (ix2 r n))
      * broadcastTo S256x2048 _ broadcasts_S1x2048_S256x2048 (ix2 r n) = _
  rw [hP, spreadRow _ _ (by decide)]
  refine congrArg _ ?_
  show Ideal.div _ (Ideal.sqrt (shapeCast S1x2048 _ shapeCasts_S2048_S1x2048 (ix2 0 n))) = _
  rw [row2]
  refine congrArg _ (congrArg _ ((Ideal.multiReduction_add_single _ _ _ _ _ _).trans (Finset.sum_congr rfl fun r' _ => ?_)))
  refine (congrArg (mulf _ _) (lift_col reduces_S256x2048_S2048 n r')).trans ?_
  exact congrArg₂ (· * ·) (hP r' n) (hP r' n)

/-- The third output is the feature block itself. -/
theorem pay1_at' (c : Fin 512) (n : Fin 2048) : k0_pay1 (F := Ideal) (k0_pay2 (F := Ideal) x) (ix3 0 c n) = x (ix3 0 c n) := by
  unfold k0_pay1; (try dsimp only)
  rw [add3, pay2_at]

end Pay

/-! ## The three outputs of a point, as those payloads -/

theorem outφ_eq (x : Vec Ideal S1x512x2048 .f32) (w : Vec Ideal S256x512 .f32) : Proj.outφ (F := Ideal) x w = k0_pay3 (F := Ideal) x w := by
  unfold Proj.outφ
  rw [View.canon_unit_zero Attn.hz3]
  simp only [View.ld_unit_zero (S := S1x512x2048) Attn.hz3, View.ld_unit_zero (S := S256x512) Attn.hz2]
theorem outθ_eq (x : Vec Ideal S1x512x2048 .f32) (w : Vec Ideal S256x512 .f32) : Proj.outθ (F := Ideal) x w = k0_pay4 (F := Ideal) x w := by
  unfold Proj.outθ
  rw [View.canon_unit_zero Attn.hz3]
  simp only [View.ld_unit_zero (S := S1x512x2048) Attn.hz3, View.ld_unit_zero (S := S256x512) Attn.hz2]
theorem outX_eq (x : Vec Ideal S1x512x2048 .f32) : Proj.outX (F := Ideal) x = k0_pay1 (F := Ideal) (k0_pay2 (F := Ideal) x) := by
  unfold Proj.outX
  rw [View.canon_unit_zero Attn.hz3]
  simp only [View.ld_unit_zero (S := S1x512x2048) Attn.hz3]

end Cert.KernelIdeal.Num

end
-- ==== Proof.IdealProjCover.lean ====
/-
  From the projection kernel's sixteen points to its three arrays. Point t works on batch entry t / 2 and half t mod 2
  of the 4096 positions; its blocks of the three outputs are disjoint and fill the arrays. So after the launch every
  entry (b, r, n) of the normalised-φ array is the value its point computed at (r, n mod 2048) from the feature block
  (b, half n / 2048) — and that value, the projection of column n divided by the column's norm, depends on the array
  index alone.
-/
import proofs.«137960_j66374424592665_2_alg».proof.Proof.IdealProjNum

set_option maxRecDepth 16384

noncomputable section

namespace Cert.KernelIdeal.Num

open Cert.KernelIdeal Cert.KernelIdeal.Gen Idealize.ShloMosaic Idealize.ShloMosaic.ValueIdx Idealize.ShloMosaic.TcCoe
open Idealize.ShloMosaic.Pipeline (Dat)
open scoped BigOperators

/-- Which block each window of the projection kernel is on, at each of its 16 points. -/
theorem idx0 : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = t.val % 2
    ∧ win0_4.index t (0 : Fin 3) = t.val / 2 ∧ win0_4.index t (1 : Fin 3) = 0 ∧ win0_4.index t (2 : Fin 3) = t.val % 2
    ∧ win0_5.index t (0 : Fin 3) = t.val / 2 ∧ win0_5.index t (1 : Fin 3) = 0 ∧ win0_5.index t (2 : Fin 3) = t.val % 2 :=
  (by decide +kernel : ∀ t : Fin grid0.N, _)

variable (V : (c : Dev nD) → (b : Ref sig .tc) → Buf (Elt Ideal) ((c : Thread nD τ).loc b))

/-- Position (0, ch, n') of point t's feature block is entry (t / 2, ch, (t mod 2)·2048 + n') of the feature array. -/
theorem emb_x (t : Fin cfg0.N) (ch : Fin 512) (n' : Fin 2048) :
    ((cfg0.win 0).blk t).view.emb (ix3 0 ch n')
      = ix3 ⟨t.val / 2, by have := t.isLt; have : cfg0.N = 16 := N_0; omega⟩ ch ⟨t.val % 2 * 2048 + n'.val, by have := n'.isLt; omega⟩ := by
  obtain ⟨e0, e1, e2, -⟩ := idx0 t
  funext a; apply Fin.ext
  match a with
  | ⟨0, _⟩ => show win0_0.index t (0 : Fin 3) * 1 + 1 * 0 = t.val / 2; omega
  | ⟨1, _⟩ => show win0_0.index t (1 : Fin 3) * 512 + 1 * ch.val = ch.val; omega
  | ⟨2, _⟩ => show win0_0.index t (2 : Fin 3) * 2048 + 1 * n'.val = t.val % 2 * 2048 + n'.val; omega

theorem emb_w1 (t : Fin cfg0.N) (r : Fin 256) (ch : Fin 512) :
    ((cfg0.win 1).blk t).view.emb (ix2 r ch) = ix2 r ch := by
  have hI := idx0 t
  funext a; apply Fin.ext
  match a with
  | ⟨0, _⟩ => show win0_1.index t (0 : Fin 2) * 256 + 1 * r.val = r.val; omega
  | ⟨1, _⟩ => show win0_1.index t (1 : Fin 2) * 512 + 1 * ch.val = ch.val; omega
theorem emb_w2 (t : Fin cfg0.N) (r : Fin 256) (ch : Fin 512) :
    ((cfg0.win 2).blk t).view.emb (ix2 r ch) = ix2 r ch := by
  have hI := idx0 t
  funext a; apply Fin.ext
  match a with
  | ⟨0, _⟩ => show win0_2.index t (0 : Fin 2) * 256 + 1 * r.val = r.val; omega
  | ⟨1, _⟩ => show win0_2.index t (1 : Fin 2) * 512 + 1 * ch.val = ch.val; omega
theorem emb_o3 (t : Fin cfg0.N) (r : Fin 256) (n' : Fin 2048) :
    ((cfg0.win 3).blk t).view.emb (ix3 0 r n') = ix3 ⟨t.val / 2, by have := t.isLt; have : cfg0.N = 16 := N_0; omega⟩ r ⟨t.val % 2 * 2048 + n'.val, by have := n'.isLt; omega⟩ := by
  have hI := idx0 t
  funext a; apply Fin.ext
  match a with
  | ⟨0, _⟩ => show win0_3.index t (0 : Fin 3) * 1 + 1 * 0 = t.val / 2; omega
  | ⟨1, _⟩ => show win0_3.index t (1 : Fin 3) * 256 + 1 * r.val = r.val; omega
  | ⟨2, _⟩ => show win0_3.index t (2 : Fin 3) * 2048 + 1 * n'.val = t.val % 2 * 2048 + n'.val; omega
theorem emb_o4 (t : Fin cfg0.N) (r : Fin 256) (n' : Fin 2048) :
    ((cfg0.win 4).blk t).view.emb (ix3 0 r n') = ix3 ⟨t.val / 2, by have := t.isLt; have : cfg0.N = 16 := N_0; omega⟩ r ⟨t.val % 2 * 2048 + n'.val, by have := n'.isLt; omega⟩ := by
  have hI := idx0 t
  funext a; apply Fin.ext
  match a with
  | ⟨0, _⟩ => show win0_4.index t (0 : Fin 3) * 1 + 1 * 0 = t.val / 2; omega
  | ⟨1, _⟩ => show win0_4.index t (1 : Fin 3) * 256 + 1 * r.val = r.val; omega
  | ⟨2, _⟩ => show win0_4.index t (2 : Fin 3) * 2048 + 1 * n'.val = t.val % 2 * 2048 + n'.val; omega
theorem emb_o5 (t : Fin cfg0.N) (r : Fin 512) (n' : Fin 2048) :
    ((cfg0.win 5).blk t).view.emb (ix3 0 r n') = ix3 ⟨t.val / 2, by have := t.isLt; have : cfg0.N = 16 := N_0; omega⟩ r ⟨t.val % 2 * 2048 + n'.val, by have := n'.isLt; omega⟩ := by
  have hI := idx0 t
  funext a; apply Fin.ext
  match a with
  | ⟨0, _⟩ => show win0_5.index t (0 : Fin 3) * 1 + 1 * 0 = t.val / 2; omega
  | ⟨1, _⟩ => show win0_5.index t (1 : Fin 3) * 512 + 1 * r.val = r.val; omega
  | ⟨2, _⟩ => show win0_5.index t (2 : Fin 3) * 2048 + 1 * n'.val = t.val % 2 * 2048 + n'.val; omega

/-! ## The arrays in closed form -/

/-- Feature r of column n of batch entry b, projected by W. -/
def projA (X : S8x512x4096.Idx → EReal) (W : S256x512.Idx → EReal) (b : Fin 8) (r : Fin 256) (n : Fin 4096) : EReal :=
  ∑ ch : Fin 512, W (ix2 r ch) * X (ix3 b ch n)

/-- … divided by the column's norm (multiplied by its reciprocal). -/
def normedA (X : S8x512x4096.Idx → EReal) (W : S256x512.Idx → EReal) (b : Fin 8) (r : Fin 256) (n : Fin 4096) : EReal :=
  projA X W b r n * Ideal.div (Ideal.ofBits .f32 0x3F800000#32) (Ideal.sqrt (∑ r' : Fin 256, projA X W b r' n * projA X W b r' n))

/-- The same as an array. -/
def normedArr (X : S8x512x4096.Idx → EReal) (W : S256x512.Idx → EReal) : S8x256x4096.Idx → EReal := fun i =>
  normedA X W ⟨(i 0).val, (i 0).isLt⟩ ⟨(i 1).val, (i 1).isLt⟩ ⟨(i 2).val, (i 2).isLt⟩

/-- What point t writes back into window 3's array is block t of the closed form. -/
theorem flushedφ (c : Dev nD) (t : Fin cfg0.N) :
    (Proj.dat V c).flushed 3 t
      = ((cfg0.win 3).blk t).view.read (Elt Ideal) (normedArr (V c main_v0) (V c main_arg1)) := by
  show (cfg0.win 3).cut (grid0.coords t) ((Proj.dat V c).after 3 t) = _
  rw [Proj.after_φ, outφ_eq]
  funext j
  obtain ⟨z, r, n', rfl⟩ : ∃ (z : Fin 1) (r : Fin 256) (n' : Fin 2048), j = ix3 z r n' := ⟨j 0, j 1, j 2, eq_ix3 j⟩
  obtain rfl : z = 0 := Subsingleton.elim _ _
  have hp : ∀ r : Fin 256, proj (Proj.block V c 0 t) (Proj.block V c 1 t) r n'
      = projA (V c main_v0) (V c main_arg1) ⟨t.val / 2, by have := t.isLt; have : cfg0.N = 16 := N_0; omega⟩ r ⟨t.val % 2 * 2048 + n'.val, by have := n'.isLt; omega⟩ := fun r => by
    unfold proj projA
    refine Finset.sum_congr rfl fun ch _ => ?_
    exact congrArg₂ (fun a b : EReal => a * b) (congrArg (V c main_arg1) (emb_w1 t r ch)) (congrArg (V c main_v0) (emb_x t ch n'))
  show k0_pay3 (F := Ideal) (Proj.block V c 0 t) (Proj.block V c 1 t) (ix3 0 r n')
      = normedArr (V c main_v0) (V c main_arg1) (((cfg0.win 3).blk t).view.emb (ix3 0 r n'))
  rw [pay3_at', emb_o3]
  unfold normedArr normedA
  simp only [hp]

/-- What point t writes back into window 4's array is block t of the closed form. -/
theorem flushedθ (c : Dev nD) (t : Fin cfg0.N) :
    (Proj.dat V c).flushed 4 t
      = ((cfg0.win 4).blk t).view.read (Elt Ideal) (normedArr (V c main_v0) (V c main_arg2)) := by
  show (cfg0.win 4).cut (grid0.coords t) ((Proj.dat V c).after 4 t) = _
  rw [Proj.after_θ, outθ_eq]
  funext j
  obtain ⟨z, r, n', rfl⟩ : ∃ (z : Fin 1) (r : Fin 256) (n' : Fin 2048), j = ix3 z r n' := ⟨j 0, j 1, j 2, eq_ix3 j⟩
  obtain rfl : z = 0 := Subsingleton.elim _ _
  have hp : ∀ r : Fin 256, proj (Proj.block V c 0 t) (Proj.block V c 2 t) r n'
      = projA (V c main_v0) (V c main_arg2) ⟨t.val / 2, by have := t.isLt; have : cfg0.N = 16 := N_0; omega⟩ r ⟨t.val % 2 * 2048 + n'.val, by have := n'.isLt; omega⟩ := fun r => by
    unfold proj projA
    refine Finset.sum_congr rfl fun ch _ => ?_
    exact congrArg₂ (fun a b : EReal => a * b) (congrArg (V c main_arg2) (emb_w2 t r ch)) (congrArg (V c main_v0) (emb_x t ch n'))
  show k0_pay4 (F := Ideal) (Proj.block V c 0 t) (Proj.block V c 2 t) (ix3 0 r n')
      = normedArr (V c main_v0) (V c main_arg2) (((cfg0.win 4).blk t).view.emb (ix3 0 r n'))
  rw [pay4_at', emb_o4]
  unfold normedArr normedA
  simp only [hp]

/-- The third window writes back the feature block itself. -/
theorem flushedX (c : Dev nD) (t : Fin cfg0.N) :
    (Proj.dat V c).flushed 5 t = ((cfg0.win 5).blk t).view.read (Elt Ideal) (fun i : S8x512x4096.Idx => V c main_v0 i) := by
  show (cfg0.win 5).cut (grid0.coords t) ((Proj.dat V c).after 5 t) = _
  rw [Proj.after_xn, outX_eq]
  funext j
  obtain ⟨z, ch, n', rfl⟩ : ∃ (z : Fin 1) (ch : Fin 512) (n' : Fin 2048), j = ix3 z ch n' := ⟨j 0, j 1, j 2, eq_ix3 j⟩
  obtain rfl : z = 0 := Subsingleton.elim _ _
  show k0_pay1 (F := Ideal) (k0_pay2 (F := Ideal) (Proj.block V c 0 t)) (ix3 0 ch n') = V c main_v0 (((cfg0.win 5).blk t).view.emb (ix3 0 ch n'))
  rw [pay1_at', emb_o5]
  show V c main_v0 (((cfg0.win 0).blk t).view.emb (ix3 0 ch n')) = _
  rw [emb_x]

/-- Every entry of window 3's array is in the block of the point (its batch entry, its half). -/
theorem coverφ (i : S8x256x4096.Idx) :
    ∃ t : Fin cfg0.N, (cfg0.win 3).flush t = true ∧ i ∈ ((cfg0.win 3).blk t).view.set := by
  have h0 : (i 0).val < 8 := (i 0).isLt
  have h1 : (i 1).val < 256 := (i 1).isLt
  have h2 : (i 2).val < 4096 := (i 2).isLt
  have hN : cfg0.N = 16 := N_0
  obtain ⟨t, ht⟩ : ∃ t : Fin cfg0.N, t.val = (i 0).val * 2 + (i 2).val / 2048 := ⟨⟨_, by omega⟩, rfl⟩
  refine ⟨t, flush0_3 t, ?_⟩
  have hI := idx0 t
  show i ∈ ((View.whole main_v1_0).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 2048 ≤ (i 2).val ∧ (i 2).val < win0_3.index t (2 : Fin 3) * 2048 + 2048
    omega
/-- Every entry of window 4's array is in the block of the point (its batch entry, its half). -/
theorem coverθ (i : S8x256x4096.Idx) :
    ∃ t : Fin cfg0.N, (cfg0.win 4).flush t = true ∧ i ∈ ((cfg0.win 4).blk t).view.set := by
  have h0 : (i 0).val < 8 := (i 0).isLt
  have h1 : (i 1).val < 256 := (i 1).isLt
  have h2 : (i 2).val < 4096 := (i 2).isLt
  have hN : cfg0.N = 16 := N_0
  obtain ⟨t, ht⟩ : ∃ t : Fin cfg0.N, t.val = (i 0).val * 2 + (i 2).val / 2048 := ⟨⟨_, by omega⟩, rfl⟩
  refine ⟨t, flush0_4 t, ?_⟩
  have hI := idx0 t
  show i ∈ ((View.whole main_v1_1).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 2048 ≤ (i 2).val ∧ (i 2).val < win0_4.index t (2 : Fin 3) * 2048 + 2048
    omega
/-- Every entry of window 5's array is in the block of the point (its batch entry, its half). -/
theorem coverX (i : S8x512x4096.Idx) :
    ∃ t : Fin cfg0.N, (cfg0.win 5).flush t = true ∧ i ∈ ((cfg0.win 5).blk t).view.set := by
  have h0 : (i 0).val < 8 := (i 0).isLt
  have h1 : (i 1).val < 512 := (i 1).isLt
  have h2 : (i 2).val < 4096 := (i 2).isLt
  have hN : cfg0.N = 16 := N_0
  obtain ⟨t, ht⟩ : ∃ t : Fin cfg0.N, t.val = (i 0).val * 2 + (i 2).val / 2048 := ⟨⟨_, by omega⟩, rfl⟩
  refine ⟨t, flush0_5 t, ?_⟩
  have hI := idx0 t
  show i ∈ ((View.whole main_v1_2).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 2048 ≤ (i 2).val ∧ (i 2).val < win0_5.index t (2 : Fin 3) * 2048 + 2048
    omega

/-- After the launch: the normalised φ array, the normalised θ array, the feature array. -/
theorem finalφ (c : Dev nD) : (Proj.dat V c).arrAt 3 cfg0.N = normedArr (V c main_v0) (V c main_arg1) :=
  (Proj.dat V c).arrAt_eq_of_cover 3 _ (fun t _ => flushedφ V c t) coverφ
theorem finalθ (c : Dev nD) : (Proj.dat V c).arrAt 4 cfg0.N = normedArr (V c main_v0) (V c main_arg2) :=
  (Proj.dat V c).arrAt_eq_of_cover 4 _ (fun t _ => flushedθ V c t) coverθ
theorem finalX (c : Dev nD) : (Proj.dat V c).arrAt 5 cfg0.N = (fun i : S8x512x4096.Idx => V c main_v0 i) :=
  (Proj.dat V c).arrAt_eq_of_cover 5 _ (fun t _ => flushedX V c t) coverX

end Cert.KernelIdeal.Num

end
-- ==== Proof.IdealRun.lean ====
/-
  The program's run with its result named: the same four items as for the frame, but the last thread state — every
  unscoped buffer at the contents after the final reshape — is read back at the result buffer too, not only at the
  arguments. So every run ends with the result holding the final reshape of what the attention kernel's launch left.
-/
import proofs.«137960_j66374424592665_2_alg».proof.Proof.IdealWhole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the four arguments as launched. -/
theorem run_named : θ_run defs (onTc (τ := τ) (main (F := F))) ⟨m, fun _ => 0, ρ⟩ (fun r => ∀ c : Dev nD,
      r.2.mem ((c.tc : Thread nD τ).loc main_v3) = Gen.V4 m (outs m) c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱₀ L lv m ρ main
    (Gen.segs m (outs m) 𝒱₀ L lv (fun _ c => R c) () (pdats m) (reg0 m) (reg1 m))
    (fun c Q => by
      rewrite [main_chain c, Seg.run_eq_chain,
        show (Gen.segs m (outs m) 𝒱₀ L lv (fun _ c => R c) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, (by
        show iprop(StableHlo.held (c : Thread nD τ) (Pipeline.ucRefs τ sig) (Gen.V2 m (outs m) c) ∗ R c)
          ⊢ iprop(StableHlo.held (c : Thread nD τ) (Pipeline.ucRefs τ sig) (Gen.V2 m (outs0 m) c) ∗ R c)
        rw [V2_outs m c]), .rfl,
      sep_mono .rfl (by iintro ⟨-, HO⟩; iexact HO)⟩)
    (hinit := ?_) (QY := fun c s => s.mem ((c.tc : Thread nD τ).loc main_v3) = Gen.V4 m (outs m) c main_v3
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch, core by core: the unscoped buffers are held at the launch contents; the rest gives the register and the dues
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last contents
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c)⟩
    · iexact HSI

end Cert.KernelIdeal.Whole

end
-- ==== Proof.IdealValue1.lean ====
/-
  The kernel's result, entry by entry, I: which array entries a point's blocks are. The feature array the kernels see
  is the argument reshaped (position n = 64·h + w); a query block of point t is rows (t/8 mod 2)·2048 … of the normalised
  φ array of batch entry t/16, a key block columns (t mod 8)·512 … of the normalised θ array, a value block the same
  columns of the feature array, and the output weights the whole matrix.
-/
import proofs.«137960_j66374424592665_2_alg».proof.Proof.IdealAttnCover
import proofs.«137960_j66374424592665_2_alg».proof.Proof.IdealProjCover
import proofs.«137960_j66374424592665_2_alg».proof.Proof.IdealRun
import proofs.«137960_j66374424592665_2_alg».proof.Proof.Spec
import Idealize.ShloMosaic.Lib.StableHlo.Run

set_option maxRecDepth 16384

noncomputable section

namespace Cert.KernelIdeal.Num

open Cert.KernelIdeal Cert.KernelIdeal.Gen Idealize.ShloMosaic Idealize.ShloMosaic.ValueIdx Idealize.ShloMosaic.TcCoe
open Cert.KernelIdeal.Whole
open scoped BigOperators

variable (m : (ℓ : Loc nD τ sig) → Buf (Elt Ideal) ℓ)

/-- The feature array as the kernels find it: the argument, reshaped. -/
theorem feat_eq (c : Dev nD) :
    (Gen.V1 m c main_v0 : S8x512x4096.Idx → EReal)
      = shapeCast S8x512x4096 (m ((c : Thread nD τ).loc main_arg0)) shapeCasts_S8x512x64x64_S8x512x4096 := by
  dsimp only [Gen.V1, Gen.hostOps0]
  after_results
  rfl

/-- … so its entry (b, ch, n) is the argument's entry (b, ch, n / 64, n mod 64). -/
theorem feat_at (c : Dev nD) (b : Fin 8) (ch : Fin 512) (n : Fin 4096) :
    (Gen.V1 m c main_v0 : S8x512x4096.Idx → EReal) (ix3 b ch n)
      = (m ((c : Thread nD τ).loc main_arg0) : S8x512x64x64.Idx → EReal)
          (ix4 b ch ⟨n.val / 64, by have := n.isLt; omega⟩ ⟨n.val % 64, Nat.mod_lt _ (by decide)⟩) := by
  rw [feat_eq]
  refine shapeCast_apply _ _ _ _ ?_
  show (S8x512x64x64.rowMajor (ix4 b ch ⟨n.val / 64, _⟩ ⟨n.val % 64, _⟩)).val = (S8x512x4096.rowMajor (ix3 b ch n)).val
  rw [Shape.rowMajor_val_four, Shape.rowMajor_val_three]
  show ((b.val * 512 + ch.val) * 64 + n.val / 64) * 64 + n.val % 64 = (b.val * 512 + ch.val) * 4096 + n.val
  omega

/-- The weights are not touched before the kernels. -/
theorem wφ_eq (c : Dev nD) : Gen.V1 m c main_arg1 = m ((c : Thread nD τ).loc main_arg1) := Gen.V1_of m c main_arg1 (by decide)
theorem wθ_eq (c : Dev nD) : Gen.V1 m c main_arg2 = m ((c : Thread nD τ).loc main_arg2) := Gen.V1_of m c main_arg2 (by decide)
theorem wo_eq (c : Dev nD) : Gen.V2 m (outs0 m) c main_arg3 = m ((c : Thread nD τ).loc main_arg3) :=
  (Gen.V2_of m (outs0 m) c main_arg3 (by decide)).trans (Gen.V1_of m c main_arg3 (by decide))

/-! ## The arrays the attention kernel reads -/

theorem arrφ (c : Dev nD) : (E2 m c main_v1_0 : S8x256x4096.Idx → EReal) = normedArr (Gen.V1 m c main_v0) (Gen.V1 m c main_arg1) :=
  ((congrFun (V2_outs m c) _).symm.trans (V2_at_0 m c)).trans (finalφ (E1 m) c)
theorem arrθ (c : Dev nD) : (E2 m c main_v1_1 : S8x256x4096.Idx → EReal) = normedArr (Gen.V1 m c main_v0) (Gen.V1 m c main_arg2) :=
  ((congrFun (V2_outs m c) _).symm.trans (V2_at_1 m c)).trans (finalθ (E1 m) c)
theorem arrX (c : Dev nD) : (E2 m c main_v1_2 : S8x512x4096.Idx → EReal) = (fun i : S8x512x4096.Idx => Gen.V1 m c main_v0 i) :=
  ((congrFun (V2_outs m c) _).symm.trans (V2_at_2 m c)).trans (finalX (E1 m) c)

/-! ## A point's blocks -/

/-- Row n' of a point's query block is column n of the normalised φ array of its batch entry. -/
theorem q_at (c : Dev nD) (t : Fin cfg1.N) (b : Fin 8) (i : Fin 256) (n' : Fin 2048) (n : Fin 4096)
    (hb : t.val / 16 = b.val) (hn : (t.val / 8 % 2) * 2048 + n'.val = n.val) :
    Attn.block (E2 m) c 0 t (ix3 0 i n') = normedA (Gen.V1 m c main_v0) (Gen.V1 m c main_arg1) b i n := by
  refine (congrArg (E2 m c main_v1_0 : S8x256x4096.Idx → EReal) (emb_q t i n')).trans ((congrFun (arrφ m c) _).trans ?_)
  unfold normedArr
  have eb : (⟨t.val / 16, by have := t.isLt; have : cfg1.N = 128 := N_1; omega⟩ : Fin 8) = b := Fin.ext hb
  have en : (⟨(t.val / 8 % 2) * 2048 + n'.val, by have := n'.isLt; omega⟩ : Fin 4096) = n := Fin.ext hn
  show normedA _ _ ⟨t.val / 16, _⟩ i ⟨(t.val / 8 % 2) * 2048 + n'.val, _⟩ = _
  rw [eb, en]

/-- Column j of a point's key block is column mm of the normalised θ array. -/
theorem k_at (c : Dev nD) (t : Fin cfg1.N) (b : Fin 8) (i : Fin 256) (j : Fin 512) (mm : Fin 4096)
    (hb : t.val / 16 = b.val) (hm : (t.val % 8) * 512 + j.val = mm.val) :
    Attn.block (E2 m) c 1 t (ix3 0 i j) = normedA (Gen.V1 m c main_v0) (Gen.V1 m c main_arg2) b i mm := by
  refine (congrArg (E2 m c main_v1_1 : S8x256x4096.Idx → EReal) (emb_k t i j)).trans ((congrFun (arrθ m c) _).trans ?_)
  unfold normedArr
  have eb : (⟨t.val / 16, by have := t.isLt; have : cfg1.N = 128 := N_1; omega⟩ : Fin 8) = b := Fin.ext hb
  have em : (⟨(t.val % 8) * 512 + j.val, by have := j.isLt; omega⟩ : Fin 4096) = mm := Fin.ext hm
  show normedA _ _ ⟨t.val / 16, _⟩ i ⟨(t.val % 8) * 512 + j.val, _⟩ = _
  rw [eb, em]

/-- Column j of a point's value block is column mm of the feature array. -/
theorem v_at (c : Dev nD) (t : Fin cfg1.N) (b : Fin 8) (ch : Fin 512) (j : Fin 512) (mm : Fin 4096)
    (hb : t.val / 16 = b.val) (hm : (t.val % 8) * 512 + j.val = mm.val) :
    Attn.block (E2 m) c 2 t (ix3 0 ch j) = (Gen.V1 m c main_v0 : S8x512x4096.Idx → EReal) (ix3 b ch mm) := by
  refine (congrArg (E2 m c main_v1_2 : S8x512x4096.Idx → EReal) (emb_v t ch j)).trans ((congrFun (arrX m c) _).trans ?_)
  have eb : (⟨t.val / 16, by have := t.isLt; have : cfg1.N = 128 := N_1; omega⟩ : Fin 8) = b := Fin.ext hb
  have em : (⟨(t.val % 8) * 512 + j.val, by have := j.isLt; omega⟩ : Fin 4096) = mm := Fin.ext hm
  show (Gen.V1 m c main_v0 : S8x512x4096.Idx → EReal) (ix3 ⟨t.val / 16, _⟩ ch ⟨(t.val % 8) * 512 + j.val, _⟩) = _
  rw [eb, em]

/-- The output weights' block is the whole matrix. -/
theorem w_at (c : Dev nD) (t : Fin cfg1.N) (ch d : Fin 512) :
    Attn.block (E2 m) c 3 t (ix2 ch d) = (m ((c : Thread nD τ).loc main_arg3) : S512x512.Idx → EReal) (ix2 ch d) := by
  refine (congrArg (E2 m c main_arg3 : S512x512.Idx → EReal) (emb_wo t ch d)).trans ?_
  exact congrFun (wo_eq m c) _

end Cert.KernelIdeal.Num

end
-- ==== Proof.IdealValue2.lean ====
/-
  The kernel's result, entry by entry, II: the arrays as real numbers. When every input entry is a real and every
  column norm is positive, a projection entry is the real P, a normalised entry is P times the reciprocal of the real
  norm N, and the sum over the 256 features of a normalised query column against a normalised key column is the real
  cosine S — normalising the factors first or dividing the product afterwards is the same off zero norms.
-/
import proofs.«137960_j66374424592665_2_alg».proof.Proof.IdealProjCover
import proofs.«137960_j66374424592665_2_alg».proof.Proof.IdealAttnStep
import proofs.«137960_j66374424592665_2_alg».proof.Proof.Spec

set_option maxRecDepth 16384

noncomputable section

namespace Cert.KernelIdeal.Num

open Idealize.ShloMosaic Idealize.ShloMosaic.ValueIdx Cert.Lib.OnlineSoftmax
open scoped BigOperators

section Real
variable (X0 : S8x512x4096.Idx → EReal) (x : Fin 8 → Fin 512 → Fin 4096 → ℝ)
variable (hX0 : ∀ b ch n, X0 (ix3 b ch n) = ((x b ch n : ℝ) : EReal))
include hX0

theorem projA_real (W : S256x512.Idx → EReal) (w : Fin 256 → Fin 512 → ℝ) (hW : ∀ i c, W (ix2 i c) = ((w i c : ℝ) : EReal))
    (b : Fin 8) (r : Fin 256) (n : Fin 4096) : projA X0 W b r n = ((Cert.Spec.P x w b r n : ℝ) : EReal) := by
  unfold projA Cert.Spec.P
  rw [coe_sum]
  refine Finset.sum_congr rfl fun ch _ => ?_
  rw [hW, hX0, ← EReal.coe_mul]

theorem sqrt_real {s : ℝ} (hs : 0 ≤ s) : Ideal.sqrt (s : EReal) = ((Real.sqrt s : ℝ) : EReal) := by
  rw [Ideal.sqrt_coe, if_neg (not_lt.mpr hs)]

/-- A normalised entry: the projection times the reciprocal of its column's norm. -/
theorem normedA_real (W : S256x512.Idx → EReal) (w : Fin 256 → Fin 512 → ℝ) (hW : ∀ i c, W (ix2 i c) = ((w i c : ℝ) : EReal))
    (b : Fin 8) (r : Fin 256) (n : Fin 4096) :
    normedA X0 W b r n = ((Cert.Spec.P x w b r n : ℝ) : EReal) * Ideal.div 1 ((Cert.Spec.N x w b n : ℝ) : EReal) := by
  unfold normedA
  have hs : (∑ r' : Fin 256, projA X0 W b r' n * projA X0 W b r' n)
      = ((∑ r' : Fin 256, Cert.Spec.P x w b r' n * Cert.Spec.P x w b r' n : ℝ) : EReal) := by
    rw [coe_sum]
    refine Finset.sum_congr rfl fun r' _ => ?_
    rw [projA_real X0 x hX0 W w hW, ← EReal.coe_mul]
  rw [projA_real X0 x hX0 W w hW, hs, sqrt_real X0 x hX0 (Finset.sum_nonneg fun r' _ => mul_self_nonneg _), one_f32, EReal.coe_one]
  rfl

/-- The cosine: normalised query column n against normalised key column m. -/
theorem cos_real (Wφ Wθ : S256x512.Idx → EReal) (wφ wθ : Fin 256 → Fin 512 → ℝ)
    (hφ : ∀ i c, Wφ (ix2 i c) = ((wφ i c : ℝ) : EReal)) (hθ : ∀ i c, Wθ (ix2 i c) = ((wθ i c : ℝ) : EReal))
    (b : Fin 8) (n mm : Fin 4096) (hNφ : 0 < Cert.Spec.N x wφ b n) (hNθ : 0 < Cert.Spec.N x wθ b mm) :
    (∑ i : Fin 256, normedA X0 Wφ b i n * normedA X0 Wθ b i mm) = ((Cert.Spec.S x wφ wθ b n mm : ℝ) : EReal) := by
  have e : (∑ i : Fin 256, normedA X0 Wφ b i n * normedA X0 Wθ b i mm)
      = ∑ i : Fin 256, (((Cert.Spec.P x wφ b i n : ℝ) : EReal) * Ideal.div 1 ((Cert.Spec.N x wφ b n : ℝ) : EReal))
          * (((Cert.Spec.P x wθ b i mm : ℝ) : EReal) * Ideal.div 1 ((Cert.Spec.N x wθ b mm : ℝ) : EReal)) :=
    Finset.sum_congr rfl fun i _ => by rw [normedA_real X0 x hX0 Wφ wφ hφ, normedA_real X0 x hX0 Wθ wθ hθ]
  rw [e, normalized_dot Finset.univ (fun i => Cert.Spec.P x wφ b i n) (fun i => Cert.Spec.P x wθ b i mm) hNφ.ne' hNθ.ne',
    ← EReal.coe_mul, div_coe_coe _ (mul_ne_zero hNφ.ne' hNθ.ne')]
  rfl

end Real

end Cert.KernelIdeal.Num

end
-- ==== Proof.IdealValue3.lean ====
/-
  The kernel's result, entry by entry, III. Entry (b, d, h, w) of the result is, through the final reshape, entry
  (b, d, n) of the attention kernel's output array with n = 64·h + w; that was stored by the last key block of
  (batch entry b, query half n / 2048) at row n mod 2048, as the epilogue of a scratch state which — eight key blocks
  from the reset — is the accumulation of the row's 4096 cosines and values; so it is numerator over denominator, the
  softmax average O, projected by the output weights and clipped at zero: G.
-/
import proofs.«137960_j66374424592665_2_alg».proof.Proof.IdealValue1
import proofs.«137960_j66374424592665_2_alg».proof.Proof.IdealValue2

set_option maxRecDepth 16384

noncomputable section

namespace Cert.KernelIdeal.Num

open Cert.KernelIdeal Cert.KernelIdeal.Gen Idealize.ShloMosaic Idealize.ShloMosaic.ValueIdx Idealize.ShloMosaic.TcCoe
open Cert.KernelIdeal.Whole Cert.Lib.OnlineSoftmax
open scoped BigOperators

/-- Key j of block ki, as a position among the 4096. -/
def key (ki : ℕ) (j : Fin 512) : Fin 4096 := ⟨(512 * ki + j.val) % 4096, Nat.mod_lt _ (by decide)⟩

theorem key_val (ki : ℕ) (hk : ki < 8) (j : Fin 512) : (key ki j).val = ki * 512 + j.val := by
  have := j.isLt
  show (512 * ki + j.val) % 4096 = ki * 512 + j.val
  omega

/-- Eight blocks of 512 keys are the 4096 keys. -/
theorem sum_blocks (g : Fin 4096 → ℝ) :
    (∑ ki ∈ Finset.range 8, ∑ j : Fin 512, g (key ki j)) = ∑ mm : Fin 4096, g mm := by
  rw [Finset.sum_range (fun ki => ∑ j : Fin 512, g (key ki j))]
  have e := (Equiv.sum_comp (finProdFinEquiv : Fin 8 × Fin 512 ≃ Fin (8 * 512)) (fun mm : Fin (8 * 512) => g mm)).symm
  rw [Fintype.sum_prod_type] at e
  refine Eq.trans ?_ e.symm
  refine Finset.sum_congr rfl fun i _ => Finset.sum_congr rfl fun j _ => ?_
  refine congrArg g (Fin.ext ?_)
  have hi := i.isLt
  have hj := j.isLt
  show (512 * i.val + j.val) % 4096 = j.val + 512 * i.val
  omega

/-! ## The result -/

section Result
variable (m : (ℓ : Loc nD τ sig) → Buf (Elt Ideal) ℓ) (c : Dev nD)
variable (x : Fin 8 → Fin 512 → Fin 4096 → ℝ) (wφ wθ : Fin 256 → Fin 512 → ℝ) (wo : Fin 512 → Fin 512 → ℝ)
variable (hX : ∀ b ch h w, (m ((c : Thread nD τ).loc main_arg0) : S8x512x64x64.Idx → EReal) (ix4 b ch h w) = ((x b ch (Cert.Spec.pos h w) : ℝ) : EReal))
variable (hφ : ∀ i c', (m ((c : Thread nD τ).loc main_arg1) : S256x512.Idx → EReal) (ix2 i c') = ((wφ i c' : ℝ) : EReal))
variable (hθ : ∀ i c', (m ((c : Thread nD τ).loc main_arg2) : S256x512.Idx → EReal) (ix2 i c') = ((wθ i c' : ℝ) : EReal))
variable (ho : ∀ ch d, (m ((c : Thread nD τ).loc main_arg3) : S512x512.Idx → EReal) (ix2 ch d) = ((wo ch d : ℝ) : EReal))
variable (hNφ : ∀ b n, 0 < Cert.Spec.N x wφ b n) (hNθ : ∀ b n, 0 < Cert.Spec.N x wθ b n)

include hX in
/-- The feature array's entries are the reals x. -/
theorem feat_real (b : Fin 8) (ch : Fin 512) (n : Fin 4096) :
    (Gen.V1 m c main_v0 : S8x512x4096.Idx → EReal) (ix3 b ch n) = ((x b ch n : ℝ) : EReal) := by
  rw [feat_at, hX]
  refine congrArg (fun k => ((x b ch k : ℝ) : EReal)) (Fin.ext ?_)
  show 64 * (n.val / 64) + n.val % 64 = n.val
  omega

include hX hφ hθ hNφ hNθ in
/-- One query row's cosines against one key block are the reals S; their maximum is a real; the block's values are the
    reals x. -/
theorem block_facts (b : Fin 8) (n : Fin 4096) (ch : Fin 512) (ki : ℕ) (hk : ki < 8)
    (h : (b.val * 2 + n.val / 2048) * 8 + ki < cfg1.N) :
    (∀ j, cosv (Attn.block (E2 m) c 0 ⟨(b.val * 2 + n.val / 2048) * 8 + ki, h⟩) (Attn.block (E2 m) c 1 ⟨(b.val * 2 + n.val / 2048) * 8 + ki, h⟩)
        ⟨n.val % 2048, Nat.mod_lt _ (by decide)⟩ j = ((Cert.Spec.S x wφ wθ b n (key ki j) : ℝ) : EReal))
    ∧ (∀ j, Attn.block (E2 m) c 2 ⟨(b.val * 2 + n.val / 2048) * 8 + ki, h⟩ (ix3 0 ch j) = ((x b ch (key ki j) : ℝ) : EReal)) := by
  have hb := b.isLt
  have hn := n.isLt
  have hφ' : ∀ i c', (Gen.V1 m c main_arg1 : S256x512.Idx → EReal) (ix2 i c') = ((wφ i c' : ℝ) : EReal) := fun i c' => by rw [wφ_eq]; exact hφ i c'
  have hθ' : ∀ i c', (Gen.V1 m c main_arg2 : S256x512.Idx → EReal) (ix2 i c') = ((wθ i c' : ℝ) : EReal) := fun i c' => by rw [wθ_eq]; exact hθ i c'
  have e16 : ((b.val * 2 + n.val / 2048) * 8 + ki) / 16 = b.val := by omega
  have e8 : (((b.val * 2 + n.val / 2048) * 8 + ki) / 8 % 2) * 2048 + n.val % 2048 = n.val := by omega
  refine ⟨fun j => ?_, fun j => ?_⟩
  · have ek : (((b.val * 2 + n.val / 2048) * 8 + ki) % 8) * 512 + j.val = (key ki j).val := by rw [key_val ki hk]; have := j.isLt; omega
    unfold cosv
    refine (Finset.sum_congr rfl fun i _ => ?_).trans
      (cos_real (Gen.V1 m c main_v0) x (feat_real m c x hX) (Gen.V1 m c main_arg1) (Gen.V1 m c main_arg2) wφ wθ hφ' hθ' b n (key ki j) (hNφ b n) (hNθ b (key ki j)))
    rw [q_at m c ⟨(b.val * 2 + n.val / 2048) * 8 + ki, h⟩ b i ⟨n.val % 2048, Nat.mod_lt _ (by decide)⟩ n e16 e8, k_at m c ⟨(b.val * 2 + n.val / 2048) * 8 + ki, h⟩ b i j (key ki j) e16 ek]
  · have ek : (((b.val * 2 + n.val / 2048) * 8 + ki) % 8) * 512 + j.val = (key ki j).val := by rw [key_val ki hk]; have := j.isLt; omega
    rw [v_at m c ⟨(b.val * 2 + n.val / 2048) * 8 + ki, h⟩ b ch j (key ki j) e16 ek]
    exact feat_real m c x hX b ch (key ki j)

end Result

section Result2
variable (m : (ℓ : Loc nD τ sig) → Buf (Elt Ideal) ℓ) (c : Dev nD)
variable (x : Fin 8 → Fin 512 → Fin 4096 → ℝ) (wφ wθ : Fin 256 → Fin 512 → ℝ) (wo : Fin 512 → Fin 512 → ℝ)
variable (hX : ∀ b ch h w, (m ((c : Thread nD τ).loc main_arg0) : S8x512x64x64.Idx → EReal) (ix4 b ch h w) = ((x b ch (Cert.Spec.pos h w) : ℝ) : EReal))
variable (hφ : ∀ i c', (m ((c : Thread nD τ).loc main_arg1) : S256x512.Idx → EReal) (ix2 i c') = ((wφ i c' : ℝ) : EReal))
variable (hθ : ∀ i c', (m ((c : Thread nD τ).loc main_arg2) : S256x512.Idx → EReal) (ix2 i c') = ((wθ i c' : ℝ) : EReal))
variable (ho : ∀ ch d, (m ((c : Thread nD τ).loc main_arg3) : S512x512.Idx → EReal) (ix2 ch d) = ((wo ch d : ℝ) : EReal))
variable (hNφ : ∀ b n, 0 < Cert.Spec.N x wφ b n) (hNθ : ∀ b n, 0 < Cert.Spec.N x wθ b n)

include hX hφ hθ hNφ hNθ in
/-- After the eighth key block, numerator times the reciprocal of the denominator is the softmax average O. -/
theorem quotient_at (b : Fin 8) (n : Fin 4096) (ch : Fin 512) (h7 : (b.val * 2 + n.val / 2048) * 8 + 7 < cfg1.N) :
    (Attn.stateAt (E2 m) c ((b.val * 2 + n.val / 2048) * 8 + 7) h7).2.2 (ix2 ⟨n.val % 2048, Nat.mod_lt _ (by decide)⟩ ch)
        * Ideal.div (Ideal.ofBits .f32 0x3F800000#32)
            ((Attn.stateAt (E2 m) c ((b.val * 2 + n.val / 2048) * 8 + 7) h7).2.1 (ix2 ⟨n.val % 2048, Nat.mod_lt _ (by decide)⟩ 0))
      = ((Cert.Spec.O x wφ wθ b n ch : ℝ) : EReal) := by
  have hb := b.isLt
  have hn := n.isLt
  let xs : ℕ → Fin 512 → ℝ := fun ki j => Cert.Spec.S x wφ wθ b n (key ki j)
  let fs : ℕ → Fin 512 → ℝ := fun ki j => x b ch (key ki j)
  let rk : ℕ → ℝ := fun ki => Classical.choose (fold_max_real (xs ki) Finset.univ Finset.univ_nonempty)
  have hrk : ∀ ki, (Finset.univ : Finset (Fin 512)).fold max (⊥ : EReal) (fun j => (xs ki j : EReal)) = (rk ki : EReal) :=
    fun ki => Classical.choose_spec (fold_max_real (xs ki) Finset.univ Finset.univ_nonempty)
  have hrun := state_run (E2 m) c ((b.val * 2 + n.val / 2048) * 8) (by omega) ⟨n.val % 2048, Nat.mod_lt _ (by decide)⟩ ch xs fs rk
    (fun ki h hk => (block_facts m c x wφ wθ hX hφ hθ hNφ hNθ b n ch ki hk h).1)
    (fun ki h hk => by
      unfold rowmax
      rw [funext (block_facts m c x wφ wθ hX hφ hθ hNφ hNθ b n ch ki hk h).1, neginf_f32]
      exact hrk ki)
    (fun ki h hk => (block_facts m c x wφ wθ hX hφ hθ hNφ hNθ b n ch ki hk h).2)
    7 h7 (by decide)
  have hL := congrArg (fun p : EReal × EReal × EReal => p.2.1) hrun
  have hA := congrArg (fun p : EReal × EReal × EReal => p.2.2) hrun
  dsimp only at hL hA
  rw [hA, hL, one_f32, EReal.coe_one, run_quotient rk xs fs 7]
  refine congrArg (fun r : ℝ => (r : EReal)) ?_
  unfold Cert.Spec.O
  rw [sum_blocks (fun mm => Real.exp (Cert.Spec.S x wφ wθ b n mm) * x b ch mm), sum_blocks (fun mm => Real.exp (Cert.Spec.S x wφ wθ b n mm))]

include hX hφ hθ ho hNφ hNθ in
/-- THE KERNEL'S RESULT: entry (b, d, h, w) is G at position 64·h + w. -/
theorem kernel_at (b : Fin 8) (d : Fin 512) (h w : Fin 64) :
    (Gen.V4 m (outs m) c main_v3 : S8x512x64x64.Idx → EReal) (ix4 b d h w)
      = ((Cert.Spec.G x wφ wθ wo b d (Cert.Spec.pos h w) : ℝ) : EReal) := by
  have hb := b.isLt
  have hnlt := (Cert.Spec.pos h w).isLt
  have hN : cfg1.N = 128 := N_1
  have eA : (Gen.V4 m (outs m) c main_v3 : S8x512x64x64.Idx → EReal)
      = shapeCast S8x512x64x64 (Gen.V3 m (outs m) c main_v2 : S8x512x4096.Idx → EReal) shapeCasts_S8x512x4096_S8x512x64x64 := by
    dsimp only [Gen.V4, Gen.hostOps2]
    after_results
    rfl
  have eA' : (Gen.V4 m (outs m) c main_v3 : S8x512x64x64.Idx → EReal) (ix4 b d h w)
      = (Gen.V3 m (outs m) c main_v2 : S8x512x4096.Idx → EReal) (ix3 b d (Cert.Spec.pos h w)) := by
    rw [eA]
    refine shapeCast_apply _ _ _ _ ?_
    show (S8x512x4096.rowMajor (ix3 b d (Cert.Spec.pos h w))).val = (S8x512x64x64.rowMajor (ix4 b d h w)).val
    rw [Shape.rowMajor_val_three, Shape.rowMajor_val_four]
    show (b.val * 512 + d.val) * 4096 + (64 * h.val + w.val) = ((b.val * 512 + d.val) * 64 + h.val) * 64 + w.val
    have := h.isLt; have := w.isLt
    omega
  have eB : (Gen.V3 m (outs m) c main_v2 : S8x512x4096.Idx → EReal) = outArr (E2 m) c := (V3_at m c).trans (finalOut (E2 m) c)
  have h7 : (b.val * 2 + (Cert.Spec.pos h w).val / 2048) * 8 + 7 < cfg1.N := by omega
  rw [eA', eB]
  show Attn.outAt (E2 m) c ⟨(b.val * 2 + (Cert.Spec.pos h w).val / 2048) * 8 + 7, h7⟩
      (ix3 0 d ⟨(Cert.Spec.pos h w).val % 2048, Nat.mod_lt _ (by decide)⟩) = _
  rw [Attn.outAt_last (E2 m) c ⟨_, h7⟩ (by show ((b.val * 2 + (Cert.Spec.pos h w).val / 2048) * 8 + 7) % 8 = 7; omega)]
  unfold Attn.epilogueV
  rw [pay3_at]
  refine (congrArg₂ max ((Finset.sum_congr rfl fun ch _ => ?_).trans
    (coe_sum Finset.univ (fun ch : Fin 512 => wo ch d * Cert.Spec.O x wφ wθ b (Cert.Spec.pos h w) ch)).symm) zero_f32).trans ?_
  · rw [quotient_at m c x wφ wθ hX hφ hθ hNφ hNθ b (Cert.Spec.pos h w) ch h7, w_at, ho, ← EReal.coe_mul]
  unfold Cert.Spec.G
  rw [← EReal.coe_zero]
  exact (EReal.coe_strictMono.monotone.map_max).symm

end Result2

end Cert.KernelIdeal.Num

end
-- ==== Proof.RefValue.lean ====
/-
  The reference, read at an index, is the specification.

  The reference flattens the 64 × 64 map to 4096 positions (n = 64·h + w) and transposes it, projects every position by
  the two weight matrices, divides the matrix of inner products by the outer product of the two projections' column
  norms, takes a softmax along the keys at the row's maximum as the shift, averages the values with those weights,
  projects the result and clips it at zero. Stage by stage, at explicit coordinates, each intermediate array's entry is
  the coercion of a real expression in the specification's terms: a projection P, a norm N, a cosine S, the softmax
  average O and the clipped projection G. The row maximum enters only as SOME real shift M (a fold of max from −∞ over
  4096 reals), and a softmax does not depend on its shift. Positivity of the norms makes the cosine a real quotient.
-/
import proofs.«137960_j66374424592665_2_alg».proof.Proof.Gen.ReferenceIdeal.Read
import proofs.«137960_j66374424592665_2_alg».proof.Proof.Spec
import proofs.«137960_j66374424592665_2_alg».proof.Proof.LibOnlineSoftmax
import proofs.«137960_j66374424592665_2_alg».proof.Proof.IdealAttnStep

noncomputable section

namespace Cert.ReferenceIdeal.RefValue

open Cert.ReferenceIdeal Cert.ReferenceIdeal.Gen Cert.ReferenceIdeal.Read Idealize.ShloMosaic Idealize.ShloMosaic.ValueIdx
open Cert.Lib.OnlineSoftmax
open scoped BigOperators

/-! ## Positions -/

/-- Position n of the flattened map is (n / 64, n % 64). -/
theorem pos_divmod (n : Fin 4096) :
    Cert.Spec.pos ⟨n.val / 64, by have := n.isLt; omega⟩ ⟨n.val % 64, Nat.mod_lt _ (by decide)⟩ = n :=
  Fin.ext (by show 64 * (n.val / 64) + n.val % 64 = n.val; omega)

section Stages

variable (X : (⟨S8x512x64x64, .f32⟩ : BufTy).Contents (Elt Ideal))
  (x : Fin 8 → Fin 512 → Fin 4096 → ℝ)
  (hX : ∀ b c h w, X (ix4 b c h w) = ((x b c (Cert.Spec.pos h w) : ℝ) : EReal))
include hX

/-! ## The features -/

/-- The flattened, transposed feature map at (b, n, c) is x[b, c, n]. -/
theorem feat_at (b : Fin 8) (n : Fin 4096) (c : Fin 512) :
    val_main_v1 (F := Ideal) X (ix3 b n c) = ((x b c n : ℝ) : EReal) := by
  have e1 : idx_main_v1 (ix3 b n c) = ix3 b c n := funext fun a => Fin.ext (by
    match a with
    | ⟨0, _⟩ => rfl
    | ⟨1, _⟩ => rfl
    | ⟨2, _⟩ => rfl)
  have e0 : idx_main_v0 (ix3 b c n) = ix4 b c ⟨n.val / 64, by have := n.isLt; omega⟩ ⟨n.val % 64, Nat.mod_lt _ (by decide)⟩ :=
    funext fun a => Fin.ext (by
      have hb := b.isLt; have hc := c.isLt; have hn := n.isLt
      match a with
      | ⟨0, _⟩ => show ((b.val * 512 + c.val) * 4096 + n.val) / 2097152 = b.val; omega
      | ⟨1, _⟩ => show ((b.val * 512 + c.val) * 4096 + n.val) / 4096 % 512 = c.val; omega
      | ⟨2, _⟩ => show ((b.val * 512 + c.val) * 4096 + n.val) / 64 % 64 = n.val / 64; omega
      | ⟨3, _⟩ => show ((b.val * 512 + c.val) * 4096 + n.val) % 64 = n.val % 64; omega)
  rw [val_main_v1_apply, e1, val_main_v0_apply, e0, hX, pos_divmod]

end Stages

/-- The sum of the squares of a projection's column is not negative. -/
theorem sumsq_nonneg (x : Fin 8 → Fin 512 → Fin 4096 → ℝ) (w : Fin 256 → Fin 512 → ℝ) (b : Fin 8) (n : Fin 4096) :
    0 ≤ ∑ i : Fin 256, Cert.Spec.P x w b i n * Cert.Spec.P x w b i n :=
  Finset.sum_nonneg fun i _ => mul_self_nonneg _

section Proj

variable (X : (⟨S8x512x64x64, .f32⟩ : BufTy).Contents (Elt Ideal)) (W : (⟨S256x512, .f32⟩ : BufTy).Contents (Elt Ideal))
  (x : Fin 8 → Fin 512 → Fin 4096 → ℝ) (w : Fin 256 → Fin 512 → ℝ)
  (hX : ∀ b c h w, X (ix4 b c h w) = ((x b c (Cert.Spec.pos h w) : ℝ) : EReal))
  (hW : ∀ i c, W (ix2 i c) = ((w i c : ℝ) : EReal))
include hX hW

/-! ## A projection and its column norm -/

/-- The projected features at (b, n, i) are P_w[b, i, n]. -/
theorem proj_at (b : Fin 8) (n : Fin 4096) (i : Fin 256) :
    val_main_v2 (F := Ideal) X W (ix3 b n i) = ((Cert.Spec.P x w b i n : ℝ) : EReal) := by
  rw [val_main_v2_apply]
  unfold Cert.Spec.P
  rw [coe_sum]
  refine Finset.sum_congr rfl fun k _ => ?_
  have el : lidx_main_v2 (ix3 b n i) k = ix3 b n k := funext fun a => Fin.ext (by
    match a with
    | ⟨0, _⟩ => rfl
    | ⟨1, _⟩ => rfl
    | ⟨2, _⟩ => rfl)
  have er : ridx_main_v2 (ix3 b n i) k = ix2 i k := funext fun a => Fin.ext (by
    match a with
    | ⟨0, _⟩ => rfl
    | ⟨1, _⟩ => rfl)
  rw [el, er, feat_at X x hX, hW, EReal.coe_mul, mul_comm]

/-- The column norm at (b, n, 0) is N_w[b, n]. -/
theorem norm_at (b : Fin 8) (n : Fin 4096) :
    val_main_v5 (F := Ideal) X W (ix3 b n 0) = ((Cert.Spec.N x w b n : ℝ) : EReal) := by
  have e2 : idx_main_call0_v2 (ix3 b n 0) = ix2 b n := funext fun a => Fin.ext (by
    match a with
    | ⟨0, _⟩ => rfl
    | ⟨1, _⟩ => rfl)
  have e1 : ∀ k : Fin 256, idx_main_call0_v1 (ix2 b n) k = ix3 b n k := fun k => funext fun a => Fin.ext (by
    match a with
    | ⟨0, _⟩ => rfl
    | ⟨1, _⟩ => rfl
    | ⟨2, _⟩ => rfl)
  have hs : ∑ k : Fin 256, (val_main_call0_v0 (F := Ideal) X W) (idx_main_call0_v1 (ix2 b n) k)
      = ((∑ i : Fin 256, Cert.Spec.P x w b i n * Cert.Spec.P x w b i n : ℝ) : EReal) := by
    rw [coe_sum]
    refine Finset.sum_congr rfl fun k _ => ?_
    rw [e1, val_main_call0_v0_apply, proj_at X W x w hX hW, Ideal.mulf_def, EReal.coe_mul]
  rw [val_main_v5_apply, val_main_call0_v2_apply, e2, val_main_call0_v1_apply, hs, val_main_call0_cst_apply,
    Ideal.ofBits_def, Ideal.ofBits_zero_f32, zero_add, Ideal.hostUnary_sqrt_def, Ideal.sqrt_coe,
    if_neg (not_lt.mpr (sumsq_nonneg x w b n))]
  rfl

end Proj

section Attn

variable (X : (⟨S8x512x64x64, .f32⟩ : BufTy).Contents (Elt Ideal)) (Wφ Wθ : (⟨S256x512, .f32⟩ : BufTy).Contents (Elt Ideal))
  (x : Fin 8 → Fin 512 → Fin 4096 → ℝ) (wφ wθ : Fin 256 → Fin 512 → ℝ)
  (hX : ∀ b c h w, X (ix4 b c h w) = ((x b c (Cert.Spec.pos h w) : ℝ) : EReal))
  (hφ : ∀ i c, Wφ (ix2 i c) = ((wφ i c : ℝ) : EReal)) (hθ : ∀ i c, Wθ (ix2 i c) = ((wθ i c : ℝ) : EReal))
  (hNφ : ∀ b n, 0 < Cert.Spec.N x wφ b n) (hNθ : ∀ b n, 0 < Cert.Spec.N x wθ b n)
include hX hφ hθ hNφ hNθ

/-! ## The cosines -/

/-- The matrix of inner products divided by the norms' outer product, at (b, n, m), is S[b, n, m]. -/
theorem cos_at (b : Fin 8) (n m : Fin 4096) :
    val_main_v11 (F := Ideal) X Wφ Wθ (ix3 b n m) = ((Cert.Spec.S x wφ wθ b n m : ℝ) : EReal) := by
  have el : ∀ k : Fin 256, lidx_main_v4 (ix3 b n m) k = ix3 b n k := fun k => funext fun a => Fin.ext (by
    match a with
    | ⟨0, _⟩ => rfl
    | ⟨1, _⟩ => rfl
    | ⟨2, _⟩ => rfl)
  have er : ∀ k : Fin 256, ridx_main_v4 (ix3 b n m) k = ix3 b m k := fun k => funext fun a => Fin.ext (by
    match a with
    | ⟨0, _⟩ => rfl
    | ⟨1, _⟩ => rfl
    | ⟨2, _⟩ => rfl)
  have e8 : idx_main_v8 (ix3 b n m) = ix3 b n 0 := funext fun a => Fin.ext (by
    match a with
    | ⟨0, _⟩ => rfl
    | ⟨1, _⟩ => rfl
    | ⟨2, _⟩ => rfl)
  have e9 : idx_main_v9 (ix3 b n m) = ix3 b 0 m := funext fun a => Fin.ext (by
    match a with
    | ⟨0, _⟩ => rfl
    | ⟨1, _⟩ => rfl
    | ⟨2, _⟩ => rfl)
  have e7 : idx_main_v7 (ix3 b 0 m) = ix3 b m 0 := funext fun a => Fin.ext (by
    match a with
    | ⟨0, _⟩ => rfl
    | ⟨1, _⟩ => rfl
    | ⟨2, _⟩ => rfl)
  have h4 : val_main_v4 (F := Ideal) X Wφ Wθ (ix3 b n m)
      = ((∑ i : Fin 256, Cert.Spec.P x wφ b i n * Cert.Spec.P x wθ b i m : ℝ) : EReal) := by
    rw [val_main_v4_apply, coe_sum]
    refine Finset.sum_congr rfl fun k _ => ?_
    rw [el, er, proj_at X Wφ x wφ hX hφ, EReal.coe_mul]
    exact congrArg _ (proj_at X Wθ x wθ hX hθ b m k)
  have h10 : val_main_v10 (F := Ideal) X Wφ Wθ (ix3 b n m)
      = ((Cert.Spec.N x wφ b n * Cert.Spec.N x wθ b m : ℝ) : EReal) := by
    rw [val_main_v10_apply, val_main_v8_apply, e8, norm_at X Wφ x wφ hX hφ, val_main_v9_apply, e9, val_main_v7_apply, e7,
      Ideal.mulf_def, EReal.coe_mul]
    exact congrArg _ (norm_at X Wθ x wθ hX hθ b m)
  rw [val_main_v11_apply, h4, h10, Ideal.hostDivf_def,
    div_coe_coe _ (mul_ne_zero (hNφ b n).ne' (hNθ b m).ne')]
  rfl

end Attn

section Softmax

variable (X : (⟨S8x512x64x64, .f32⟩ : BufTy).Contents (Elt Ideal)) (Wφ Wθ : (⟨S256x512, .f32⟩ : BufTy).Contents (Elt Ideal))
  (x : Fin 8 → Fin 512 → Fin 4096 → ℝ) (wφ wθ : Fin 256 → Fin 512 → ℝ)
  (hX : ∀ b c h w, X (ix4 b c h w) = ((x b c (Cert.Spec.pos h w) : ℝ) : EReal))
  (hφ : ∀ i c, Wφ (ix2 i c) = ((wφ i c : ℝ) : EReal)) (hθ : ∀ i c, Wθ (ix2 i c) = ((wθ i c : ℝ) : EReal))
  (hNφ : ∀ b n, 0 < Cert.Spec.N x wφ b n) (hNθ : ∀ b n, 0 < Cert.Spec.N x wθ b n)
include hX hφ hθ hNφ hNθ

/-! ## The shift -/

/-- The row's shift — the maximum of −∞ and the row's maximum taken from −∞ — is some real. -/
theorem shift_real (b : Fin 8) (n : Fin 4096) :
    ∃ M : ℝ, val_main_v14 (F := Ideal) X Wφ Wθ (ix2 b n) = (M : EReal) := by
  obtain ⟨r, hr⟩ := Cert.KernelIdeal.Num.fold_max_real (fun m : Fin 4096 => Cert.Spec.S x wφ wθ b n m) Finset.univ
    Finset.univ_nonempty
  refine ⟨r, ?_⟩
  have h12 : val_main_v12 (F := Ideal) X Wφ Wθ (ix2 b n) = (r : EReal) := by
    unfold val_main_v12
    rw [Host.reduce_eq_fold_single FloatOps.maximumf _ _ reducesTo_S8x4096x4096_S8x4096_d2 (by decide) h_S_ (ix2 b n)]
    rw [val_main_cst_apply, Ideal.ofBits_def, Cert.KernelIdeal.Num.neginf_f32]
    refine Eq.trans ?_ hr
    refine Finset.fold_congr fun m _ => ?_
    refine Eq.trans ?_ (cos_at X Wφ Wθ x wφ wθ hX hφ hθ hNφ hNθ b n m)
    exact congrArg (val_main_v11 (F := Ideal) X Wφ Wθ) (funext fun a => Fin.ext (by
      match a with
      | ⟨0, _⟩ => rfl
      | ⟨1, _⟩ => rfl
      | ⟨2, _⟩ => rfl))
  rw [val_main_v14_apply, h12, val_main_v13_apply, val_main_cst_0_apply, Ideal.ofBits_def, Cert.KernelIdeal.Num.neginf_f32,
    Ideal.maximumf_def]
  exact max_eq_right bot_le

end Softmax

/-! ## A softmax does not depend on its shift (one block) -/

/-- Each weight exp(s − M) divided by the sum of all of them, then the weighted sum: the weighted softmax average. -/
theorem softmax_shift {J : Type*} [Fintype J] (s f : J → ℝ) (M : ℝ) :
    ∑ j, Real.exp (s j - M) / (∑ j', Real.exp (s j' - M)) * f j
      = (∑ j, Real.exp (s j) * f j) / (∑ j, Real.exp (s j)) := by
  have h := shift_invariant (Finset.univ : Finset Unit) (fun _ j => s j) (fun _ j => f j) M
  simp only [Finset.univ_unique, Finset.sum_singleton] at h
  rw [← h, Finset.sum_div]
  refine Finset.sum_congr rfl fun j _ => ?_
  ring

section Softmax2

variable (X : (⟨S8x512x64x64, .f32⟩ : BufTy).Contents (Elt Ideal)) (Wφ Wθ : (⟨S256x512, .f32⟩ : BufTy).Contents (Elt Ideal))
  (x : Fin 8 → Fin 512 → Fin 4096 → ℝ) (wφ wθ : Fin 256 → Fin 512 → ℝ)
  (hX : ∀ b c h w, X (ix4 b c h w) = ((x b c (Cert.Spec.pos h w) : ℝ) : EReal))
  (hφ : ∀ i c, Wφ (ix2 i c) = ((wφ i c : ℝ) : EReal)) (hθ : ∀ i c, Wθ (ix2 i c) = ((wθ i c : ℝ) : EReal))
  (hNφ : ∀ b n, 0 < Cert.Spec.N x wφ b n) (hNθ : ∀ b n, 0 < Cert.Spec.N x wθ b n)
include hX hφ hθ hNφ hNθ

/-! ## The weights -/

/-- The exponential of the shifted cosine at (b, n, m), the row's shift being M. -/
theorem exp_at (b : Fin 8) (n m : Fin 4096) (M : ℝ) (hM : val_main_v14 (F := Ideal) X Wφ Wθ (ix2 b n) = (M : EReal)) :
    val_main_v18 (F := Ideal) X Wφ Wθ (ix3 b n m) = ((Real.exp (Cert.Spec.S x wφ wθ b n m - M) : ℝ) : EReal) := by
  have e16 : idx_main_v16 (ix3 b n m) = ix3 b n 0 := funext fun a => Fin.ext (by
    match a with
    | ⟨0, _⟩ => rfl
    | ⟨1, _⟩ => rfl
    | ⟨2, _⟩ => rfl)
  have e15 : idx_main_v15 (ix3 b n 0) = ix2 b n := funext fun a => Fin.ext (by
    match a with
    | ⟨0, _⟩ => rfl
    | ⟨1, _⟩ => rfl)
  rw [val_main_v18_apply, val_main_v17_apply, cos_at X Wφ Wθ x wφ wθ hX hφ hθ hNφ hNθ, val_main_v16_apply, e16,
    val_main_v15_apply, e15, hM, Ideal.subf_def, Ideal.hostUnary_exp_def, exp_coe_sub]

/-- The sum of the row's weights at (b, n). -/
theorem den_at (b : Fin 8) (n : Fin 4096) (M : ℝ) (hM : val_main_v14 (F := Ideal) X Wφ Wθ (ix2 b n) = (M : EReal)) :
    val_main_v19 (F := Ideal) X Wφ Wθ (ix2 b n)
      = ((∑ m : Fin 4096, Real.exp (Cert.Spec.S x wφ wθ b n m - M) : ℝ) : EReal) := by
  have e19 : ∀ k : Fin 4096, idx_main_v19 (ix2 b n) k = ix3 b n k := fun k => funext fun a => Fin.ext (by
    match a with
    | ⟨0, _⟩ => rfl
    | ⟨1, _⟩ => rfl
    | ⟨2, _⟩ => rfl)
  have hs : ∑ k : Fin 4096, (val_main_v18 (F := Ideal) X Wφ Wθ) (idx_main_v19 (ix2 b n) k)
      = ((∑ m : Fin 4096, Real.exp (Cert.Spec.S x wφ wθ b n m - M) : ℝ) : EReal) := by
    rw [coe_sum]
    refine Finset.sum_congr rfl fun k _ => ?_
    rw [e19, exp_at X Wφ Wθ x wφ wθ hX hφ hθ hNφ hNθ b n k M hM]
  rw [val_main_v19_apply, hs, val_main_cst_1_apply, Ideal.ofBits_def, Ideal.ofBits_zero_f32, zero_add]

/-- The normalised weight at (b, n, m). -/
theorem sim_at (b : Fin 8) (n m : Fin 4096) (M : ℝ) (hM : val_main_v14 (F := Ideal) X Wφ Wθ (ix2 b n) = (M : EReal)) :
    val_main_v22 (F := Ideal) X Wφ Wθ (ix3 b n m)
      = ((Real.exp (Cert.Spec.S x wφ wθ b n m - M) / (∑ m' : Fin 4096, Real.exp (Cert.Spec.S x wφ wθ b n m' - M)) : ℝ) : EReal) := by
  have e21 : idx_main_v21 (ix3 b n m) = ix3 b n 0 := funext fun a => Fin.ext (by
    match a with
    | ⟨0, _⟩ => rfl
    | ⟨1, _⟩ => rfl
    | ⟨2, _⟩ => rfl)
  have e20 : idx_main_v20 (ix3 b n 0) = ix2 b n := funext fun a => Fin.ext (by
    match a with
    | ⟨0, _⟩ => rfl
    | ⟨1, _⟩ => rfl)
  have hpos : (0 : ℝ) < ∑ m' : Fin 4096, Real.exp (Cert.Spec.S x wφ wθ b n m' - M) :=
    Finset.sum_pos (fun _ _ => Real.exp_pos _) Finset.univ_nonempty
  rw [val_main_v22_apply, exp_at X Wφ Wθ x wφ wθ hX hφ hθ hNφ hNθ b n m M hM, val_main_v21_apply, e21, val_main_v20_apply, e20,
    den_at X Wφ Wθ x wφ wθ hX hφ hθ hNφ hNθ b n M hM, Ideal.hostDivf_def, div_coe_coe _ hpos.ne']

/-! ## The softmax average -/

/-- The weighted values at (b, n, c) are O[b, n, c]. -/
theorem avg_at (b : Fin 8) (n : Fin 4096) (c : Fin 512) :
    val_main_v23 (F := Ideal) X Wφ Wθ (ix3 b n c) = ((Cert.Spec.O x wφ wθ b n c : ℝ) : EReal) := by
  obtain ⟨M, hM⟩ := shift_real X Wφ Wθ x wφ wθ hX hφ hθ hNφ hNθ b n
  have el : ∀ k : Fin 4096, lidx_main_v23 (ix3 b n c) k = ix3 b n k := fun k => funext fun a => Fin.ext (by
    match a with
    | ⟨0, _⟩ => rfl
    | ⟨1, _⟩ => rfl
    | ⟨2, _⟩ => rfl)
  have er : ∀ k : Fin 4096, ridx_main_v23 (ix3 b n c) k = ix3 b k c := fun k => funext fun a => Fin.ext (by
    match a with
    | ⟨0, _⟩ => rfl
    | ⟨1, _⟩ => rfl
    | ⟨2, _⟩ => rfl)
  unfold Cert.Spec.O
  rw [val_main_v23_apply, ← softmax_shift (fun m => Cert.Spec.S x wφ wθ b n m) (fun m => x b c m) M, coe_sum]
  refine Finset.sum_congr rfl fun k _ => ?_
  rw [el, er, sim_at X Wφ Wθ x wφ wθ hX hφ hθ hNφ hNθ b n k M hM, feat_at X x hX, EReal.coe_mul]

end Softmax2

section Result

variable (X : (⟨S8x512x64x64, .f32⟩ : BufTy).Contents (Elt Ideal)) (Wφ Wθ : (⟨S256x512, .f32⟩ : BufTy).Contents (Elt Ideal))
  (Wo : (⟨S512x512, .f32⟩ : BufTy).Contents (Elt Ideal))
  (x : Fin 8 → Fin 512 → Fin 4096 → ℝ) (wφ wθ : Fin 256 → Fin 512 → ℝ) (wo : Fin 512 → Fin 512 → ℝ)
  (hX : ∀ b c h w, X (ix4 b c h w) = ((x b c (Cert.Spec.pos h w) : ℝ) : EReal))
  (hφ : ∀ i c, Wφ (ix2 i c) = ((wφ i c : ℝ) : EReal)) (hθ : ∀ i c, Wθ (ix2 i c) = ((wθ i c : ℝ) : EReal))
  (ho : ∀ c d, Wo (ix2 c d) = ((wo c d : ℝ) : EReal))
  (hNφ : ∀ b n, 0 < Cert.Spec.N x wφ b n) (hNθ : ∀ b n, 0 < Cert.Spec.N x wθ b n)
include hX hφ hθ ho hNφ hNθ

/-! ## The output projection and the clip -/

/-- The projected average at (b, n, d). -/
theorem out_at (b : Fin 8) (n : Fin 4096) (d : Fin 512) :
    val_main_v24 (F := Ideal) X Wφ Wθ Wo (ix3 b n d)
      = ((∑ c : Fin 512, wo c d * Cert.Spec.O x wφ wθ b n c : ℝ) : EReal) := by
  have el : ∀ k : Fin 512, lidx_main_v24 (ix3 b n d) k = ix3 b n k := fun k => funext fun a => Fin.ext (by
    match a with
    | ⟨0, _⟩ => rfl
    | ⟨1, _⟩ => rfl
    | ⟨2, _⟩ => rfl)
  have er : ∀ k : Fin 512, ridx_main_v24 (ix3 b n d) k = ix2 k d := fun k => funext fun a => Fin.ext (by
    match a with
    | ⟨0, _⟩ => rfl
    | ⟨1, _⟩ => rfl)
  rw [val_main_v24_apply, coe_sum]
  refine Finset.sum_congr rfl fun k _ => ?_
  rw [el, er, avg_at X Wφ Wθ x wφ wθ hX hφ hθ hNφ hNθ, ho, EReal.coe_mul, mul_comm]

/-- THE RESULT: the reference at (b, d, h, w) is G[b, d, 64·h + w]. -/
theorem ref_at (b : Fin 8) (d : Fin 512) (h w : Fin 64) :
    val_main_v27 (F := Ideal) X Wφ Wθ Wo (ix4 b d h w)
      = ((Cert.Spec.G x wφ wθ wo b d (Cert.Spec.pos h w) : ℝ) : EReal) := by
  have e26 : idx_main_v26 (ix4 b d h w) = ix3 b d (Cert.Spec.pos h w) := funext fun a => Fin.ext (by
    have hb := b.isLt; have hd := d.isLt; have hh := h.isLt; have hw := w.isLt
    match a with
    | ⟨0, _⟩ => show (((b.val * 512 + d.val) * 64 + h.val) * 64 + w.val) / 2097152 = b.val; omega
    | ⟨1, _⟩ => show (((b.val * 512 + d.val) * 64 + h.val) * 64 + w.val) / 4096 % 512 = d.val; omega
    | ⟨2, _⟩ => show (((b.val * 512 + d.val) * 64 + h.val) * 64 + w.val) % 4096 = 64 * h.val + w.val; omega)
  have e25 : idx_main_v25 (ix3 b d (Cert.Spec.pos h w)) = ix3 b (Cert.Spec.pos h w) d := funext fun a => Fin.ext (by
    match a with
    | ⟨0, _⟩ => rfl
    | ⟨1, _⟩ => rfl
    | ⟨2, _⟩ => rfl)
  unfold Cert.Spec.G
  rw [val_main_v27_apply, val_main_v26_apply, e26, val_main_v25_apply, e25,
    out_at X Wφ Wθ Wo x wφ wθ wo hX hφ hθ ho hNφ hNθ, val_main_call2_v0_apply, val_main_call2_cst_apply, Ideal.ofBits_def,
    Ideal.ofBits_zero_f32, Ideal.maximumf_def, ← EReal.coe_zero]
  exact (EReal.coe_strictMono.monotone.map_max).symm

end Result

end Cert.ReferenceIdeal.RefValue

end
-- ==== Proof.Algebraic.lean ====
/-
  The two result arrays are equal. On the stated domain the precondition gives, on every core, real arrays under the
  four inputs with positive column norms; the kernel's run ends with its result at G of those reals, entry by entry,
  and so does the reference's, run from arguments that agree with the kernel's.
-/
import proofs.«137960_j66374424592665_2_alg».proof.Defs
import proofs.«137960_j66374424592665_2_alg».proof.Proof.IdealValue3
import proofs.«137960_j66374424592665_2_alg».proof.Proof.RefValue
import proofs.«137960_j66374424592665_2_alg».proof.Proof.Gen.KernelIdeal
import proofs.«137960_j66374424592665_2_alg».proof.Proof.Gen.ReferenceIdeal
import proofs.«137960_j66374424592665_2_alg».proof.Proof.Gen.Pre_finite_inputs

set_option maxRecDepth 16384

noncomputable section

namespace Cert.Proof.Value

open Idealize.ShloMosaic Idealize.ShloMosaic.TcCoe Idealize.SL.Sem Idealize.ShloMosaic.ValueIdx

attribute [local instance] Cert.KernelIdeal.Gen.facts Cert.ReferenceIdeal.Gen.facts Cert.Pre_finite_inputs.Gen.facts

/-- What the precondition is decoded to: real arrays under the inputs, positive column norms. -/
def Decoded (X : Cert.KernelIdeal.S8x512x64x64.Idx → EReal) (Wφ Wθ : Cert.KernelIdeal.S256x512.Idx → EReal) (Wo : Cert.KernelIdeal.S512x512.Idx → EReal) : Prop :=
  ∃ (x : Fin 8 → Fin 512 → Fin 4096 → ℝ) (wφ wθ : Fin 256 → Fin 512 → ℝ) (wo : Fin 512 → Fin 512 → ℝ),
    (∀ b c h w, X (ix4 b c h w) = ((x b c (Cert.Spec.pos h w) : ℝ) : EReal))
    ∧ (∀ i c, Wφ (ix2 i c) = ((wφ i c : ℝ) : EReal)) ∧ (∀ i c, Wθ (ix2 i c) = ((wθ i c : ℝ) : EReal))
    ∧ (∀ c d, Wo (ix2 c d) = ((wo c d : ℝ) : EReal))
    ∧ (∀ b n, 0 < Cert.Spec.N x wφ b n) ∧ (∀ b n, 0 < Cert.Spec.N x wθ b n)

theorem algebraic_of
    (hdec : ∀ (m : (ℓ : Loc Cert.KernelIdeal.nD Cert.KernelIdeal.τ Cert.KernelIdeal.sig) → Buf (Elt Ideal) ℓ), Cert.Pre_KernelIdeal m →
      ∀ c : Dev Cert.KernelIdeal.nD, Decoded (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))) :
    Cert.algebraic_KernelIdeal_ReferenceIdeal := by
  intro m ρ m' ρ' hpre hagree
  have hdom := hdec m hpre
  unfold Decoded at hdom
  choose x wφ wθ wo hX hφ hθ ho hNφ hNθ using hdom
  refine ⟨fun c => fun idx : Cert.KernelIdeal.S8x512x64x64.Idx =>
    ((Cert.Spec.G (x c) (wφ c) (wθ c) (wo c) (idx 0) (idx 1) (Cert.Spec.pos (idx 2) (idx 3)) : ℝ) : EReal), ?_, ?_⟩
  · refine (θ_run Cert.KernelIdeal.defs _ _).mono (fun r h c => ⟨(h c).1.trans ?_, (h c).2⟩)
      (Cert.KernelIdeal.Whole.run_named (F := Ideal) m ρ)
    funext idx
    obtain ⟨b, d, hh, ww, rfl⟩ : ∃ (b : Fin 8) (d : Fin 512) (hh ww : Fin 64), idx = ix4 b d hh ww := ⟨idx 0, idx 1, idx 2, idx 3, eq_ix4 idx⟩
    exact Cert.KernelIdeal.Num.kernel_at m c (x c) (wφ c) (wθ c) (wo c) (hX c) (hφ c) (hθ c) (ho c) (hNφ c) (hNθ c) b d hh ww
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq, (hagree c).1, (hagree c).2.1, (hagree c).2.2.1, (hagree c).2.2.2]
    funext idx
    obtain ⟨b, d, hh, ww, rfl⟩ : ∃ (b : Fin 8) (d : Fin 512) (hh ww : Fin 64), idx = ix4 b d hh ww := ⟨idx 0, idx 1, idx 2, idx 3, eq_ix4 idx⟩
    exact Cert.ReferenceIdeal.RefValue.ref_at _ _ _ _ (x c) (wφ c) (wθ c) (wo c) (hX c) (hφ c) (hθ c) (ho c) (hNφ c) (hNθ c) b d hh ww

end Cert.Proof.Value

end
-- ==== Proof.lean ====
/-
  A cosine-similarity attention block, fused into two kernels, against its plain reference.

  Both programs compute, per batch entry, from a feature map x (512 channels × 4096 positions) and three weight matrices:
    φ = W_φ x,  θ = W_θ x                         (256 × 4096 each)
    s[n,m] = ⟨φ[:,n], θ[:,m]⟩ / (‖φ[:,n]‖·‖θ[:,m]‖)   the cosine of the two columns
    P = softmax of s along m
    out[d,n] = max(0, ∑_c W[c,d] · ∑_m P[n,m] · x[c,m]).

  The reference computes exactly that. The kernel differs in two places, neither visible over the reals:
   * it normalises the columns first (multiplying each by the reciprocal of its norm) and only then takes the products,
     so its s[n,m] is ∑ᵢ (φ[i,n]/‖φ[:,n]‖)·(θ[i,m]/‖θ[:,m]‖) — the same number when neither norm is zero
     (`Cert.Lib.OnlineSoftmax.normalized_dot`); at a zero norm the kernel has 0·(+∞) = 0 where the reference has 0/0,
     and that is why the claim is stated on the domain where every column norm is positive;
   * it never forms P: it walks the 4096 keys in eight blocks of 512 keeping a running shift, denominator and
     numerator, rescaling both by exp(old shift − new shift) at each block, and divides once at the end. That
     accumulation lands on (∑ exp(s)·x)/(∑ exp(s)) whatever the shifts (`Cert.Lib.OnlineSoftmax.run_quotient`), and the
     reference's softmax-then-sum is the same quotient (`softmax_sum`).
  Every rounding step between formats is the identity on the extended reals, and a matrix product into a zero
  accumulator is the plain sum of products on both sides.

  The three frames: the kernel programs are each a host reshape, two kernel launches over grids of 16 and 128 points —
  the second carrying its running shift / denominator / numerator in scratch from one key block to the next — and a
  host reshape; every item terminates without a fault and none writes an argument. The ledger of idealization rewrites
  is empty. The two result arrays are equal because each, read entry by entry, is the function G above of the real
  arrays under the inputs.
-/
import proofs.«137960_j66374424592665_2_alg».proof.Defs
import proofs.«137960_j66374424592665_2_alg».proof.Proof.Gen.Kernel
import proofs.«137960_j66374424592665_2_alg».proof.Proof.Gen.Kernel.Skeleton
import proofs.«137960_j66374424592665_2_alg».proof.Proof.Gen.Kernel.Launch
import proofs.«137960_j66374424592665_2_alg».proof.Proof.Gen.Kernel.Regions
import proofs.«137960_j66374424592665_2_alg».proof.Proof.Gen.Kernel.Points
import proofs.«137960_j66374424592665_2_alg».proof.Proof.Gen.KernelIdeal
import proofs.«137960_j66374424592665_2_alg».proof.Proof.Gen.KernelIdeal.Skeleton
import proofs.«137960_j66374424592665_2_alg».proof.Proof.Gen.KernelIdeal.Launch
import proofs.«137960_j66374424592665_2_alg».proof.Proof.Gen.KernelIdeal.Regions
import proofs.«137960_j66374424592665_2_alg».proof.Proof.Gen.KernelIdeal.Points
import proofs.«137960_j66374424592665_2_alg».proof.Proof.Gen.ReferenceIdeal
import proofs.«137960_j66374424592665_2_alg».proof.Proof.Gen.Pre_finite_inputs
import proofs.«137960_j66374424592665_2_alg».proof.Proof.RefFrame
import proofs.«137960_j66374424592665_2_alg».proof.Proof.LibOnlineSoftmax
import proofs.«137960_j66374424592665_2_alg».proof.Proof.BitsWhole
import proofs.«137960_j66374424592665_2_alg».proof.Proof.IdealWhole
import proofs.«137960_j66374424592665_2_alg».proof.Proof.Domain
import proofs.«137960_j66374424592665_2_alg».proof.Proof.Algebraic
import Idealize.ShloMosaic.Adequacy
import Idealize.ShloMosaic.Init

noncomputable section

namespace Cert.Proof

open Idealize.ShloMosaic Idealize.SL.Sem Cert.Kernel

attribute [local instance] Cert.Kernel.Gen.facts Cert.KernelIdeal.Gen.facts Cert.ReferenceIdeal.Gen.facts Cert.Pre_finite_inputs.Gen.facts

/-- The kernel as printed, word level: it terminates, faults nowhere and leaves its four arguments unchanged — each of
    its four items (reshape, projection kernel, attention kernel, reshape) does, and none writes an argument. -/
theorem frame_kernel : Cert.frame_Kernel := fun m ρ _ => Cert.Kernel.Whole.frame (F := Bits) m ρ

/-- The same for the kernel read on the extended reals: the argument never looks at a float's value. -/
theorem frame_kernel_ideal : Cert.frame_KernelIdeal := fun m ρ _ => Cert.KernelIdeal.Whole.frame (F := Ideal) m ρ

/-- On the domain where every column norm is positive, the kernel's result array and the reference's are equal index
    by index: the precondition makes every input entry a real and every norm positive; then each side's entry
    (batch b, channel d, position n) is G[b,d,n] of those reals — the two identities named in the header, applied at each
    (query, key) and each (query, channel). -/
theorem algebraic : Cert.algebraic_KernelIdeal_ReferenceIdeal :=
  Cert.Proof.Value.algebraic_of fun m hpre c => Cert.Domain.of_pre _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernel_ideal, Cert.Proof.Reference.frame, Cert.Proof.Reference.preserves, algebraic⟩

end Cert.Proof

end
